-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S64x128 .f32) (main_arg9 : FVec F S128 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x128 .f32) (main_arg9 : FVec F S128 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S5000x128 : Shape := ⟨2, ![5000, 128]⟩
abbrev S5000x1 : Shape := ⟨2, ![5000, 1]⟩
abbrev S5000x64 : Shape := ⟨2, ![5000, 64]⟩
abbrev S800000x64 : Shape := ⟨2, ![800000, 64]⟩
abbrev S1x64 : Shape := ⟨2, ![1, 64]⟩
abbrev S800000x128 : Shape := ⟨2, ![800000, 128]⟩
abbrev S1x128 : Shape := ⟨2, ![1, 128]⟩

abbrev nBuf : Space → Nat
  | .hbm => 92
  | .vmem => 54
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x64, .f32⟩
  | .hbm, ⟨28, _⟩ => ⟨S50000x64, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x64, .f32⟩
  | .hbm, ⟨38, _⟩ => ⟨S_, .f32⟩
  | .hbm, ⟨39, _⟩ => ⟨S50000x64, .f32⟩
  | .hbm, ⟨40, _⟩ => ⟨S800000x1, .i32⟩
  | .hbm, ⟨41, _⟩ => ⟨S50000x64, .f32⟩
  | .hbm, ⟨42, _⟩ => ⟨S1x64, .f32⟩
  | .hbm, ⟨43, _⟩ => ⟨S50000x64, .f32⟩
  | .hbm, ⟨44, _⟩ => ⟨S50000x64, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x64, .f32⟩
  | .hbm, ⟨54, _⟩ => ⟨S_, .f32⟩
  | .hbm, ⟨55, _⟩ => ⟨S50000x64, .f32⟩
  | .hbm, ⟨56, _⟩ => ⟨S800000x1, .i32⟩
  | .hbm, ⟨57, _⟩ => ⟨S50000x64, .f32⟩
  | .hbm, ⟨58, _⟩ => ⟨S1x64, .f32⟩
  | .hbm, ⟨59, _⟩ => ⟨S50000x64, .f32⟩
  | .hbm, ⟨60, _⟩ => ⟨S50000x64, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x64, .f32⟩
  | .hbm, ⟨70, _⟩ => ⟨S_, .f32⟩
  | .hbm, ⟨71, _⟩ => ⟨S50000x64, .f32⟩
  | .hbm, ⟨72, _⟩ => ⟨S800000x1, .i32⟩
  | .hbm, ⟨73, _⟩ => ⟨S50000x64, .f32⟩
  | .hbm, ⟨74, _⟩ => ⟨S1x64, .f32⟩
  | .hbm, ⟨75, _⟩ => ⟨S50000x128, .f32⟩
  | .hbm, ⟨76, _⟩ => ⟨S50000x128, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x128, .f32⟩
  | .hbm, ⟨86, _⟩ => ⟨S_, .f32⟩
  | .hbm, ⟨87, _⟩ => ⟨S50000x128, .f32⟩
  | .hbm, ⟨88, _⟩ => ⟨S800000x1, .i32⟩
  | .hbm, ⟨89, _⟩ => ⟨S50000x128, .f32⟩
  | .hbm, ⟨90, _⟩ => ⟨S1x128, .f32⟩
  | .hbm, ⟨91, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S1x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x1, .f32⟩
  | .local _ .vmem, ⟨26, _⟩ => ⟨S5000x1, .f32⟩
  | .local _ .vmem, ⟨27, _⟩ => ⟨S1x64, .f32⟩
  | .local _ .vmem, ⟨28, _⟩ => ⟨S64x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x1, .f32⟩
  | .local _ .vmem, ⟨38, _⟩ => ⟨S5000x1, .f32⟩
  | .local _ .vmem, ⟨39, _⟩ => ⟨S1x64, .f32⟩
  | .local _ .vmem, ⟨40, _⟩ => ⟨S64x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x1, .f32⟩
  | .local _ .vmem, ⟨50, _⟩ => ⟨S5000x1, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25_0 : Ref sig .tc := ⟨.hbm, 43, rfl⟩
abbrev main_v25_1 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37_0 : Ref sig .tc := ⟨.hbm, 59, rfl⟩
abbrev main_v37_1 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49_0 : Ref sig .tc := ⟨.hbm, 75, rfl⟩
abbrev main_v49_1 : Ref sig .tc := ⟨.hbm, 76, rfl⟩
abbrev main_c_11 : Ref sig .tc := ⟨.hbm, 77, rfl⟩
abbrev main_v50 : Ref sig .tc := ⟨.hbm, 78, rfl⟩
abbrev main_v51 : Ref sig .tc := ⟨.hbm, 79, rfl⟩
abbrev main_c_12 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_13 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg5_1 : Ref sig .tc := ⟨.vmem, 42, rfl⟩
abbrev cc3_stg6_0 : Ref sig .tc := ⟨.vmem, 43, rfl⟩
abbrev cc3_stg6_1 : Ref sig .tc := ⟨.vmem, 44, rfl⟩
abbrev cc4_stg0_0 : Ref sig .tc := ⟨.vmem, 45, rfl⟩
abbrev cc4_stg0_1 : Ref sig .tc := ⟨.vmem, 46, rfl⟩
abbrev cc4_stg1_0 : Ref sig .tc := ⟨.vmem, 47, rfl⟩
abbrev cc4_stg1_1 : Ref sig .tc := ⟨.vmem, 48, rfl⟩
abbrev cc4_stg2_0 : Ref sig .tc := ⟨.vmem, 49, rfl⟩
abbrev cc4_stg2_1 : Ref sig .tc := ⟨.vmem, 50, rfl⟩
abbrev cc4_stg3_0 : Ref sig .tc := ⟨.vmem, 51, rfl⟩
abbrev cc4_stg4_0 : Ref sig .tc := ⟨.vmem, 52, rfl⟩
abbrev cc4_stg4_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem5_1 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem5_1 : DmaSem sig := 42
abbrev cc3_sem6_0 : DmaSem sig := 43
abbrev cc3_sem6_1 : DmaSem sig := 44
abbrev cc4_sem0_0 : DmaSem sig := 45
abbrev cc4_sem0_1 : DmaSem sig := 46
abbrev cc4_sem1_0 : DmaSem sig := 47
abbrev cc4_sem1_1 : DmaSem sig := 48
abbrev cc4_sem2_0 : DmaSem sig := 49
abbrev cc4_sem2_1 : DmaSem sig := 50
abbrev cc4_sem3_0 : DmaSem sig := 51
abbrev cc4_sem4_0 : DmaSem sig := 52
abbrev cc4_sem4_1 : DmaSem sig := 53

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x128_S64x128_0_0 : ∀ a, (![0, 0] : Fin 2 → Nat) a + S64x128.size a ≤ S64x128.size a
  h_S64x128 : 0 < S64x128.numel
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S800000x1_S800000_n_0_0_1_wf : ScatterDims.WF S50000 S800000x1 S800000 [] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x128.size a ≤ S64x128.size a
  hwx3_4 : ∀ i : grid3.Coords, EltTy.bits .f32 = 32 ∨ (Rect.block (s := S64x128) S64x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v23) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13_0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25_0) S5000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v25_1) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v35) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25_0) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37_0) S5000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v37_1) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v47) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37_0) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v48) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg8) S64x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v49_0) S5000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v49_1) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v59) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v49_0) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v60) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v61) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S800000x64 : Shape := ⟨2, ![800000, 64]⟩
abbrev S1x64 : Shape := ⟨2, ![1, 64]⟩
abbrev S800000x128 : Shape := ⟨2, ![800000, 128]⟩
abbrev S1x128 : Shape := ⟨2, ![1, 128]⟩

abbrev nBuf : Space → Nat
  | .hbm => 142
  | .vmem => 0
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x128, .f32⟩
  | 9 => ⟨S128, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S_, .f32⟩
  | 24 => ⟨S50000, .f32⟩
  | 25 => ⟨S50000, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S800000x1, .f32⟩
  | 46 => ⟨S50000, .f32⟩
  | 47 => ⟨S50000x1, .f32⟩
  | 48 => ⟨S50000x64, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x64, .f32⟩
  | 58 => ⟨S800000x64, .f32⟩
  | 59 => ⟨S800000x64, .f32⟩
  | 60 => ⟨S_, .f32⟩
  | 61 => ⟨S50000x64, .f32⟩
  | 62 => ⟨S800000x1, .i32⟩
  | 63 => ⟨S50000x64, .f32⟩
  | 64 => ⟨S50000x64, .f32⟩
  | 65 => ⟨S50000x64, .f32⟩
  | 66 => ⟨S50000x64, .f32⟩
  | 67 => ⟨S1x64, .f32⟩
  | 68 => ⟨S50000x64, .f32⟩
  | 69 => ⟨S50000x64, .f32⟩
  | 70 => ⟨S_, .f32⟩
  | 71 => ⟨S50000x64, .f32⟩
  | 72 => ⟨S50000x64, .f32⟩
  | 73 => ⟨S50000x64, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x64, .f32⟩
  | 83 => ⟨S800000x64, .f32⟩
  | 84 => ⟨S800000x64, .f32⟩
  | 85 => ⟨S_, .f32⟩
  | 86 => ⟨S50000x64, .f32⟩
  | 87 => ⟨S800000x1, .i32⟩
  | 88 => ⟨S50000x64, .f32⟩
  | 89 => ⟨S50000x64, .f32⟩
  | 90 => ⟨S50000x64, .f32⟩
  | 91 => ⟨S50000x64, .f32⟩
  | 92 => ⟨S1x64, .f32⟩
  | 93 => ⟨S50000x64, .f32⟩
  | 94 => ⟨S50000x64, .f32⟩
  | 95 => ⟨S_, .f32⟩
  | 96 => ⟨S50000x64, .f32⟩
  | 97 => ⟨S50000x64, .f32⟩
  | 98 => ⟨S50000x64, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x64, .f32⟩
  | 108 => ⟨S800000x64, .f32⟩
  | 109 => ⟨S800000x64, .f32⟩
  | 110 => ⟨S_, .f32⟩
  | 111 => ⟨S50000x64, .f32⟩
  | 112 => ⟨S800000x1, .i32⟩
  | 113 => ⟨S50000x64, .f32⟩
  | 114 => ⟨S50000x64, .f32⟩
  | 115 => ⟨S50000x64, .f32⟩
  | 116 => ⟨S50000x64, .f32⟩
  | 117 => ⟨S1x64, .f32⟩
  | 118 => ⟨S50000x64, .f32⟩
  | 119 => ⟨S50000x64, .f32⟩
  | 120 => ⟨S50000x128, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x128, .f32⟩

abbrev hbmTy0_1 (i : Nat) : BufTy := match i % 128 with
  | 0 => ⟨S800000x1, .i32⟩
  | 1 => ⟨S800000x128, .f32⟩
  | 2 => ⟨S800000x128, .f32⟩
  | 3 => ⟨S800000x128, .f32⟩
  | 4 => ⟨S_, .f32⟩
  | 5 => ⟨S50000x128, .f32⟩
  | 6 => ⟨S800000x1, .i32⟩
  | 7 => ⟨S50000x128, .f32⟩
  | 8 => ⟨S50000x128, .f32⟩
  | 9 => ⟨S50000x128, .f32⟩
  | 10 => ⟨S50000x128, .f32⟩
  | 11 => ⟨S1x128, .f32⟩
  | 12 => ⟨S50000x128, .f32⟩
  | 13 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call0_cst : Ref sig .tc := ⟨.hbm, 70, rfl⟩
abbrev main_call0_v0 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call1_cst : Ref sig .tc := ⟨.hbm, 95, rfl⟩
abbrev main_call1_v0 : Ref sig .tc := ⟨.hbm, 96, rfl⟩
abbrev main_v69 : Ref sig .tc := ⟨.hbm, 97, rfl⟩
abbrev main_v70 : Ref sig .tc := ⟨.hbm, 98, rfl⟩
abbrev main_c_12 : Ref sig .tc := ⟨.hbm, 99, rfl⟩
abbrev main_v71 : Ref sig .tc := ⟨.hbm, 100, rfl⟩
abbrev main_v72 : Ref sig .tc := ⟨.hbm, 101, rfl⟩
abbrev main_c_13 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_14 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_c_15 : Ref sig .tc := ⟨.hbm, 121, rfl⟩
abbrev main_v90 : Ref sig .tc := ⟨.hbm, 122, rfl⟩
abbrev main_v91 : Ref sig .tc := ⟨.hbm, 123, rfl⟩
abbrev main_c_16 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_17 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.LibGcnLaw.lean ====
/-
  A graph-convolution layer on the extended reals, in two arrangements, over arbitrary finite types of nodes,
  edges and channels.

  An edge `e` carries the row of its source node `gs e` to the node it lands on (`lands e n`; an edge may land
  nowhere). With `dis` the inverse square roots of the degrees,

    (scaled first)   out n c = (∑ e landing on n, h (gs e) c * dis (gs e)) * dis n + h n c * (dis n * dis n) + b c
    (scaled by edge) out n c = (∑ e landing on n, h (gs e) c * (dis (gs e) * dis (gd e))) + h n c * (dis n * dis n) + b c

  where `gd e` is the node an edge that lands somewhere lands on. The two are equal when every entry of `h` and
  `dis` is a real number: the common factor `dis n` moves across the finite sum. At an infinite entry the law
  fails (a sum of an infinity and its opposite absorbs the factor), so realness is carried through every operation of
  the network: a matrix product, the layer itself and the maximum with zero keep real entries real.
-/
import Mathlib

noncomputable section

namespace Gcn

open scoped BigOperators

/-- Every entry is a real number. -/
def Real1 {α : Type} (f : α → EReal) : Prop := ∀ a, ∃ r : ℝ, f a = (r : EReal)
def Real2 {α β : Type} (f : α → β → EReal) : Prop := ∀ a b, ∃ r : ℝ, f a b = (r : EReal)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {N E A B : Type} [Fintype N] [Fintype E] [Fintype A] [Fintype B]

/-- The matrix product `h · W`. -/
def mm (h : N → A → EReal) (W : A → B → EReal) : N → B → EReal := fun n b => ∑ k, h n k * W k b

/-- The maximum with a fixed value, entry by entry. -/
def relu (z : EReal) (f : N → B → EReal) : N → B → EReal := fun n b => max (f n b) z

variable (lands : E → N → Prop) [∀ e n, Decidable (lands e n)] (gs gd : E → N)

/-- The rows of `hs` carried along the edges and summed where they land. -/
def aggK (hs : N → B → EReal) : N → B → EReal := fun n c =>
  ∑ e ∈ Finset.univ.filter (fun e => lands e n), hs (gs e) c

/-- The rows of `h` carried along the edges, each scaled by its edge's factor, summed where they land. -/
def aggR (dis : N → EReal) (h : N → B → EReal) : N → B → EReal := fun n c =>
  ∑ e ∈ Finset.univ.filter (fun e => lands e n), h (gs e) c * (dis (gs e) * dis (gd e))

/-- The sum over edges scaled by the node's factor, plus the node's own row scaled by the factor's square, plus the bias. -/
def comb (dis : N → EReal) (agg h : N → B → EReal) (b : B → EReal) : N → B → EReal := fun n c =>
  agg n c * dis n + h n c * (dis n * dis n) + b c

/-- The same with the sum over edges taken as it is. -/
def combR (dis : N → EReal) (agg h : N → B → EReal) (b : B → EReal) : N → B → EReal := fun n c =>
  agg n c + h n c * (dis n * dis n) + b c

/-- The rows scaled by their node's factor. -/
def scaled (dis : N → EReal) (h : N → B → EReal) : N → B → EReal := fun n c => h n c * dis n

/-- The layer with the source's factor applied before the edges are summed and the target's after. -/
def layerK (dis : N → EReal) (h : N → B → EReal) (b : B → EReal) : N → B → EReal :=
  comb dis (aggK lands gs (scaled dis h)) h b

/-- The layer with both factors applied edge by edge. -/
def layerR (dis : N → EReal) (h : N → B → EReal) (b : B → EReal) : N → B → EReal :=
  combR dis (aggR lands gs gd dis h) h b

theorem layer_eq (hgd : ∀ e n, lands e n → gd e = n) {dis : N → EReal} {h : N → B → EReal} (b : B → EReal)
    (hdis : Real1 dis) (hh : Real2 h) : layerK lands gs dis h b = layerR lands gs gd dis h b := by
  classical
  choose d hd using hdis
  choose h' hh' using hh
  funext n c
  unfold layerK layerR comb combR aggK aggR scaled
  congr 2
  have e1 : ∀ e ∈ Finset.univ.filter (fun e => lands e n), h (gs e) c * (dis (gs e) * dis (gd e))
      = ((h' (gs e) c * d (gs e) * d n : ℝ) : EReal) := by
    intro e he
    rw [hgd e n (Finset.mem_filter.mp he).2, hh', hd, hd]
    push_cast
    rw [mul_assoc]
  rw [Finset.sum_congr rfl e1, ← coe_sum]
  have e2 : ∀ e ∈ Finset.univ.filter (fun e => lands e n), h (gs e) c * dis (gs e) = ((h' (gs e) c * d (gs e) : ℝ) : EReal) := by
    intro e _
    rw [hh', hd]
    push_cast
    rfl
  rw [Finset.sum_congr rfl e2, ← coe_sum, hd, ← EReal.coe_mul, Finset.sum_mul]

theorem real_mm {h : N → A → EReal} {W : A → B → EReal} (hh : Real2 h) (hW : Real2 W) : Real2 (mm h W) := by
  classical
  choose h' hh' using hh
  choose W' hW' using hW
  intro n b
  refine ⟨∑ k, h' n k * W' k b, ?_⟩
  unfold mm
  rw [coe_sum]
  refine Finset.sum_congr rfl fun k _ => ?_
  rw [hh', hW', EReal.coe_mul]

theorem real_layerK {dis : N → EReal} {h : N → B → EReal} {b : B → EReal} (hdis : Real1 dis) (hh : Real2 h) (hb : Real1 b) :
    Real2 (layerK lands gs dis h b) := by
  classical
  choose d hd using hdis
  choose h' hh' using hh
  choose b' hb' using hb
  intro n c
  refine ⟨(∑ e ∈ Finset.univ.filter (fun e => lands e n), h' (gs e) c * d (gs e)) * d n + h' n c * (d n * d n) + b' c, ?_⟩
  unfold layerK comb aggK scaled
  have e2 : ∀ e ∈ Finset.univ.filter (fun e => lands e n), h (gs e) c * dis (gs e) = ((h' (gs e) c * d (gs e) : ℝ) : EReal) := by
    intro e _
    rw [hh', hd]
    push_cast
    rfl
  rw [Finset.sum_congr rfl e2, ← coe_sum, hd, hh', hb']
  push_cast
  rfl

theorem real_relu {z : EReal} {f : N → B → EReal} (hz : ∃ r : ℝ, z = (r : EReal)) (hf : Real2 f) : Real2 (relu z f) := by
  obtain ⟨z', rfl⟩ := hz
  choose f' hf' using hf
  intro n b
  refine ⟨max (f' n b) z', ?_⟩
  unfold relu
  rw [hf']
  exact (EReal.coe_strictMono.monotone.map_max).symm

/-! ## The four-layer network: 128 → 64 → 64 → 64 → 128 channels, the maximum with `z` after the first two layers -/

variable {C0 C1 C2 C3 C4 : Type} [Fintype C0] [Fintype C1] [Fintype C2] [Fintype C3] [Fintype C4]

def netK (z : EReal) (dis : N → EReal) (x : N → C0 → EReal) (W1 : C0 → C1 → EReal) (b1 : C1 → EReal) (W2 : C1 → C2 → EReal)
    (b2 : C2 → EReal) (W3 : C2 → C3 → EReal) (b3 : C3 → EReal) (W4 : C3 → C4 → EReal) (b4 : C4 → EReal) : N → C4 → EReal :=
  layerK lands gs dis (mm (layerK lands gs dis (mm (relu z (layerK lands gs dis (mm (relu z (layerK lands gs dis (mm x W1) b1)) W2) b2)) W3) b3) W4) b4

def netR (z : EReal) (dis : N → EReal) (x : N → C0 → EReal) (W1 : C0 → C1 → EReal) (b1 : C1 → EReal) (W2 : C1 → C2 → EReal)
    (b2 : C2 → EReal) (W3 : C2 → C3 → EReal) (b3 : C3 → EReal) (W4 : C3 → C4 → EReal) (b4 : C4 → EReal) : N → C4 → EReal :=
  layerR lands gs gd dis (mm (layerR lands gs gd dis (mm (relu z (layerR lands gs gd dis (mm (relu z (layerR lands gs gd dis (mm x W1) b1)) W2) b2)) W3) b3) W4) b4

/-- With every input real and the edges' target map agreeing with where they land, the two networks are equal. -/
theorem net_eq (hgd : ∀ e n, lands e n → gd e = n) {z : EReal} (hz : ∃ r : ℝ, z = (r : EReal)) {dis : N → EReal} (hdis : Real1 dis)
    {x : N → C0 → EReal} (hx : Real2 x) {W1 : C0 → C1 → EReal} (hW1 : Real2 W1) {b1 : C1 → EReal} (hb1 : Real1 b1)
    {W2 : C1 → C2 → EReal} (hW2 : Real2 W2) {b2 : C2 → EReal} (hb2 : Real1 b2)
    {W3 : C2 → C3 → EReal} (hW3 : Real2 W3) {b3 : C3 → EReal} (hb3 : Real1 b3)
    {W4 : C3 → C4 → EReal} (hW4 : Real2 W4) (b4 : C4 → EReal) :
    netK lands gs z dis x W1 b1 W2 b2 W3 b3 W4 b4 = netR lands gs gd z dis x W1 b1 W2 b2 W3 b3 W4 b4 := by
  unfold netK netR
  have r1 := real_mm hx hW1
  have l1 := layer_eq lands gs gd hgd b1 hdis r1
  have r2 := real_mm (real_relu hz (real_layerK lands gs hdis r1 hb1)) hW2
  have l2 := layer_eq lands gs gd hgd b2 hdis r2
  have r3 := real_mm (real_relu hz (real_layerK lands gs hdis r2 hb2)) hW3
  have l3 := layer_eq lands gs gd hgd b3 hdis r3
  have r4 := real_mm (real_layerK lands gs hdis r3 hb3) hW4
  have l4 := layer_eq lands gs gd hgd b4 hdis r4
  rw [← l1, ← l2, ← l3, ← l4]

end Gcn

end
-- ==== Proof.NetSpec.lean ====
/-
  The graph network of this certificate at its literal extents: 50000 nodes, 800000 edges given as a
  `[2, 800000]` array of 32-bit integers (row 0 the sources, row 1 the targets), channels 128 → 64 → 64 → 64 → 128.

  An edge lands on node `n` when its target, read as a signed integer, IS `n` (a target outside `[0, 50000)`
  lands nowhere: the accumulating scatter drops it). The row an edge carries is that of its source wrapped once if
  negative and clamped into `[0, 49999]` (what indexing a table does). The degree of a node is one plus the number
  of edges landing on it, and `dis` its power `-1/2`: a real number, since the degree is a real number.
-/
import proofs.«123087_j26456998543657_2_alg».proof.Proof.LibGcnLaw
import Idealize.ShloMosaic.Lib.ValueIdx
import Idealize.ShloMosaic.PureOps.Ideal

noncomputable section

namespace GcnNet

open Idealize.ShloMosaic Idealize.ShloMosaic.ValueIdx
open scoped BigOperators

/-- A signed index with `50000` added once if it is negative. -/
def wrap (w : BitVec 32) : BitVec 32 := Scalar.select (IntOp.cmpi .slt w 0#32) (IntOp.addi w 50000#32) w

/-- A signed index clamped into the rows of a table of 50000 rows. -/
def node (w : BitVec 32) : Fin 50000 := ⟨min w.toInt.toNat 49999, by omega⟩

abbrev EI := (⟨2, ![2, 800000]⟩ : Shape).Idx → BitVec 32

/-- Edge `e` lands on node `n`. -/
def lands (ei : EI) (e : Fin 800000) (n : Fin 50000) : Prop := (ei (ix2 (1 : Fin 2) e)).toInt = (n.val : ℤ)

instance (ei : EI) (e : Fin 800000) (n : Fin 50000) : Decidable (lands ei e n) :=
  inferInstanceAs (Decidable ((ei (ix2 (1 : Fin 2) e)).toInt = (n.val : ℤ)))

/-- The node whose row edge `e` carries. -/
def gs (ei : EI) (e : Fin 800000) : Fin 50000 := node (wrap (ei (ix2 (0 : Fin 2) e)))

/-- The node read at edge `e`'s target. -/
def gd (ei : EI) (e : Fin 800000) : Fin 50000 := node (wrap (ei (ix2 (1 : Fin 2) e)))

def one : EReal := Ideal.ofBits .f32 0x3F800000#32
def zero : EReal := Ideal.ofBits .f32 0x00000000#32
def mhalf : EReal := Ideal.ofBits .f32 0xBF000000#32

theorem one_eq : one = ((1 : ℝ) : EReal) := by
  unfold one; simp [Ideal.ofBits, Ideal.ieee, -EReal.coe_mul]; norm_num
theorem zero_eq : zero = ((0 : ℝ) : EReal) := by
  unfold zero; simp [Ideal.ofBits, Ideal.ieee]
theorem mhalf_eq : mhalf = ((-(1 / 2) : ℝ) : EReal) := by
  unfold mhalf; simp [Ideal.ofBits, Ideal.ieee, -EReal.coe_mul]; norm_num

/-- One plus the number of edges landing on the node, as the programs compute it. -/
def deg (ei : EI) (n : Fin 50000) : EReal := one + (zero + ∑ _e ∈ Finset.univ.filter (fun e => lands ei e n), one)

/-- The degree's power `-1/2`. -/
def dis (ei : EI) (n : Fin 50000) : EReal := Ideal.pow (deg ei n) mhalf

theorem real_dis (ei : EI) : Gcn.Real1 (dis ei) := by
  intro n
  unfold dis deg
  rw [one_eq, zero_eq, mhalf_eq, ← Gcn.coe_sum, ← EReal.coe_add, ← EReal.coe_add]
  exact ⟨_, rfl⟩

theorem real_zero : ∃ r : ℝ, zero = (r : EReal) := ⟨0, zero_eq⟩

/-- An edge that lands on `n` has a target in range, so reading a table at its target reads row `n`. -/
theorem gd_of_lands (ei : EI) (e : Fin 800000) (n : Fin 50000) (h : lands ei e n) : gd ei e = n := by
  unfold lands at h
  unfold gd
  generalize ei (ix2 (1 : Fin 2) e) = w at h
  have hn : n.val < 50000 := n.isLt
  have hnot : ¬ w.slt 0#32 = true := by
    rw [BitVec.slt_iff_toInt_lt]
    simp only [BitVec.toInt_zero]
    omega
  have hw : wrap w = w := by
    unfold wrap
    have : IntOp.cmpi .slt w 0#32 = 0#1 := by
      unfold IntOp.cmpi
      simp [hnot]
    rw [this]
    exact if_neg (by decide)
  rw [hw]
  apply Fin.ext
  show min w.toInt.toNat 49999 = n.val
  rw [h]
  simp only [Int.toNat_natCast]
  omega

/-- An array of two axes as a function of its two coordinates; an array of one axis as a function of its coordinate. -/
def mat {a b : Nat} (X : (⟨2, ![a, b]⟩ : Shape).Idx → EReal) : Fin a → Fin b → EReal := fun p q => X (ix2 p q)
def vec {a : Nat} (X : (⟨1, ![a]⟩ : Shape).Idx → EReal) : Fin a → EReal := fun p => X (ix1 p)

variable (ei : EI) (x : (⟨2, ![50000, 128]⟩ : Shape).Idx → EReal)
  (W1 : (⟨2, ![128, 64]⟩ : Shape).Idx → EReal) (b1 : (⟨1, ![64]⟩ : Shape).Idx → EReal)
  (W2 : (⟨2, ![64, 64]⟩ : Shape).Idx → EReal) (b2 : (⟨1, ![64]⟩ : Shape).Idx → EReal)
  (W3 : (⟨2, ![64, 64]⟩ : Shape).Idx → EReal) (b3 : (⟨1, ![64]⟩ : Shape).Idx → EReal)
  (Wd : (⟨2, ![64, 128]⟩ : Shape).Idx → EReal) (bd : (⟨1, ![128]⟩ : Shape).Idx → EReal)

/-- The network with each layer's source factor applied at the nodes before the edges are summed. -/
def kerNet : Fin 50000 → Fin 128 → EReal :=
  Gcn.netK (lands ei) (gs ei) zero (dis ei) (mat x) (mat W1) (vec b1) (mat W2) (vec b2) (mat W3) (vec b3) (mat Wd) (vec bd)

/-- The network with both factors applied edge by edge. -/
def refNet : Fin 50000 → Fin 128 → EReal :=
  Gcn.netR (lands ei) (gs ei) (gd ei) zero (dis ei) (mat x) (mat W1) (vec b1) (mat W2) (vec b2) (mat W3) (vec b3) (mat Wd) (vec bd)

theorem nets_eq (hx : Gcn.Real2 (mat x)) (hW1 : Gcn.Real2 (mat W1)) (hb1 : Gcn.Real1 (vec b1)) (hW2 : Gcn.Real2 (mat W2))
    (hb2 : Gcn.Real1 (vec b2)) (hW3 : Gcn.Real2 (mat W3)) (hb3 : Gcn.Real1 (vec b3)) (hWd : Gcn.Real2 (mat Wd)) :
    kerNet ei x W1 b1 W2 b2 W3 b3 Wd bd = refNet ei x W1 b1 W2 b2 W3 b3 Wd bd :=
  Gcn.net_eq (lands ei) (gs ei) (gd ei) (gd_of_lands ei) real_zero (real_dis ei) hx hW1 hb1 hW2 hb2 hW3 hb3 hWd (vec bd)

end GcnNet

end
-- ==== Proof.Finite.lean ====
/-
  Realness of the nine float arguments from the finiteness precondition.

  The precondition is the conjunction (by `and` on one-bit words) of nine tests, one per float argument `a`:
  "every entry of `|a|` is strictly below `+∞`", computed as the reduction by `and`, from the word 1, of the
  entrywise comparison of `|a| = max a (-a)` with the broadcast of the bit pattern of `+∞`. If the conjunction is 1
  then each reduction is 1, so every entry of each comparison is 1, so `max x (-x) < ⊤` at every entry `x`;
  an extended real with `x < ⊤` and `-x < ⊤` is neither `⊤` nor `⊥`, hence a real number. The integer argument
  (the edge list) is not constrained.
-/
import proofs.«123087_j26456998543657_2_alg».proof.Pre_finite_inputs
import proofs.«123087_j26456998543657_2_alg».proof.Proof.Gen.Pre_finite_inputs
import proofs.«123087_j26456998543657_2_alg».proof.Proof.NetSpec
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx

/-- The shape of a scalar: rank zero. -/
abbrev S0 : Shape := ⟨0, ![]⟩

/-- A scalar has exactly one index. -/
instance : Subsingleton S0.Idx := ⟨fun a b => funext fun d => d.elim0⟩

/-- The bit pattern `0x7F800000` (sign 0, exponent all ones, fraction 0) denotes `+∞`. -/
theorem inf_eq_top : Ideal.ofBits .f32 0x7F800000#32 = (⊤ : EReal) := by
  simp [Ideal.ofBits, Ideal.ieee]

/-- One entry: if `|x| < +∞` holds (the comparison's word is 1) then `x` is a real number. -/
theorem real_of_abs_lt_inf (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  have h' : Ideal.cmp .olt (max x (-x)) (Ideal.ofBits .f32 0x7F800000#32) = 1#1 := h
  rw [inf_eq_top] at h'
  unfold Ideal.cmp at h'
  have hlt : max x (-x) < ⊤ := by
    by_contra hn
    simp [hn] at h'
  rw [max_lt_iff] at hlt
  induction x using EReal.rec with
  | bot => simp at hlt
  | coe r => exact ⟨r, rfl⟩
  | top => simp at hlt

/-- One test, over an array of any shape: if "all of `|x| < +∞`" is 1 then every entry of `x` is a real number. -/
theorem real_of_all {s : Shape} {axes : List (Fin s.rank)}
    (hb : S0.BroadcastsInDim s (![] : Fin 0 → Fin s.rank)) (hr : s.ReducesTo axes S0) (hS : 0 < S0.numel)
    (x : s.Idx → EReal)
    (h : Host.reduce IntOp.andi
          (cmpf .olt (Host.absf (F := Ideal) (φ := .f32) x)
            (broadcastInDim s ![] hb (constant (F := Ideal) S0 .f32 0x7F800000#32)))
          (constantI S0 1 1#1) hr hS ix0 = 1#1) (i : s.Idx) :
    ∃ r : ℝ, x i = (r : EReal) :=
  real_of_abs_lt_inf (x i) (Host.reduce_andi_all _ _ hr hS ix0 h i)

/-- The test over an array of two axes, read by its two coordinates. -/
theorem real2_of_all {a b : Nat} {axes : List (Fin (⟨2, ![a, b]⟩ : Shape).rank)}
    (hb : S0.BroadcastsInDim ⟨2, ![a, b]⟩ (![] : Fin 0 → Fin (⟨2, ![a, b]⟩ : Shape).rank))
    (hr : (⟨2, ![a, b]⟩ : Shape).ReducesTo axes S0) (hS : 0 < S0.numel)
    (x : (⟨2, ![a, b]⟩ : Shape).Idx → EReal)
    (h : Host.reduce IntOp.andi
          (cmpf .olt (Host.absf (F := Ideal) (φ := .f32) x)
            (broadcastInDim ⟨2, ![a, b]⟩ ![] hb (constant (F := Ideal) S0 .f32 0x7F800000#32)))
          (constantI S0 1 1#1) hr hS ix0 = 1#1) :
    Gcn.Real2 (GcnNet.mat x) :=
  fun p q => real_of_all hb hr hS x h (ix2 p q)

/-- The test over an array of one axis, read by its coordinate. -/
theorem real1_of_all {a : Nat} {axes : List (Fin (⟨1, ![a]⟩ : Shape).rank)}
    (hb : S0.BroadcastsInDim ⟨1, ![a]⟩ (![] : Fin 0 → Fin (⟨1, ![a]⟩ : Shape).rank))
    (hr : (⟨1, ![a]⟩ : Shape).ReducesTo axes S0) (hS : 0 < S0.numel)
    (x : (⟨1, ![a]⟩ : Shape).Idx → EReal)
    (h : Host.reduce IntOp.andi
          (cmpf .olt (Host.absf (F := Ideal) (φ := .f32) x)
            (broadcastInDim ⟨1, ![a]⟩ ![] hb (constant (F := Ideal) S0 .f32 0x7F800000#32)))
          (constantI S0 1 1#1) hr hS ix0 = 1#1) :
    Gcn.Real1 (GcnNet.vec x) :=
  fun p => real_of_all hb hr hS x h (ix1 p)

/-- The conjunction of two scalar one-bit words, read at the scalar's index. -/
theorem andi_ix0 (x y : IVec S0 1) : andi x y ix0 = 1#1 ↔ x ix0 = 1#1 ∧ y ix0 = 1#1 := IntOp.andi_eq_one

/-- The precondition gives that each of the nine float arguments is real at every entry. -/
theorem real_of_pre [hPre : Cert.Pre_finite_inputs.Facts]
    (a0 : (⟨2, ![50000, 128]⟩ : Shape).Idx → EReal) (a1 : (⟨2, ![2, 800000]⟩ : Shape).Idx → BitVec 32)
    (a2 : (⟨2, ![128, 64]⟩ : Shape).Idx → EReal) (a3 : (⟨1, ![64]⟩ : Shape).Idx → EReal)
    (a4 : (⟨2, ![64, 64]⟩ : Shape).Idx → EReal) (a5 : (⟨1, ![64]⟩ : Shape).Idx → EReal)
    (a6 : (⟨2, ![64, 64]⟩ : Shape).Idx → EReal) (a7 : (⟨1, ![64]⟩ : Shape).Idx → EReal)
    (a8 : (⟨2, ![64, 128]⟩ : Shape).Idx → EReal) (a9 : (⟨1, ![128]⟩ : Shape).Idx → EReal)
    (h : Cert.Pre_finite_inputs.fn (F := Ideal) a0 a1 a2 a3 a4 a5 a6 a7 a8 a9 = (fun _ => 1#1)) :
    Gcn.Real2 (GcnNet.mat a0) ∧ Gcn.Real2 (GcnNet.mat a2) ∧ Gcn.Real1 (GcnNet.vec a3) ∧ Gcn.Real2 (GcnNet.mat a4)
      ∧ Gcn.Real1 (GcnNet.vec a5) ∧ Gcn.Real2 (GcnNet.mat a6) ∧ Gcn.Real1 (GcnNet.vec a7) ∧ Gcn.Real2 (GcnNet.mat a8)
      ∧ Gcn.Real1 (GcnNet.vec a9) := by
  have h0 := congrFun h ix0
  dsimp only [Cert.Pre_finite_inputs.fn, Cert.Pre_finite_inputs.fn_part1, Cert.Pre_finite_inputs.fn_part2] at h0
  simp only [andi_ix0] at h0
  obtain ⟨⟨⟨⟨⟨⟨⟨⟨h0, h2⟩, h3⟩, h4⟩, h5⟩, h6⟩, h7⟩, h8⟩, h9⟩ := h0
  exact ⟨real2_of_all _ _ _ a0 h0, real2_of_all _ _ _ a2 h2, real1_of_all _ _ _ a3 h3, real2_of_all _ _ _ a4 h4,
    real1_of_all _ _ _ a5 h5, real2_of_all _ _ _ a6 h6, real1_of_all _ _ _ a7 h7, real2_of_all _ _ _ a8 h8,
    real1_of_all _ _ _ a9 h9⟩

end Cert.Finite

end
-- ==== Proof.KerRun.lean ====
/-
  The idealized kernel's run with its result named.

  @main is ten segments: five stretches of host operations and five kernel regions. Every weakly fair execution
  terminates without a fault, and in every final state each buffer that outlives its region holds the contents the
  fold through the segments leaves there: a host stretch replaces its results by its operations' values, a region
  replaces its output arrays by what its grid points write back. Read at the result buffer this names the result
  array; read at an argument it gives back the launch contents, since no segment writes an argument.
-/
import proofs.«123087_j26456998543657_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the contents the
    fold through the ten segments leaves in it, and the ten arguments end as launched. -/
theorem run : θ_run defs (onTc (τ := τ) (main (F := F))) ⟨m, fun _ => 0, ρ⟩ (fun r => ∀ c : Dev nD,
      r.2.mem ((c.tc : Thread nD τ).loc main_v61) = W10 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v61 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.RunValue

end
-- ==== Proof.KerKeep.lean ====
/-
  Which buffers the segments of @main leave alone.

  After the first stretch of host operations has computed the two index vectors (the sources and the targets of the
  edges) and the column of inverse square roots of the degrees, no later segment writes them, and no segment at all
  writes an argument: a host stretch writes only its own results, and a region writes only its output arrays (an
  array a region only reads through an input window ends as it was found). So at every later segment boundary these
  buffers hold what they held when the first region was entered.
-/
import proofs.«123087_j26456998543657_2_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A buffer that none of a stretch's operations writes keeps its contents through the stretch. -/
macro "host_keep" : tactic => `(tactic|
  exact StableHlo.after_of_forall_not_mem _ _ (List.forall_iff_forall_mem.mp (by
    simp only [hostOps0, hostOps1, hostOps2, hostOps3, hostOps4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- The index vectors, the column of degree factors and the arguments. -/
def kept : List (Ref sig .tc) := [main_v1, main_v3, main_v12, main_arg0, main_arg1, main_arg2, main_arg3, main_arg4, main_arg5, main_arg6, main_arg7, main_arg8, main_arg9]

theorem keep_r0 (c : Dev nD) (b : Ref sig .tc) (hb : b ∈ kept) :
    W2 m ρ c (Proc.devRef .tc b) = W1 m ρ c (Proc.devRef .tc b) := by
  simp only [kept, List.mem_cons, List.mem_nil_iff, or_false] at hb
  rcases hb with rfl | rfl | rfl | rfl | rfl | rfl | rfl | rfl | rfl | rfl | rfl | rfl | rfl <;>
  first
    | exact W2_of_ne m ρ c _ (by decide)
    | exact (W2_arr m ρ c 0).trans (((dat0 (V1 m ρ) c).arrAt_in 0 rfl _).trans (A_eq0 (V1 m ρ) c 0))
    | exact (W2_arr m ρ c 1).trans (((dat0 (V1 m ρ) c).arrAt_in 1 rfl _).trans (A_eq0 (V1 m ρ) c 1))
    | exact (W2_arr m ρ c 2).trans (((dat0 (V1 m ρ) c).arrAt_in 2 rfl _).trans (A_eq0 (V1 m ρ) c 2))
    | exact (W2_arr m ρ c 3).trans (((dat0 (V1 m ρ) c).arrAt_in 3 rfl _).trans (A_eq0 (V1 m ρ) c 3))
    | exact (W2_arr m ρ c 4).trans (((dat0 (V1 m ρ) c).arrAt_in 4 rfl _).trans (A_eq0 (V1 m ρ) c 4))

theorem keep_h1 (c : Dev nD) (b : Ref sig .tc) (hb : b ∈ kept) :
    W3 m ρ c (Proc.devRef .tc b) = W2 m ρ c (Proc.devRef .tc b) := by
  simp only [kept, List.mem_cons, List.mem_nil_iff, or_false] at hb
  rcases hb with rfl | rfl | rfl | rfl | rfl | rfl | rfl | rfl | rfl | rfl | rfl | rfl | rfl <;> host_keep

theorem keep_r1 (c : Dev nD) (b : Ref sig .tc) (hb : b ∈ kept) :
    W4 m ρ c (Proc.devRef .tc b) = W3 m ρ c (Proc.devRef .tc b) := by
  simp only [kept, List.mem_cons, List.mem_nil_iff, or_false] at hb
  rcases hb with rfl | rfl | rfl | rfl | rfl | rfl | rfl | rfl | rfl | rfl | rfl | rfl | rfl <;>
  first
    | exact W4_of_ne m ρ c _ (by decide)
    | exact (W4_arr m ρ c 0).trans (((dat1 (V3 m ρ) c).arrAt_in 0 rfl _).trans (A_eq1 (V3 m ρ) c 0))
    | exact (W4_arr m ρ c 1).trans (((dat1 (V3 m ρ) c).arrAt_in 1 rfl _).trans (A_eq1 (V3 m ρ) c 1))
    | exact (W4_arr m ρ c 2).trans (((dat1 (V3 m ρ) c).arrAt_in 2 rfl _).trans (A_eq1 (V3 m ρ) c 2))
    | exact (W4_arr m ρ c 3).trans (((dat1 (V3 m ρ) c).arrAt_in 3 rfl _).trans (A_eq1 (V3 m ρ) c 3))
    | exact (W4_arr m ρ c 4).trans (((dat1 (V3 m ρ) c).arrAt_in 4 rfl _).trans (A_eq1 (V3 m ρ) c 4))
    | exact (W4_arr m ρ c 5).trans (((dat1 (V3 m ρ) c).arrAt_in 5 rfl _).trans (A_eq1 (V3 m ρ) c 5))
    | exact (W4_arr m ρ c 6).trans (((dat1 (V3 m ρ) c).arrAt_in 6 rfl _).trans (A_eq1 (V3 m ρ) c 6))

theorem keep_h2 (c : Dev nD) (b : Ref sig .tc) (hb : b ∈ kept) :
    W5 m ρ c (Proc.devRef .tc b) = W4 m ρ c (Proc.devRef .tc b) := by
  simp only [kept, List.mem_cons, List.mem_nil_iff, or_false] at hb
  rcases hb with rfl | rfl | rfl | rfl | rfl | rfl | rfl | rfl | rfl | rfl | rfl | rfl | rfl <;> host_keep

theorem keep_r2 (c : Dev nD) (b : Ref sig .tc) (hb : b ∈ kept) :
    W6 m ρ c (Proc.devRef .tc b) = W5 m ρ c (Proc.devRef .tc b) := by
  simp only [kept, List.mem_cons, List.mem_nil_iff, or_false] at hb
  rcases hb with rfl | rfl | rfl | rfl | rfl | rfl | rfl | rfl | rfl | rfl | rfl | rfl | rfl <;>
  first
    | exact W6_of_ne m ρ c _ (by decide)
    | exact (W6_arr m ρ c 0).trans (((dat2 (V5 m ρ) c).arrAt_in 0 rfl _).trans (A_eq2 (V5 m ρ) c 0))
    | exact (W6_arr m ρ c 1).trans (((dat2 (V5 m ρ) c).arrAt_in 1 rfl _).trans (A_eq2 (V5 m ρ) c 1))
    | exact (W6_arr m ρ c 2).trans (((dat2 (V5 m ρ) c).arrAt_in 2 rfl _).trans (A_eq2 (V5 m ρ) c 2))
    | exact (W6_arr m ρ c 3).trans (((dat2 (V5 m ρ) c).arrAt_in 3 rfl _).trans (A_eq2 (V5 m ρ) c 3))
    | exact (W6_arr m ρ c 4).trans (((dat2 (V5 m ρ) c).arrAt_in 4 rfl _).trans (A_eq2 (V5 m ρ) c 4))
    | exact (W6_arr m ρ c 5).trans (((dat2 (V5 m ρ) c).arrAt_in 5 rfl _).trans (A_eq2 (V5 m ρ) c 5))
    | exact (W6_arr m ρ c 6).trans (((dat2 (V5 m ρ) c).arrAt_in 6 rfl _).trans (A_eq2 (V5 m ρ) c 6))

theorem keep_h3 (c : Dev nD) (b : Ref sig .tc) (hb : b ∈ kept) :
    W7 m ρ c (Proc.devRef .tc b) = W6 m ρ c (Proc.devRef .tc b) := by
  simp only [kept, List.mem_cons, List.mem_nil_iff, or_false] at hb
  rcases hb with rfl | rfl | rfl | rfl | rfl | rfl | rfl | rfl | rfl | rfl | rfl | rfl | rfl <;> host_keep

theorem keep_r3 (c : Dev nD) (b : Ref sig .tc) (hb : b ∈ kept) :
    W8 m ρ c (Proc.devRef .tc b) = W7 m ρ c (Proc.devRef .tc b) := by
  simp only [kept, List.mem_cons, List.mem_nil_iff, or_false] at hb
  rcases hb with rfl | rfl | rfl | rfl | rfl | rfl | rfl | rfl | rfl | rfl | rfl | rfl | rfl <;>
  first
    | exact W8_of_ne m ρ c _ (by decide)
    | exact (W8_arr m ρ c 0).trans (((dat3 (V7 m ρ) c).arrAt_in 0 rfl _).trans (A_eq3 (V7 m ρ) c 0))
    | exact (W8_arr m ρ c 1).trans (((dat3 (V7 m ρ) c).arrAt_in 1 rfl _).trans (A_eq3 (V7 m ρ) c 1))
    | exact (W8_arr m ρ c 2).trans (((dat3 (V7 m ρ) c).arrAt_in 2 rfl _).trans (A_eq3 (V7 m ρ) c 2))
    | exact (W8_arr m ρ c 3).trans (((dat3 (V7 m ρ) c).arrAt_in 3 rfl _).trans (A_eq3 (V7 m ρ) c 3))
    | exact (W8_arr m ρ c 4).trans (((dat3 (V7 m ρ) c).arrAt_in 4 rfl _).trans (A_eq3 (V7 m ρ) c 4))
    | exact (W8_arr m ρ c 5).trans (((dat3 (V7 m ρ) c).arrAt_in 5 rfl _).trans (A_eq3 (V7 m ρ) c 5))
    | exact (W8_arr m ρ c 6).trans (((dat3 (V7 m ρ) c).arrAt_in 6 rfl _).trans (A_eq3 (V7 m ρ) c 6))

theorem keep_h4 (c : Dev nD) (b : Ref sig .tc) (hb : b ∈ kept) :
    W9 m ρ c (Proc.devRef .tc b) = W8 m ρ c (Proc.devRef .tc b) := by
  simp only [kept, List.mem_cons, List.mem_nil_iff, or_false] at hb
  rcases hb with rfl | rfl | rfl | rfl | rfl | rfl | rfl | rfl | rfl | rfl | rfl | rfl | rfl <;> host_keep

theorem at2 (c : Dev nD) (b : Ref sig .tc) (hb : b ∈ kept) : W2 m ρ c (Proc.devRef .tc b) = W1 m ρ c (Proc.devRef .tc b) := keep_r0 m ρ c b hb
theorem at3 (c : Dev nD) (b : Ref sig .tc) (hb : b ∈ kept) : W3 m ρ c (Proc.devRef .tc b) = W1 m ρ c (Proc.devRef .tc b) := (keep_h1 m ρ c b hb).trans (at2 m ρ c b hb)
theorem at4 (c : Dev nD) (b : Ref sig .tc) (hb : b ∈ kept) : W4 m ρ c (Proc.devRef .tc b) = W1 m ρ c (Proc.devRef .tc b) := (keep_r1 m ρ c b hb).trans (at3 m ρ c b hb)
theorem at5 (c : Dev nD) (b : Ref sig .tc) (hb : b ∈ kept) : W5 m ρ c (Proc.devRef .tc b) = W1 m ρ c (Proc.devRef .tc b) := (keep_h2 m ρ c b hb).trans (at4 m ρ c b hb)
theorem at6 (c : Dev nD) (b : Ref sig .tc) (hb : b ∈ kept) : W6 m ρ c (Proc.devRef .tc b) = W1 m ρ c (Proc.devRef .tc b) := (keep_r2 m ρ c b hb).trans (at5 m ρ c b hb)
theorem at7 (c : Dev nD) (b : Ref sig .tc) (hb : b ∈ kept) : W7 m ρ c (Proc.devRef .tc b) = W1 m ρ c (Proc.devRef .tc b) := (keep_h3 m ρ c b hb).trans (at6 m ρ c b hb)
theorem at8 (c : Dev nD) (b : Ref sig .tc) (hb : b ∈ kept) : W8 m ρ c (Proc.devRef .tc b) = W1 m ρ c (Proc.devRef .tc b) := (keep_r3 m ρ c b hb).trans (at7 m ρ c b hb)
theorem at9 (c : Dev nD) (b : Ref sig .tc) (hb : b ∈ kept) : W9 m ρ c (Proc.devRef .tc b) = W1 m ρ c (Proc.devRef .tc b) := (keep_h4 m ρ c b hb).trans (at8 m ρ c b hb)

/-- The first stretch writes no argument: an argument holds its launch contents when the first region is entered. -/
theorem arg_at1 (c : Dev nD) (b : Ref sig .tc)
    (hb : b ∈ [main_arg0, main_arg1, main_arg2, main_arg3, main_arg4, main_arg5, main_arg6, main_arg7, main_arg8, main_arg9]) :
    W1 m ρ c (Proc.devRef .tc b) = m ((c : Thread nD τ).loc b) := by
  simp only [List.mem_cons, List.mem_nil_iff, or_false] at hb
  rcases hb with rfl | rfl | rfl | rfl | rfl | rfl | rfl | rfl | rfl | rfl <;>
  exact (show W1 m ρ c (Proc.devRef .tc _) = W0 m ρ c (Proc.devRef .tc _) by host_keep)

end Cert.KernelIdeal.Keep

end
-- ==== Proof.LibRowGather.lean ====
/-
  A row gather read at an index. What `x[idx]` of a table `x : [N, C]` at an integer vector `idx : [R]` lowers to is a
  gather with offset axis 1, collapsed slice axis 0, start index map [0], slice sizes [1, C] and index vector axis 1
  over the indices as `[R, 1]`: row `r` of the result is the table's row whose number is `idx[r, 0]` read as a signed
  integer and clamped into `[0, N - 1]`; column `c` of the result is column `c` of that row. The extents N, C, R are
  arbitrary (N positive).
-/
import Idealize.ShloMosaic.Lib.ValueIdx

namespace RowGather

open Idealize.ShloMosaic Idealize.ShloMosaic.ValueIdx

variable {α : Type}

/-- The dimension numbers of a row gather for a table `[N, C]`, start indices `[R, 1]` and result `[R, C]`. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gathered array at (r, c) is the table at (clamp (idx (r, 0)), c). -/
theorem gather_row_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N C R wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ =>
    show (rowDims N C R wf).start (ix2 r c) idx (0 : Fin 2) + (rowDims N C R wf).batchCoord (ix2 r c) (0 : Fin 2)
        + (rowDims N C R wf).offCoord (ix2 r c) (0 : Fin 2) = min (idx (ix2 r (0 : Fin 1))).toInt.toNat (N - 1)
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 r c) ⟨List.idxOf (0 : Fin 2) (rowDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    have hs : (rowDims N C R wf).start (ix2 r c) idx (1 : Fin 2) = 0 := by
      unfold GatherDims.start
      exact dif_neg (by decide : (1 : Fin 2) ∉ ([0] : List (Fin 2)))
    have ho : (rowDims N C R wf).offCoord (ix2 r c) (1 : Fin 2) = c.val := by
      unfold GatherDims.offCoord
      rw [dif_pos ((GatherDims.mem_sKept _ _).mpr
        ⟨(by decide : (1 : Fin 2) ∉ ([0] : List (Fin 2))), List.not_mem_nil⟩)]
      rfl
    show (rowDims N C R wf).start (ix2 r c) idx (1 : Fin 2) + (rowDims N C R wf).batchCoord (ix2 r c) (1 : Fin 2)
        + (rowDims N C R wf).offCoord (ix2 r c) (1 : Fin 2) = c.val
    rw [GatherDims.batchCoord_eq_zero _ _ _ List.not_mem_nil, hs, ho]
    omega

end RowGather
-- ==== Proof.LibScatterRows.lean ====
/-
  A row scatter that accumulates, read at an index, and the sum it equals when each row goes to the row numbered by
  its own number divided by K.

  What `x.at[idx].add(U)` of an array `x : [N, C]`, an integer vector `idx : [R]` and updates `U : [R, C]` lowers to is a
  scatter with an add body, update window axis 1, inserted window axis 0, scatter-dims-to-operand-dims [0] and index vector
  axis 1 over the indices as `[R, 1]`: row `p` of `U` is added to the row of `x` whose number is `idx[p, 0]` read as a
  signed integer, and a row whose index lies outside `[0, N)` is dropped. On the extended reals:

  (A) the result at (t, c) is `x (t, c)` plus the sum of `U (p, c)` over the rows `p` with `idx[p, 0] = t`
      (`scatterAdd_rows_apply`; `resultIdx?_rows_iff` says which update element lands where, from the general
      `resultIdx?_eq_some_iff`: an update lands on `i` exactly when start plus window coordinate is `i`'s coordinate on
      every axis);
  (B) when `idx[p, 0] = p / K` for every row (K positive, `N * K ≤ R`), the rows landing on row `t` are
      `K * t + k` for `k < K`, so the result at (t, c) is `x (t, c) + ∑ k < K, U (K * t + k, c)` (`scatterAdd_rows_div`);
  (C) the sum over the MIDDLE axis of `U` read row-major as `[N, K, C]` — position (t, k, c) is row `K * t + k`, column
      `c` — from an initial value `init` is at (t, c) `init + ∑ k < K, U (K * t + k, c)` (`reshape_midsum_apply`);
  (D) so with `x` zero everywhere and `init` zero the two arrays are equal (`combine_law`; `combine_law_zero_f32` with
      the zeros written as the f32 constant `0.0`, broadcast on the scatter's side).

  The extents N, K, C, R are arbitrary.
-/
import Idealize.ShloMosaic.Lib.ValueIdx
import Idealize.ShloMosaic.Lib.Pipeline.Value
import Idealize.ShloMosaic.PureOps.Ideal.Laws

namespace ScatterRows

open Idealize.ShloMosaic Idealize.ShloMosaic.ValueIdx

/-- An update lands on operand element `i` exactly when, on every axis, start plus window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h
    split at h
    · next hc =>
      intro a
      have e := congrFun (Option.some.inj h) a
      have e' : (d.start j idx a + (d.window j a : ℤ)).toNat = (i a).val := congrArg Fin.val e
      have := (hc a).1
      omega
    · exact absurd h (by simp)
  · intro h
    have hc : ∀ a, 0 ≤ d.start j idx a + (d.window j a : ℤ) ∧ d.start j idx a + (d.window j a : ℤ) < s.size a := by
      intro a
      have := h a
      have := (i a).isLt
      omega
    rw [dif_pos hc]
    refine congrArg some (funext fun a => Fin.ext ?_)
    show (d.start j idx a + (d.window j a : ℤ)).toNat = (i a).val
    have := h a
    omega

/-- The dimension numbers of a row scatter into an operand `[N, C]` at scatter indices `[R, 1]` with updates `[R, C]`. -/
abbrev rowDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section
variable {N C R w : Nat} (wf : ScatterDims.WF ⟨2, ![N, C]⟩ ⟨2, ![R, 1]⟩ ⟨2, ![R, C]⟩ [1] [0] [0] 1)

/-- On the operand's row axis the window of update element (p, c) starts at row p's index, read signed. -/
theorem start_zero (idx : IVec ⟨2, ![R, 1]⟩ w) (p : Fin R) (c : Fin C) :
    (rowDims N C R wf).start (ix2 p c) idx (0 : Fin 2) = (idx (ix2 p (0 : Fin 1))).toInt := by
  unfold ScatterDims.start
  rw [dif_pos (show (0 : Fin 2) ∈ (rowDims N C R wf).scatterDimsToOperandDims from List.mem_singleton.mpr rfl)]
  have hsi : (rowDims N C R wf).siIdx (ix2 p c) ⟨List.idxOf (0 : Fin 2) (rowDims N C R wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- On the operand's column axis every window starts at 0. -/
theorem start_one (idx : IVec ⟨2, ![R, 1]⟩ w) (j : (⟨2, ![R, C]⟩ : Shape).Idx) :
    (rowDims N C R wf).start j idx (1 : Fin 2) = 0 := by
  unfold ScatterDims.start
  exact dif_neg (by decide : (1 : Fin 2) ∉ ([0] : List (Fin 2)))

/-- The window coordinate on the operand's row axis, an inserted axis, is 0. -/
theorem window_zero (j : (⟨2, ![R, C]⟩ : Shape).Idx) : (rowDims N C R wf).window j (0 : Fin 2) = 0 := by
  unfold ScatterDims.window
  exact dif_neg (show (0 : Fin 2) ∉ (List.finRange 2).filter (· ∉ [(0 : Fin 2)]) by decide)

/-- The window coordinate on the operand's column axis is the update element's column. -/
theorem window_one (j : (⟨2, ![R, C]⟩ : Shape).Idx) : (rowDims N C R wf).window j (1 : Fin 2) = (j 1).val := by
  unfold ScatterDims.window
  have h1 : (1 : Fin 2) ∈ (rowDims N C R wf).sKept :=
    show (1 : Fin 2) ∈ (List.finRange 2).filter (· ∉ [(0 : Fin 2)]) by decide
  rw [dif_pos h1]
  rfl

end

section
variable {N C R w : Nat} (wf : ScatterDims.WF ⟨2, ![N, C]⟩ ⟨2, ![R, 1]⟩ ⟨2, ![R, C]⟩ [1] [0] [0] 1)

/-- Update element (p, c') lands on operand element (t, c) exactly when row p's index, read signed, is t and c' = c. -/
theorem resultIdx?_rows_iff (idx : IVec ⟨2, ![R, 1]⟩ w) (p : Fin R) (c' : Fin C) (t : Fin N) (c : Fin C) :
    (rowDims N C R wf).resultIdx? (ix2 p c') idx = some (ix2 t c)
      ↔ (idx (ix2 p (0 : Fin 1))).toInt = (t.val : ℤ) ∧ c' = c := by
  rw [resultIdx?_eq_some_iff, Fin.forall_fin_two, start_zero, start_one, window_zero, window_one]
  show (idx (ix2 p (0 : Fin 1))).toInt + ((0 : ℕ) : ℤ) = (t.val : ℤ) ∧ (0 : ℤ) + (c'.val : ℤ) = (c.val : ℤ) ↔ _
  constructor
  · rintro ⟨h0, h1⟩
    exact ⟨by omega, Fin.ext (by omega)⟩
  · rintro ⟨h0, rfl⟩
    exact ⟨by omega, by omega⟩

/-- The accumulating row scatter at (t, c): the operand there plus the sum of column c of the update rows whose index is t. -/
theorem scatterAdd_rows_apply (x : (⟨2, ![N, C]⟩ : Shape).Idx → EReal) (idx : IVec ⟨2, ![R, 1]⟩ w)
    (upd : (⟨2, ![R, C]⟩ : Shape).Idx → EReal) (t : Fin N) (c : Fin C) :
    Ideal.hostScatterAdd (rowDims N C R wf) x idx upd (ix2 t c)
      = x (ix2 t c) + ∑ p ∈ Finset.univ.filter (fun p : Fin R => (idx (ix2 p (0 : Fin 1))).toInt = (t.val : ℤ)), upd (ix2 p c) := by
  unfold Ideal.hostScatterAdd
  congr 1
  symm
  refine Finset.sum_bij (fun p _ => ix2 p c) ?_ ?_ ?_ ?_
  · intro p hp
    rw [Finset.mem_filter] at hp ⊢
    exact ⟨Finset.mem_univ _, (resultIdx?_rows_iff wf idx p c t c).mpr ⟨hp.2, rfl⟩⟩
  · intro p₁ _ p₂ _ h
    exact congrFun h (0 : Fin 2)
  · intro j hj
    rw [Finset.mem_filter] at hj
    have hj2 := hj.2
    rw [eq_ix2 j] at hj2
    obtain ⟨h0, h1⟩ := (resultIdx?_rows_iff wf idx (j 0) (j 1) t c).mp hj2
    refine ⟨j 0, Finset.mem_filter.mpr ⟨Finset.mem_univ _, h0⟩, ?_⟩
    rw [← h1]
    exact (eq_ix2 j).symm
  · intro p _
    rfl

end

/-- Row `K * t + k` of an array of at least `N * K` rows, for `t < N` and `k < K`. -/
theorem row_lt {N K R : Nat} (hR : N * K ≤ R) (t : Fin N) (k : Fin K) : K * t.val + k.val < R := by
  have h1 : K * t.val + K ≤ K * N := by
    have := Nat.mul_le_mul_left K (Nat.succ_le_of_lt t.isLt)
    rw [Nat.mul_succ] at this
    exact this
  have h2 : K * N = N * K := Nat.mul_comm K N
  have := k.isLt
  omega

section
variable {N C R w : Nat} (wf : ScatterDims.WF ⟨2, ![N, C]⟩ ⟨2, ![R, 1]⟩ ⟨2, ![R, C]⟩ [1] [0] [0] 1)

/-- When row p's index is `p / K`, the rows landing on row t are `K * t + k` for `k < K`. -/
theorem scatterAdd_rows_div {K : Nat} (hK : 0 < K) (hR : N * K ≤ R) (x : (⟨2, ![N, C]⟩ : Shape).Idx → EReal)
    (idx : IVec ⟨2, ![R, 1]⟩ w) (upd : (⟨2, ![R, C]⟩ : Shape).Idx → EReal)
    (hidx : ∀ p : Fin R, (idx (ix2 p (0 : Fin 1))).toInt = ((p.val / K : ℕ) : ℤ)) (t : Fin N) (c : Fin C) :
    Ideal.hostScatterAdd (rowDims N C R wf) x idx upd (ix2 t c)
      = x (ix2 t c) + ∑ k : Fin K, upd (ix2 (⟨K * t.val + k.val, row_lt hR t k⟩ : Fin R) c) := by
  rw [scatterAdd_rows_apply]
  congr 1
  symm
  refine Finset.sum_bij (fun k _ => (⟨K * t.val + k.val, row_lt hR t k⟩ : Fin R)) ?_ ?_ ?_ ?_
  · intro k _
    rw [Finset.mem_filter]
    refine ⟨Finset.mem_univ _, ?_⟩
    rw [hidx]
    show (((K * t.val + k.val) / K : ℕ) : ℤ) = (t.val : ℤ)
    rw [Nat.mul_add_div hK, Nat.div_eq_of_lt k.isLt, Nat.add_zero]
  · intro k₁ _ k₂ _ h
    have := congrArg Fin.val h
    exact Fin.ext (by simp only at this; omega)
  · intro p hp
    rw [Finset.mem_filter, hidx] at hp
    have hp2 : p.val / K = t.val := by exact_mod_cast hp.2
    refine ⟨⟨p.val % K, Nat.mod_lt _ hK⟩, Finset.mem_univ _, Fin.ext ?_⟩
    show K * t.val + p.val % K = p.val
    rw [← hp2]
    exact Nat.div_add_mod p.val K
  · intro k _
    rfl

end

/-- The sum over the middle axis of an array `[R, C]` read row-major as `[N, K, C]`, at (t, c): the initial value plus the
    sum over `k < K` of the array at (K * t + k, c). -/
theorem reshape_midsum_apply {N K C R : Nat} (hR : N * K ≤ R) (U : (⟨2, ![R, C]⟩ : Shape).Idx → EReal)
    (hc : (⟨2, ![R, C]⟩ : Shape).ShapeCasts ⟨3, ![N, K, C]⟩)
    (hr : (⟨3, ![N, K, C]⟩ : Shape).ReducesTo [1] ⟨2, ![N, C]⟩) (init : EReal) (t : Fin N) (c : Fin C) :
    Ideal.hostReduceAdd hr (shapeCast ⟨3, ![N, K, C]⟩ U hc) init (ix2 t c)
      = init + ∑ k : Fin K, U (ix2 (⟨K * t.val + k.val, row_lt hR t k⟩ : Fin R) c) := by
  have h : (⟨3, ![N, K, C]⟩ : Shape).Reduces [1] ⟨2, ![N, C]⟩ := ⟨hr.1, Nat.zero_lt_two, hr.2⟩
  rw [Ideal.hostReduceAdd_single hr h]
  congr 1
  refine Finset.sum_congr rfl fun k _ => ?_
  refine shapeCast_apply U hc _ _ ?_
  rw [Shape.rowMajor_val_two, Shape.rowMajor_val_three]
  show (K * t.val + k.val) * C + c.val = (t.val * K + k.val) * C + c.val
  rw [Nat.mul_comm K]

section
variable {N C R w : Nat} (wf : ScatterDims.WF ⟨2, ![N, C]⟩ ⟨2, ![R, 1]⟩ ⟨2, ![R, C]⟩ [1] [0] [0] 1)

/-- Scattering the rows of `U : [R, C]` into a zero array `[N, C]` at row indices `p / K`, accumulating, is summing the
    middle axis of `U` read row-major as `[N, K, C]` from a zero initial value. -/
theorem combine_law {φ : FTy} {K : Nat} (hK : 0 < K) (hR : N * K ≤ R) {u : Shape} (hu : 0 < u.numel)
    (x : FVec Ideal ⟨2, ![N, C]⟩ φ) (init : u.Idx → Ideal φ) (hx : ∀ i, x i = (0 : EReal)) (hinit : ∀ i, init i = (0 : EReal))
    (idx : IVec ⟨2, ![R, 1]⟩ w) (hidx : ∀ p : Fin R, (idx (ix2 p (0 : Fin 1))).toInt = ((p.val / K : ℕ) : ℤ))
    (U : FVec Ideal ⟨2, ![R, C]⟩ φ)
    (hc : (⟨2, ![R, C]⟩ : Shape).ShapeCasts ⟨3, ![N, K, C]⟩)
    (hr : (⟨3, ![N, K, C]⟩ : Shape).ReducesTo [1] ⟨2, ![N, C]⟩) :
    Host.scatterAdd (F := Ideal) (rowDims N C R wf) x idx U
      = Host.reduceAdd (F := Ideal) (shapeCast ⟨3, ![N, K, C]⟩ U hc) init hr hu := by
  funext j
  obtain ⟨t, c, rfl⟩ : ∃ t c, j = ix2 t c := ⟨j 0, j 1, eq_ix2 j⟩
  show Ideal.hostScatterAdd (rowDims N C R wf) x idx U (ix2 t c)
    = Ideal.hostReduceAdd hr (shapeCast ⟨3, ![N, K, C]⟩ U hc) (init (Shape.Idx.first hu)) (ix2 t c)
  rw [scatterAdd_rows_div wf hK hR x idx U hidx, reshape_midsum_apply hR, hx, hinit]

/-- The same with the two zeros as a program writes them: the f32 constant `0.0` as a scalar, broadcast to `[N, C]` on the
    scatter's side and the initial value on the sum's side. -/
theorem combine_law_zero_f32 {K : Nat} (hK : 0 < K) (hR : N * K ≤ R)
    (hb : (⟨0, ![]⟩ : Shape).BroadcastsInDim ⟨2, ![N, C]⟩ (![] : Fin 0 → Fin 2))
    (hu : 0 < (⟨0, ![]⟩ : Shape).numel)
    (idx : IVec ⟨2, ![R, 1]⟩ w) (hidx : ∀ p : Fin R, (idx (ix2 p (0 : Fin 1))).toInt = ((p.val / K : ℕ) : ℤ))
    (U : FVec Ideal ⟨2, ![R, C]⟩ .f32)
    (hc : (⟨2, ![R, C]⟩ : Shape).ShapeCasts ⟨3, ![N, K, C]⟩)
    (hr : (⟨3, ![N, K, C]⟩ : Shape).ReducesTo [1] ⟨2, ![N, C]⟩) :
    Host.scatterAdd (F := Ideal) (rowDims N C R wf)
        (broadcastInDim ⟨2, ![N, C]⟩ ![] hb (constant (F := Ideal) ⟨0, ![]⟩ .f32 0x00000000#32)) idx U
      = Host.reduceAdd (F := Ideal) (shapeCast ⟨3, ![N, K, C]⟩ U hc) (constant (F := Ideal) ⟨0, ![]⟩ .f32 0x00000000#32) hr hu :=
  combine_law wf hK hR hu _ _ (fun _ => Ideal.ofBits_zero_f32) (fun _ => Ideal.ofBits_zero_f32) idx hidx U hc hr

end

end ScatterRows
-- ==== Proof.LibRowScatter.lean ====
/-
  Indexed reads and accumulating writes of rows, read at an index.

  * A vector gather `x[idx]` of a table `x : [N]` at start indices `[R, 1]` (collapsed axis 0, start index map [0],
    slice sizes [1], index vector axis 1): entry `r` of the result is the table's entry whose number is `idx[r, 0]`
    read as a signed integer and clamped into `[0, N - 1]`.
  * An accumulating scatter of rows: updates `[R, C]` (or `[R]`) added into an operand `[N, C]` (or `[N]`) at the rows
    the scatter indices `[R, 1]` name (inserted window axis 0, scatter-dims-to-operand-dims [0], index vector axis 1;
    update window axis 1 for rows). Update `(e, q)` lands on operand element `(z, q)` where `z = idx[e, 0]` read as a
    signed integer, NOT clamped; an update whose `z` is outside `[0, N)` lands nowhere.
  The extents are arbitrary.
-/
import Idealize.ShloMosaic.Lib.ValueIdx

namespace RowScatter

open Idealize.ShloMosaic Idealize.ShloMosaic.ValueIdx

variable {α : Type}

/-! ## The vector gather -/

/-- The dimension numbers of a vector gather for a table `[N]`, start indices `[R, 1]` and result `[R]`. -/
abbrev vecGather (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gathered vector at `r` is the table at `clamp (idx (r, 0))`. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecGather N R wf) x idx (ix1 r)
      = x (ix1 ⟨min (idx (ix2 r (0 : Fin 1))).toInt.toNat (N - 1), by omega⟩) := by
  unfold Host.gather
  congr 1
  funext a
  refine Fin.ext ?_
  match a with
  | ⟨0, _⟩ =>
    show (vecGather N R wf).start (ix1 r) idx (0 : Fin 1) + (vecGather N R wf).batchCoord (ix1 r) (0 : Fin 1)
        + (vecGather N R wf).offCoord (ix1 r) (0 : Fin 1) = min (idx (ix2 r (0 : Fin 1))).toInt.toNat (N - 1)
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 1) ∈ (vecGather N R wf).startIndexMap from List.mem_singleton.mpr rfl)]
    have hsi : (vecGather N R wf).siIdx (ix1 r) ⟨List.idxOf (0 : Fin 1) (vecGather N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

/-! ## The accumulating scatter of rows -/

/-- The dimension numbers of a row scatter: operand `[N, C]`, scatter indices `[R, 1]`, updates `[R, C]`. -/
abbrev rowScatter (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The row an update lands on, before the range check: the scatter index read signed. -/
theorem rowScatter_start_zero {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScatter N C R wf).start j idx (0 : Fin 2) = (idx (ix2 (j 0) (0 : Fin 1))).toInt := by
  unfold ScatterDims.start
  rw [dif_pos (show (0 : Fin 2) ∈ (rowScatter N C R wf).scatterDimsToOperandDims from List.mem_singleton.mpr rfl)]
  have hsi : (rowScatter N C R wf).siIdx j ⟨List.idxOf (0 : Fin 2) (rowScatter N C R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowScatter_window_zero {N C R : Nat}
    (wf : ScatterDims.WF ⟨2, ![N, C]⟩ ⟨2, ![R, 1]⟩ ⟨2, ![R, C]⟩ [1] [0] [0] 1)
    (j : (⟨2, ![R, C]⟩ : Shape).Idx) : (rowScatter N C R wf).window j (0 : Fin 2) = 0 := by
  unfold ScatterDims.window
  exact dif_neg (by simp [ScatterDims.sKept, Shape.kept, List.mem_filter])

/-- An update that lands on operand element `i` has its scatter index, read signed, equal to `i`'s row. -/
theorem rowScatter_lands {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx)
    (h : (rowScatter N C R wf).resultIdx? j idx = some i) :
    (idx (ix2 (j 0) (0 : Fin 1))).toInt = ((i 0).val : Int) := by
  unfold ScatterDims.resultIdx? at h
  split at h
  · rename_i hr
    have h0 := hr (0 : Fin 2)
    have hi := congrArg (fun f => (f (0 : Fin 2)).val) (Option.some.inj h)
    simp only at hi
    rw [rowScatter_start_zero, rowScatter_window_zero] at h0 hi
    omega
  · exact absurd h (by simp)

/-! ## The accumulating scatter into a vector -/

/-- The dimension numbers of a vector scatter: operand `[N]`, scatter indices `[R, 1]`, updates `[R]`. -/
abbrev vecScatter (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

theorem vecScatter_start_zero {N R w : Nat}
    (wf : ScatterDims.WF ⟨1, ![N]⟩ ⟨2, ![R, 1]⟩ ⟨1, ![R]⟩ [] [0] [0] 1)
    (idx : IVec ⟨2, ![R, 1]⟩ w) (e : (⟨1, ![R]⟩ : Shape).Idx) :
    (vecScatter N R wf).start e idx (0 : Fin 1) = (idx (ix2 (e 0) (0 : Fin 1))).toInt := by
  unfold ScatterDims.start
  rw [dif_pos (show (0 : Fin 1) ∈ (vecScatter N R wf).scatterDimsToOperandDims from List.mem_singleton.mpr rfl)]
  have hsi : (vecScatter N R wf).siIdx e ⟨List.idxOf (0 : Fin 1) (vecScatter N R wf).scatterDimsToOperandDims,
      List.idxOf_lt_length_iff.2 (List.mem_singleton.mpr rfl)⟩ = ix2 (e 0) (0 : Fin 1) := by
    funext b; refine Fin.ext ?_
    match b with
    | ⟨0, _⟩ => rfl
    | ⟨1, _⟩ => rfl
  rw [hsi]
  rfl

theorem vecScatter_window_zero {N R : Nat}
    (wf : ScatterDims.WF ⟨1, ![N]⟩ ⟨2, ![R, 1]⟩ ⟨1, ![R]⟩ [] [0] [0] 1)
    (e : (⟨1, ![R]⟩ : Shape).Idx) : (vecScatter N R wf).window e (0 : Fin 1) = 0 := by
  unfold ScatterDims.window
  exact dif_neg (by simp [ScatterDims.sKept, Shape.kept, List.mem_filter])

/-- An update whose scatter index, read signed, is the number of an operand entry lands on that entry. -/
theorem vecScatter_lands_of {N R w : Nat}
    (wf : ScatterDims.WF ⟨1, ![N]⟩ ⟨2, ![R, 1]⟩ ⟨1, ![R]⟩ [] [0] [0] 1)
    (idx : IVec ⟨2, ![R, 1]⟩ w) (e : (⟨1, ![R]⟩ : Shape).Idx) (n : Fin N)
    (h : (idx (ix2 (e 0) (0 : Fin 1))).toInt = (n.val : Int)) :
    (vecScatter N R wf).resultIdx? e idx = some (ix1 n) := by
  have hr : ∀ a : Fin 1, 0 ≤ (vecScatter N R wf).start e idx a + (vecScatter N R wf).window e a
      ∧ (vecScatter N R wf).start e idx a + (vecScatter N R wf).window e a < ((⟨1, ![N]⟩ : Shape).size a : Int) := by
    intro a
    match a with
    | ⟨0, _⟩ =>
      show 0 ≤ (vecScatter N R wf).start e idx (0 : Fin 1) + (vecScatter N R wf).window e (0 : Fin 1)
        ∧ (vecScatter N R wf).start e idx (0 : Fin 1) + (vecScatter N R wf).window e (0 : Fin 1) < (N : Int)
      rw [vecScatter_start_zero, vecScatter_window_zero, h]
      have := n.isLt
      omega
  unfold ScatterDims.resultIdx?
  rw [dif_pos hr]
  refine congrArg some (funext fun a => Fin.ext ?_)
  match a with
  | ⟨0, _⟩ =>
    show ((vecScatter N R wf).start e idx (0 : Fin 1) + (vecScatter N R wf).window e (0 : Fin 1)).toNat = n.val
    rw [vecScatter_start_zero, vecScatter_window_zero, h]
    omega

end RowScatter
-- ==== Proof.LibHostReads.lean ====
/-
  Host operations read at an index, for any extents.

  * A scalar spread over a shape is that scalar at every index; a vector `[a]` as a column `[a, 1]` reads, at (p, z),
    entry p; a vector `[C]` as a row `[1, C]` reads, at (z, k), entry k.
  * The accumulating vector scatter `x.at[idx].add(u)` of updates `[R]` into an operand `[N]` at indices `[R, 1]`: an
    update lands on entry `n` exactly when its index, read as a signed integer, is `n`, so on the extended reals the
    result at `n` is `x n` plus the sum of the updates whose index is `n`.
  * One plus that scatter of ones into zeros, raised to the power whose word is `0xBF000000` (`-1/2`): at `n`, the
    power of one plus zero plus a sum of ones over the updates whose index is `n` — a degree's inverse square root.
  * Rows `[N, C]` gathered at indices `[R, 1]` (clamped into `[0, N-1]`) and added into zeros at other indices
    `[R, 1]` (not clamped; out of range dropped): at (n, c), the sum over the rows `p` whose scatter index is `n` of
    column `c` of the table's row at the clamped gather index of `p` — a segment sum of gathered rows.
  Stated for arbitrary N, C, R: nothing in such a statement can be evaluated, whatever tactic is used on it; an instance
  at literal extents is then taken by applying the lemma.
-/
import proofs.«123087_j26456998543657_2_alg».proof.Proof.LibRowGather
import proofs.«123087_j26456998543657_2_alg».proof.Proof.LibScatterRows
import proofs.«123087_j26456998543657_2_alg».proof.Proof.LibRowScatter
import Idealize.ShloMosaic.Lib.Pipeline.Value
import Idealize.ShloMosaic.Lib.ValueIdx
import Idealize.ShloMosaic.PureOps.Ideal.Laws

noncomputable section

namespace HostReads

open Idealize.ShloMosaic Idealize.ShloMosaic.ValueIdx
open scoped BigOperators

variable {α : Type}

/-- A scalar spread over a shape is that scalar at every index. -/
theorem scalar_bcast_apply {t : Shape} (h : (⟨0, ![]⟩ : Shape).BroadcastsInDim t (![] : Fin 0 → Fin t.rank))
    (y : (⟨0, ![]⟩ : Shape).Idx → α) (i : t.Idx) : broadcastInDim t ![] h y i = y ix0 :=
  broadcastInDim_apply _ h y i ix0 (fun a => a.elim0)

/-- A vector as a column: entry (p, 0) is entry p. -/
theorem col_bcast_apply {a : Nat} (h : (⟨1, ![a]⟩ : Shape).BroadcastsInDim ⟨2, ![a, 1]⟩ (![0] : Fin 1 → Fin 2))
    (v : (⟨1, ![a]⟩ : Shape).Idx → α) (p : Fin a) (z : Fin 1) :
    broadcastInDim ⟨2, ![a, 1]⟩ ![0] h v (ix2 p z) = v (ix1 p) :=
  broadcastInDim_apply _ h v (ix2 p z) (ix1 p) (fun ax => match ax with
    | ⟨0, _⟩ => by
      show p.val = if a = 1 then 0 else p.val
      split
      · have := p.isLt; omega
      · rfl)

/-- A vector of length C as a `[1, C]` row: entry (0, k) is entry k. -/
theorem row_cast_apply {C : Nat} (h : (⟨1, ![C]⟩ : Shape).ShapeCasts ⟨2, ![1, C]⟩) (b : (⟨1, ![C]⟩ : Shape).Idx → α)
    (z : Fin 1) (k : Fin C) : shapeCast ⟨2, ![1, C]⟩ b h (ix2 z k) = b (ix1 k) := by
  refine shapeCast_apply b h (ix2 z k) (ix1 k) ?_
  rw [Shape.rowMajor_val_one, Shape.rowMajor_val_two]
  show k.val = z.val * C + k.val
  have hz : z.val = 0 := by have := z.isLt; omega
  rw [hz]; omega

/-- An update of a vector scatter lands on entry `n` exactly when its index, read signed, is `n`. -/
theorem vecScatter_iff {N R w : Nat} (wf : ScatterDims.WF ⟨1, ![N]⟩ ⟨2, ![R, 1]⟩ ⟨1, ![R]⟩ [] [0] [0] 1)
    (idx : IVec ⟨2, ![R, 1]⟩ w) (e : Fin R) (n : Fin N) :
    (RowScatter.vecScatter N R wf).resultIdx? (ix1 e) idx = some (ix1 n) ↔ (idx (ix2 e (0 : Fin 1))).toInt = (n.val : ℤ) := by
  rw [ScatterRows.resultIdx?_eq_some_iff]
  constructor
  · intro h
    have h0 := h (0 : Fin 1)
    rw [RowScatter.vecScatter_start_zero, RowScatter.vecScatter_window_zero] at h0
    have h1 : (idx (ix2 e (0 : Fin 1))).toInt + ((0 : ℕ) : ℤ) = (n.val : ℤ) := h0
    omega
  · intro h a
    match a with
    | ⟨0, _⟩ =>
      show (RowScatter.vecScatter N R wf).start (ix1 e) idx (0 : Fin 1)
        + (((RowScatter.vecScatter N R wf).window (ix1 e) (0 : Fin 1) : ℕ) : ℤ) = (n.val : ℤ)
      rw [RowScatter.vecScatter_start_zero, RowScatter.vecScatter_window_zero]
      show (idx (ix2 e (0 : Fin 1))).toInt + ((0 : ℕ) : ℤ) = (n.val : ℤ)
      omega

/-- The accumulating vector scatter at `n`: the operand there plus the sum of the updates whose index is `n`. -/
theorem vecScatterAdd_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal) (n : Fin N) :
    Ideal.hostScatterAdd (RowScatter.vecScatter N R wf) x idx upd (ix1 n)
      = x (ix1 n) + ∑ e ∈ Finset.univ.filter (fun e : Fin R => (idx (ix2 e (0 : Fin 1))).toInt = (n.val : ℤ)), upd (ix1 e) := by
  unfold Ideal.hostScatterAdd
  congr 1
  symm
  refine Finset.sum_bij (fun p _ => ix1 p) ?_ ?_ ?_ ?_
  · intro p hp
    rw [Finset.mem_filter] at hp ⊢
    exact ⟨Finset.mem_univ _, (vecScatter_iff wf idx p n).mpr hp.2⟩
  · intro p₁ _ p₂ _ h
    exact congrFun h (0 : Fin 1)
  · intro j hj
    rw [Finset.mem_filter] at hj
    have hj2 := hj.2
    rw [eq_ix1 j] at hj2
    exact ⟨j 0, Finset.mem_filter.mpr ⟨Finset.mem_univ _, (vecScatter_iff wf idx (j 0) n).mp hj2⟩, (eq_ix1 j).symm⟩
  · intro p _
    rfl

/-- One plus the scatter of ones, to a power, at entry `n`: for any extents, the count as a filtered sum. -/
theorem gen_dis {N R : Nat} (wf : ScatterDims.WF ⟨1, ![N]⟩ ⟨2, ![R, 1]⟩ ⟨1, ![R]⟩ [] [0] [0] 1)
    (hN : (⟨0, ![]⟩ : Shape).BroadcastsInDim ⟨1, ![N]⟩ (![] : Fin 0 → Fin 1))
    (hE : (⟨0, ![]⟩ : Shape).BroadcastsInDim ⟨1, ![R]⟩ (![] : Fin 0 → Fin 1))
    (idx : IVec ⟨2, ![R, 1]⟩ 32) (n : Fin N) :
    Host.powf (F := Ideal) (φ := .f32)
        (addf (broadcastInDim ⟨1, ![N]⟩ ![] hN (constant (F := Ideal) ⟨0, ![]⟩ .f32 0x3F800000#32))
          (Host.scatterAdd (RowScatter.vecScatter N R wf)
            (broadcastInDim ⟨1, ![N]⟩ ![] hN (constant (F := Ideal) ⟨0, ![]⟩ .f32 0x00000000#32)) idx
            (broadcastInDim ⟨1, ![R]⟩ ![] hE (constant (F := Ideal) ⟨0, ![]⟩ .f32 0x3F800000#32))))
        (broadcastInDim ⟨1, ![N]⟩ ![] hN (constant (F := Ideal) ⟨0, ![]⟩ .f32 0xBF000000#32)) (ix1 n)
      = Ideal.pow (Ideal.ofBits .f32 0x3F800000#32 + (Ideal.ofBits .f32 0x00000000#32
          + ∑ _e ∈ Finset.univ.filter (fun e : Fin R => (idx (ix2 e (0 : Fin 1))).toInt = (n.val : ℤ)), Ideal.ofBits .f32 0x3F800000#32))
          (Ideal.ofBits .f32 0xBF000000#32) := by
  simp only [Host.powf, Host.scatterAdd, Ideal.hostPowf_def, Ideal.hostScatterAdd_def, addf_apply, vecScatterAdd_apply]
  rw [scalar_bcast_apply hN (constant (F := Ideal) ⟨0, ![]⟩ .f32 0x3F800000#32),
    scalar_bcast_apply hN (constant (F := Ideal) ⟨0, ![]⟩ .f32 0x00000000#32),
    scalar_bcast_apply hN (constant (F := Ideal) ⟨0, ![]⟩ .f32 0xBF000000#32)]
  exact congrArg (fun s : EReal => Ideal.pow (Ideal.ofBits .f32 0x3F800000#32 + (Ideal.ofBits .f32 0x00000000#32 + s)) (Ideal.ofBits .f32 0xBF000000#32))
    (Finset.sum_congr rfl fun e _ => scalar_bcast_apply hE _ (ix1 e))

/-- Rows gathered at clamped indices and added into zeros at the scatter indices, at (n, c), for any extents. -/
theorem gen_agg {N C R : Nat} (hN : 0 < N)
    (wfs : ScatterDims.WF ⟨2, ![N, C]⟩ ⟨2, ![R, 1]⟩ ⟨2, ![R, C]⟩ [1] [0] [0] 1)
    (wfg : GatherDims.WF ⟨2, ![N, C]⟩ ⟨2, ![R, 1]⟩ ⟨2, ![R, C]⟩ [1] [0] [] [0] [] 1 ![1, C])
    (hZ : (⟨0, ![]⟩ : Shape).BroadcastsInDim ⟨2, ![N, C]⟩ (![] : Fin 0 → Fin 2))
    (sidx didx : IVec ⟨2, ![R, 1]⟩ 32) (HS : (⟨2, ![N, C]⟩ : Shape).Idx → EReal) (n : Fin N) (c : Fin C) :
    Host.scatterAdd (F := Ideal) (φ := .f32) (ScatterRows.rowDims N C R wfs)
        (broadcastInDim ⟨2, ![N, C]⟩ ![] hZ (constant (F := Ideal) ⟨0, ![]⟩ .f32 0x00000000#32)) didx
        (Host.gather (RowGather.rowDims N C R wfg) HS sidx) (ix2 n c)
      = ∑ p ∈ Finset.univ.filter (fun p : Fin R => (didx (ix2 p (0 : Fin 1))).toInt = (n.val : ℤ)),
          HS (ix2 ⟨min (sidx (ix2 p (0 : Fin 1))).toInt.toNat (N - 1), by omega⟩ c) := by
  refine (ScatterRows.scatterAdd_rows_apply wfs _ didx _ n c).trans ?_
  rw [scalar_bcast_apply, constant_apply, Ideal.ofBits_zero_f32, zero_add]
  exact Finset.sum_congr rfl fun p _ => RowGather.gather_row_apply hN wfg HS sidx p c

end HostReads

end
-- ==== Proof.HostStages.lean ====
/-
  The host operations around the kernel regions, read at an index at this network's extents.

  Row `r` of the `[2, E]` edge array as a vector; the index wrapped once if negative. The degree: one plus the
  accumulating scatter of ones at the targets, read at a node as one plus the number of edges landing there, and its
  power `-1/2`. The aggregation: rows gathered at the wrapped, clamped sources and added into zeros at the targets,
  read at (n, c) as the sum over the edges landing on `n` of column `c` of their source's row. Each is the
  any-extents statement taken at 50000 nodes and 800000 edges, with the filter and the clamp rewritten edge by edge.
-/
import proofs.«123087_j26456998543657_2_alg».proof.Proof.NetSpec
import proofs.«123087_j26456998543657_2_alg».proof.Proof.LibHostReads

noncomputable section

namespace GcnNet

open Idealize.ShloMosaic Idealize.ShloMosaic.ValueIdx HostReads
open scoped BigOperators

variable {α : Type}

/-- Row 0 of the edge array as a vector. -/
theorem edgeRow0_apply (hs : (⟨2, ![2, 800000]⟩ : Shape).Slices ![0, 0] ⟨2, ![1, 800000]⟩)
    (hc : (⟨2, ![1, 800000]⟩ : Shape).ShapeCasts ⟨1, ![800000]⟩)
    (ei : (⟨2, ![2, 800000]⟩ : Shape).Idx → α) (e : Fin 800000) :
    shapeCast ⟨1, ![800000]⟩ (extractStridedSlice ⟨2, ![1, 800000]⟩ ![0, 0] ei hs) hc (ix1 e) = ei (ix2 (0 : Fin 2) e) := by
  rw [shapeCast_apply _ hc (ix1 e) (ix2 (0 : Fin 1) e)
    (by rw [Shape.rowMajor_val_two, Shape.rowMajor_val_one]; show 0 * 800000 + e.val = e.val; omega)]
  exact extractStridedSlice_apply ![0, 0] ei hs (ix2 (0 : Fin 1) e) (ix2 (0 : Fin 2) e) (fun a => match a with
    | ⟨0, _⟩ => by show (0 : Nat) = 0 + 0; rfl
    | ⟨1, _⟩ => by show e.val = 0 + e.val; omega)

/-- Row 1 of the edge array as a vector. -/
theorem edgeRow1_apply (hs : (⟨2, ![2, 800000]⟩ : Shape).Slices ![1, 0] ⟨2, ![1, 800000]⟩)
    (hc : (⟨2, ![1, 800000]⟩ : Shape).ShapeCasts ⟨1, ![800000]⟩)
    (ei : (⟨2, ![2, 800000]⟩ : Shape).Idx → α) (e : Fin 800000) :
    shapeCast ⟨1, ![800000]⟩ (extractStridedSlice ⟨2, ![1, 800000]⟩ ![1, 0] ei hs) hc (ix1 e) = ei (ix2 (1 : Fin 2) e) := by
  rw [shapeCast_apply _ hc (ix1 e) (ix2 (0 : Fin 1) e)
    (by rw [Shape.rowMajor_val_two, Shape.rowMajor_val_one]; show 0 * 800000 + e.val = e.val; omega)]
  exact extractStridedSlice_apply ![1, 0] ei hs (ix2 (0 : Fin 1) e) (ix2 (1 : Fin 2) e) (fun a => match a with
    | ⟨0, _⟩ => by show (1 : Nat) = 1 + 0; rfl
    | ⟨1, _⟩ => by show e.val = 0 + e.val; omega)

/-- The index with 50000 added where it is negative, entry by entry. -/
theorem wrap_apply {s : Shape} (h0 : (⟨0, ![]⟩ : Shape).BroadcastsInDim s (![] : Fin 0 → Fin s.rank)) (v : IVec s 32) (i : s.Idx) :
    select (cmpi .slt v (broadcastInDim s ![] h0 (constantI ⟨0, ![]⟩ 32 0#32)))
      (addi v (broadcastInDim s ![] h0 (constantI ⟨0, ![]⟩ 32 50000#32))) v i = wrap (v i) := by
  show Scalar.select (IntOp.cmpi .slt (v i) (broadcastInDim s ![] h0 (constantI ⟨0, ![]⟩ 32 0#32) i))
      (IntOp.addi (v i) (broadcastInDim s ![] h0 (constantI ⟨0, ![]⟩ 32 50000#32) i)) (v i) = _
  rw [scalar_bcast_apply, scalar_bcast_apply]
  rfl

/-- One plus the scatter of ones at the targets, to the power `-1/2`, at node `n`. -/
theorem dis_read (wf : ScatterDims.WF ⟨1, ![50000]⟩ ⟨2, ![800000, 1]⟩ ⟨1, ![800000]⟩ [] [0] [0] 1)
    (hN : (⟨0, ![]⟩ : Shape).BroadcastsInDim ⟨1, ![50000]⟩ (![] : Fin 0 → Fin 1))
    (hE : (⟨0, ![]⟩ : Shape).BroadcastsInDim ⟨1, ![800000]⟩ (![] : Fin 0 → Fin 1))
    (ei : EI) (idx : IVec ⟨2, ![800000, 1]⟩ 32) (hidx : ∀ e, idx (ix2 e (0 : Fin 1)) = ei (ix2 (1 : Fin 2) e)) (n : Fin 50000) :
    Host.powf (F := Ideal) (φ := .f32)
        (addf (broadcastInDim ⟨1, ![50000]⟩ ![] hN (constant (F := Ideal) ⟨0, ![]⟩ .f32 0x3F800000#32))
          (Host.scatterAdd (RowScatter.vecScatter 50000 800000 wf)
            (broadcastInDim ⟨1, ![50000]⟩ ![] hN (constant (F := Ideal) ⟨0, ![]⟩ .f32 0x00000000#32)) idx
            (broadcastInDim ⟨1, ![800000]⟩ ![] hE (constant (F := Ideal) ⟨0, ![]⟩ .f32 0x3F800000#32))))
        (broadcastInDim ⟨1, ![50000]⟩ ![] hN (constant (F := Ideal) ⟨0, ![]⟩ .f32 0xBF000000#32)) (ix1 n)
      = dis ei n :=
  (gen_dis wf hN hE idx n).trans
    (congrArg (fun s : EReal => Ideal.pow (Ideal.ofBits .f32 0x3F800000#32 + (Ideal.ofBits .f32 0x00000000#32 + s)) (Ideal.ofBits .f32 0xBF000000#32))
      (Finset.sum_congr (Finset.filter_congr fun e _ => by rw [hidx e]; exact Iff.rfl) fun _ _ => rfl))

/-- Rows gathered at the wrapped sources and added into zeros at the targets, at (n, c). -/
theorem agg_read {C : Nat} (wfs : ScatterDims.WF ⟨2, ![50000, C]⟩ ⟨2, ![800000, 1]⟩ ⟨2, ![800000, C]⟩ [1] [0] [0] 1)
    (wfg : GatherDims.WF ⟨2, ![50000, C]⟩ ⟨2, ![800000, 1]⟩ ⟨2, ![800000, C]⟩ [1] [0] [] [0] [] 1 ![1, C])
    (hZ : (⟨0, ![]⟩ : Shape).BroadcastsInDim ⟨2, ![50000, C]⟩ (![] : Fin 0 → Fin 2))
    (ei : EI) (sidx didx : IVec ⟨2, ![800000, 1]⟩ 32)
    (hs : ∀ e, sidx (ix2 e (0 : Fin 1)) = wrap (ei (ix2 (0 : Fin 2) e)))
    (hd : ∀ e, didx (ix2 e (0 : Fin 1)) = ei (ix2 (1 : Fin 2) e))
    (HS : (⟨2, ![50000, C]⟩ : Shape).Idx → EReal) (n : Fin 50000) (c : Fin C) :
    Host.scatterAdd (F := Ideal) (φ := .f32) (ScatterRows.rowDims 50000 C 800000 wfs)
        (broadcastInDim ⟨2, ![50000, C]⟩ ![] hZ (constant (F := Ideal) ⟨0, ![]⟩ .f32 0x00000000#32)) didx
        (Host.gather (RowGather.rowDims 50000 C 800000 wfg) HS sidx) (ix2 n c)
      = Gcn.aggK (lands ei) (gs ei) (mat HS) n c :=
  (gen_agg (by omega) wfs wfg hZ sidx didx HS n c).trans
    (Finset.sum_congr (Finset.filter_congr fun p _ => by rw [hd p]; exact Iff.rfl) fun p _ =>
      (show HS (ix2 (node (sidx (ix2 p (0 : Fin 1)))) c) = mat HS (gs ei p) c from
        congrArg (fun w => HS (ix2 (node w) c)) (hs p)))

end GcnNet

end
-- ==== Proof.KerHost.lean ====
/-
  The kernel's host stretches, read at an index on the extended reals.

  The first stretch computes, from the edge array, the vector of sources, the vector of targets and the column of
  the degrees' powers `-1/2`. Each later stretch carries the rows of the array the previous region scaled along the
  edges (a gather at the wrapped sources) and sums them where the edges land (an accumulating scatter at the
  targets), and lays the next bias out as a row.
-/
import proofs.«123087_j26456998543657_2_alg».proof.Proof.Gen.KernelIdeal.Frame
import proofs.«123087_j26456998543657_2_alg».proof.Proof.KerKeep
import proofs.«123087_j26456998543657_2_alg».proof.Proof.HostStages
import Idealize.ShloMosaic.PureOps.Ideal

set_option maxRecDepth 16384

noncomputable section

namespace Cert.KernelIdeal.HostValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo Idealize.ShloMosaic.ValueIdx

variable (m : (ℓ : Loc nD τ sig) → Buf (Elt Ideal) ℓ) (ρ : Dev nD → PrngReg)

/-- The edge array on core `c`. -/
def ei (c : Dev nD) : GcnNet.EI := m ((c : Thread nD τ).loc main_arg1)

/-- The vector of sources is row 0 of the edge array. -/
theorem src1 (c : Dev nD) (e : Fin 800000) :
    (W1 m ρ c (Proc.devRef .tc main_v1) : S800000.Idx → BitVec 32) (ix1 e) = ei m c (ix2 (0 : Fin 2) e) :=
  have h : W1 m ρ c (Proc.devRef .tc main_v1) = shapeCast S800000
      (extractStridedSlice S1x800000 ![0, 0] (m ((c : Thread nD τ).loc main_arg1)) slices_S2x800000_S1x800000_0_0) shapeCasts_S1x800000_S800000 := by
    show StableHlo.after hostOps0 (W0 m ρ c) (Proc.devRef .tc main_v1) = _
    after_results <;> rfl
  (congrFun h (ix1 e)).trans (GcnNet.edgeRow0_apply _ _ _ e)

/-- The vector of targets is row 1 of the edge array. -/
theorem dst1 (c : Dev nD) (e : Fin 800000) :
    (W1 m ρ c (Proc.devRef .tc main_v3) : S800000.Idx → BitVec 32) (ix1 e) = ei m c (ix2 (1 : Fin 2) e) :=
  have h : W1 m ρ c (Proc.devRef .tc main_v3) = (shapeCast S800000 (extractStridedSlice S1x800000 ![1, 0] (m ((c : Thread nD τ).loc main_arg1)) slices_S2x800000_S1x800000_1_0) shapeCasts_S1x800000_S800000) := by
    show StableHlo.after hostOps0 (W0 m ρ c) (Proc.devRef .tc main_v3) = _
    after_results <;> rfl
  (congrFun h (ix1 e)).trans (GcnNet.edgeRow1_apply _ _ _ e)

/-- The column of degree factors. -/
theorem dis1 (c : Dev nD) (n : Fin 50000) (z : Fin 1) :
    (W1 m ρ c (Proc.devRef .tc main_v12) : S50000x1.Idx → EReal) (ix2 n z) = GcnNet.dis (ei m c) n :=
  have h : W1 m ρ c (Proc.devRef .tc main_v12) = broadcastInDim S50000x1 ![0] bcast_S50000_S50000x1_0
      (Host.powf (F := Ideal) (φ := .f32)
        (addf (broadcastInDim S50000 ![] bcast_S_S50000 (constant (F := Ideal) S_ .f32 0x3F800000#32))
          (Host.scatterAdd (F := Ideal) (φ := .f32) scatter_S50000_S800000x1_S800000_n_0_0_1
            (broadcastInDim S50000 ![] bcast_S_S50000 (constant (F := Ideal) S_ .f32 0x00000000#32))
            (broadcastInDim S800000x1 ![0] bcast_S800000_S800000x1_0 (shapeCast S800000 (extractStridedSlice S1x800000 ![1, 0] (m ((c : Thread nD τ).loc main_arg1)) slices_S2x800000_S1x800000_1_0) shapeCasts_S1x800000_S800000))
            (broadcastInDim S800000 ![] bcast_S_S800000 (constant (F := Ideal) S_ .f32 0x3F800000#32))))
        (broadcastInDim S50000 ![] bcast_S_S50000 (constant (F := Ideal) S_ .f32 0xBF000000#32))) := by
    show StableHlo.after hostOps0 (W0 m ρ c) (Proc.devRef .tc main_v12) = _
    after_results <;> rfl
  (congrFun h (ix2 n z)).trans ((HostReads.col_bcast_apply _ _ n z).trans
    (GcnNet.dis_read scatter_S50000_S800000x1_S800000_n_0_0_1_wf bcast_S_S50000 bcast_S_S800000 (ei m c) _
      (fun e => (HostReads.col_bcast_apply _ _ e (0 : Fin 1)).trans (GcnNet.edgeRow1_apply _ _ _ e)) n))

set_option maxHeartbeats 2000000 in
/-- After stretch 1: the aggregated array is the sum, over the edges landing on a node, of their source's row of
    the array the previous region scaled. -/
theorem agg1 (c : Dev nD) (n : Fin 50000) (k : Fin 64) :
    (W3 m ρ c (Proc.devRef .tc main_v23) : S50000x64.Idx → EReal) (ix2 n k)
      = Gcn.aggK (GcnNet.lands (ei m c)) (GcnNet.gs (ei m c))
          (GcnNet.mat (a := 50000) (b := 64) (W2 m ρ c (Proc.devRef .tc main_v13_1))) n k :=
  have e : W3 m ρ c (Proc.devRef .tc main_v23) = Host.scatterAdd (F := Ideal) (φ := .f32) scatter_S50000x64_S800000x1_S800000x64_1_0_0_1
      (broadcastInDim S50000x64 ![] bcast_S_S50000x64 (constant (F := Ideal) S_ .f32 0x00000000#32))
      (broadcastInDim S800000x1 ![0] bcast_S800000_S800000x1_0 (W2 m ρ c (Proc.devRef .tc main_v3)))
      (Host.gather gather_S50000x64_S800000x1_S800000x64_1_0_n_n_0_1_164 (W2 m ρ c (Proc.devRef .tc main_v13_1))
        (broadcastInDim S800000x1 ![0] bcast_S800000_S800000x1_0
          (select (cmpi .slt (W2 m ρ c (Proc.devRef .tc main_v1)) (broadcastInDim S800000 ![] bcast_S_S800000 (constantI S_ 32 0#32)))
            (addi (W2 m ρ c (Proc.devRef .tc main_v1)) (broadcastInDim S800000 ![] bcast_S_S800000 (constantI S_ 32 50000#32)))
            (W2 m ρ c (Proc.devRef .tc main_v1))))) := by
    show StableHlo.after hostOps1 (W2 m ρ c) (Proc.devRef .tc main_v23) = _
    after_results <;> rfl
  (congrFun e (ix2 n k)).trans
    (GcnNet.agg_read (C := 64) scatter_S50000x64_S800000x1_S800000x64_1_0_0_1_wf gather_S50000x64_S800000x1_S800000x64_1_0_n_n_0_1_164_wf bcast_S_S50000x64 (ei m c) _ _
      (fun e => (HostReads.col_bcast_apply _ _ e (0 : Fin 1)).trans ((GcnNet.wrap_apply _ _ (ix1 e)).trans
        (congrArg GcnNet.wrap ((congrFun (Keep.at2 m ρ c main_v1 (by decide)) (ix1 e)).trans (src1 m ρ c e)))))
      (fun e => (HostReads.col_bcast_apply _ _ e (0 : Fin 1)).trans
        ((congrFun (Keep.at2 m ρ c main_v3 (by decide)) (ix1 e)).trans (dst1 m ρ c e)))
      _ n k)

set_option maxHeartbeats 2000000 in
/-- After stretch 1: the bias as a row. -/
theorem bias1 (c : Dev nD) (z : Fin 1) (k : Fin 64) :
    (W3 m ρ c (Proc.devRef .tc main_v24) : S1x64.Idx → EReal) (ix2 z k)
      = (m ((c : Thread nD τ).loc main_arg3) : S64.Idx → EReal) (ix1 k) :=
  have e : W3 m ρ c (Proc.devRef .tc main_v24) = shapeCast S1x64 (W2 m ρ c (Proc.devRef .tc main_arg3)) shapeCasts_S64_S1x64 := by
    show StableHlo.after hostOps1 (W2 m ρ c) (Proc.devRef .tc main_v24) = _
    after_results <;> rfl
  (congrFun e (ix2 z k)).trans ((HostReads.row_cast_apply _ _ z k).trans
    ((congrFun (Keep.at2 m ρ c main_arg3 (by decide)) (ix1 k)).trans (congrFun (Keep.arg_at1 m ρ c main_arg3 (by decide)) (ix1 k))))

set_option maxHeartbeats 2000000 in
/-- After stretch 2: the aggregated array is the sum, over the edges landing on a node, of their source's row of
    the array the previous region scaled. -/
theorem agg2 (c : Dev nD) (n : Fin 50000) (k : Fin 64) :
    (W5 m ρ c (Proc.devRef .tc main_v35) : S50000x64.Idx → EReal) (ix2 n k)
      = Gcn.aggK (GcnNet.lands (ei m c)) (GcnNet.gs (ei m c))
          (GcnNet.mat (a := 50000) (b := 64) (W4 m ρ c (Proc.devRef .tc main_v25_1))) n k :=
  have e : W5 m ρ c (Proc.devRef .tc main_v35) = Host.scatterAdd (F := Ideal) (φ := .f32) scatter_S50000x64_S800000x1_S800000x64_1_0_0_1
      (broadcastInDim S50000x64 ![] bcast_S_S50000x64 (constant (F := Ideal) S_ .f32 0x00000000#32))
      (broadcastInDim S800000x1 ![0] bcast_S800000_S800000x1_0 (W4 m ρ c (Proc.devRef .tc main_v3)))
      (Host.gather gather_S50000x64_S800000x1_S800000x64_1_0_n_n_0_1_164 (W4 m ρ c (Proc.devRef .tc main_v25_1))
        (broadcastInDim S800000x1 ![0] bcast_S800000_S800000x1_0
          (select (cmpi .slt (W4 m ρ c (Proc.devRef .tc main_v1)) (broadcastInDim S800000 ![] bcast_S_S800000 (constantI S_ 32 0#32)))
            (addi (W4 m ρ c (Proc.devRef .tc main_v1)) (broadcastInDim S800000 ![] bcast_S_S800000 (constantI S_ 32 50000#32)))
            (W4 m ρ c (Proc.devRef .tc main_v1))))) := by
    show StableHlo.after hostOps2 (W4 m ρ c) (Proc.devRef .tc main_v35) = _
    after_results <;> rfl
  (congrFun e (ix2 n k)).trans
    (GcnNet.agg_read (C := 64) scatter_S50000x64_S800000x1_S800000x64_1_0_0_1_wf gather_S50000x64_S800000x1_S800000x64_1_0_n_n_0_1_164_wf bcast_S_S50000x64 (ei m c) _ _
      (fun e => (HostReads.col_bcast_apply _ _ e (0 : Fin 1)).trans ((GcnNet.wrap_apply _ _ (ix1 e)).trans
        (congrArg GcnNet.wrap ((congrFun (Keep.at4 m ρ c main_v1 (by decide)) (ix1 e)).trans (src1 m ρ c e)))))
      (fun e => (HostReads.col_bcast_apply _ _ e (0 : Fin 1)).trans
        ((congrFun (Keep.at4 m ρ c main_v3 (by decide)) (ix1 e)).trans (dst1 m ρ c e)))
      _ n k)

set_option maxHeartbeats 2000000 in
/-- After stretch 2: the bias as a row. -/
theorem bias2 (c : Dev nD) (z : Fin 1) (k : Fin 64) :
    (W5 m ρ c (Proc.devRef .tc main_v36) : S1x64.Idx → EReal) (ix2 z k)
      = (m ((c : Thread nD τ).loc main_arg5) : S64.Idx → EReal) (ix1 k) :=
  have e : W5 m ρ c (Proc.devRef .tc main_v36) = shapeCast S1x64 (W4 m ρ c (Proc.devRef .tc main_arg5)) shapeCasts_S64_S1x64 := by
    show StableHlo.after hostOps2 (W4 m ρ c) (Proc.devRef .tc main_v36) = _
    after_results <;> rfl
  (congrFun e (ix2 z k)).trans ((HostReads.row_cast_apply _ _ z k).trans
    ((congrFun (Keep.at4 m ρ c main_arg5 (by decide)) (ix1 k)).trans (congrFun (Keep.arg_at1 m ρ c main_arg5 (by decide)) (ix1 k))))

set_option maxHeartbeats 2000000 in
/-- After stretch 3: the aggregated array is the sum, over the edges landing on a node, of their source's row of
    the array the previous region scaled. -/
theorem agg3 (c : Dev nD) (n : Fin 50000) (k : Fin 64) :
    (W7 m ρ c (Proc.devRef .tc main_v47) : S50000x64.Idx → EReal) (ix2 n k)
      = Gcn.aggK (GcnNet.lands (ei m c)) (GcnNet.gs (ei m c))
          (GcnNet.mat (a := 50000) (b := 64) (W6 m ρ c (Proc.devRef .tc main_v37_1))) n k :=
  have e : W7 m ρ c (Proc.devRef .tc main_v47) = Host.scatterAdd (F := Ideal) (φ := .f32) scatter_S50000x64_S800000x1_S800000x64_1_0_0_1
      (broadcastInDim S50000x64 ![] bcast_S_S50000x64 (constant (F := Ideal) S_ .f32 0x00000000#32))
      (broadcastInDim S800000x1 ![0] bcast_S800000_S800000x1_0 (W6 m ρ c (Proc.devRef .tc main_v3)))
      (Host.gather gather_S50000x64_S800000x1_S800000x64_1_0_n_n_0_1_164 (W6 m ρ c (Proc.devRef .tc main_v37_1))
        (broadcastInDim S800000x1 ![0] bcast_S800000_S800000x1_0
          (select (cmpi .slt (W6 m ρ c (Proc.devRef .tc main_v1)) (broadcastInDim S800000 ![] bcast_S_S800000 (constantI S_ 32 0#32)))
            (addi (W6 m ρ c (Proc.devRef .tc main_v1)) (broadcastInDim S800000 ![] bcast_S_S800000 (constantI S_ 32 50000#32)))
            (W6 m ρ c (Proc.devRef .tc main_v1))))) := by
    show StableHlo.after hostOps3 (W6 m ρ c) (Proc.devRef .tc main_v47) = _
    after_results <;> rfl
  (congrFun e (ix2 n k)).trans
    (GcnNet.agg_read (C := 64) scatter_S50000x64_S800000x1_S800000x64_1_0_0_1_wf gather_S50000x64_S800000x1_S800000x64_1_0_n_n_0_1_164_wf bcast_S_S50000x64 (ei m c) _ _
      (fun e => (HostReads.col_bcast_apply _ _ e (0 : Fin 1)).trans ((GcnNet.wrap_apply _ _ (ix1 e)).trans
        (congrArg GcnNet.wrap ((congrFun (Keep.at6 m ρ c main_v1 (by decide)) (ix1 e)).trans (src1 m ρ c e)))))
      (fun e => (HostReads.col_bcast_apply _ _ e (0 : Fin 1)).trans
        ((congrFun (Keep.at6 m ρ c main_v3 (by decide)) (ix1 e)).trans (dst1 m ρ c e)))
      _ n k)

set_option maxHeartbeats 2000000 in
/-- After stretch 3: the bias as a row. -/
theorem bias3 (c : Dev nD) (z : Fin 1) (k : Fin 64) :
    (W7 m ρ c (Proc.devRef .tc main_v48) : S1x64.Idx → EReal) (ix2 z k)
      = (m ((c : Thread nD τ).loc main_arg7) : S64.Idx → EReal) (ix1 k) :=
  have e : W7 m ρ c (Proc.devRef .tc main_v48) = shapeCast S1x64 (W6 m ρ c (Proc.devRef .tc main_arg7)) shapeCasts_S64_S1x64 := by
    show StableHlo.after hostOps3 (W6 m ρ c) (Proc.devRef .tc main_v48) = _
    after_results <;> rfl
  (congrFun e (ix2 z k)).trans ((HostReads.row_cast_apply _ _ z k).trans
    ((congrFun (Keep.at6 m ρ c main_arg7 (by decide)) (ix1 k)).trans (congrFun (Keep.arg_at1 m ρ c main_arg7 (by decide)) (ix1 k))))

set_option maxHeartbeats 2000000 in
/-- After stretch 4: the aggregated array is the sum, over the edges landing on a node, of their source's row of
    the array the previous region scaled. -/
theorem agg4 (c : Dev nD) (n : Fin 50000) (k : Fin 128) :
    (W9 m ρ c (Proc.devRef .tc main_v59) : S50000x128.Idx → EReal) (ix2 n k)
      = Gcn.aggK (GcnNet.lands (ei m c)) (GcnNet.gs (ei m c))
          (GcnNet.mat (a := 50000) (b := 128) (W8 m ρ c (Proc.devRef .tc main_v49_1))) n k :=
  have e : W9 m ρ c (Proc.devRef .tc main_v59) = Host.scatterAdd (F := Ideal) (φ := .f32) scatter_S50000x128_S800000x1_S800000x128_1_0_0_1
      (broadcastInDim S50000x128 ![] bcast_S_S50000x128 (constant (F := Ideal) S_ .f32 0x00000000#32))
      (broadcastInDim S800000x1 ![0] bcast_S800000_S800000x1_0 (W8 m ρ c (Proc.devRef .tc main_v3)))
      (Host.gather gather_S50000x128_S800000x1_S800000x128_1_0_n_n_0_1_1128 (W8 m ρ c (Proc.devRef .tc main_v49_1))
        (broadcastInDim S800000x1 ![0] bcast_S800000_S800000x1_0
          (select (cmpi .slt (W8 m ρ c (Proc.devRef .tc main_v1)) (broadcastInDim S800000 ![] bcast_S_S800000 (constantI S_ 32 0#32)))
            (addi (W8 m ρ c (Proc.devRef .tc main_v1)) (broadcastInDim S800000 ![] bcast_S_S800000 (constantI S_ 32 50000#32)))
            (W8 m ρ c (Proc.devRef .tc main_v1))))) := by
    show StableHlo.after hostOps4 (W8 m ρ c) (Proc.devRef .tc main_v59) = _
    after_results <;> rfl
  (congrFun e (ix2 n k)).trans
    (GcnNet.agg_read (C := 128) scatter_S50000x128_S800000x1_S800000x128_1_0_0_1_wf gather_S50000x128_S800000x1_S800000x128_1_0_n_n_0_1_1128_wf bcast_S_S50000x128 (ei m c) _ _
      (fun e => (HostReads.col_bcast_apply _ _ e (0 : Fin 1)).trans ((GcnNet.wrap_apply _ _ (ix1 e)).trans
        (congrArg GcnNet.wrap ((congrFun (Keep.at8 m ρ c main_v1 (by decide)) (ix1 e)).trans (src1 m ρ c e)))))
      (fun e => (HostReads.col_bcast_apply _ _ e (0 : Fin 1)).trans
        ((congrFun (Keep.at8 m ρ c main_v3 (by decide)) (ix1 e)).trans (dst1 m ρ c e)))
      _ n k)

set_option maxHeartbeats 2000000 in
/-- After stretch 4: the bias as a row. -/
theorem bias4 (c : Dev nD) (z : Fin 1) (k : Fin 128) :
    (W9 m ρ c (Proc.devRef .tc main_v60) : S1x128.Idx → EReal) (ix2 z k)
      = (m ((c : Thread nD τ).loc main_arg9) : S128.Idx → EReal) (ix1 k) :=
  have e : W9 m ρ c (Proc.devRef .tc main_v60) = shapeCast S1x128 (W8 m ρ c (Proc.devRef .tc main_arg9)) shapeCasts_S128_S1x128 := by
    show StableHlo.after hostOps4 (W8 m ρ c) (Proc.devRef .tc main_v60) = _
    after_results <;> rfl
  (congrFun e (ix2 z k)).trans ((HostReads.row_cast_apply _ _ z k).trans
    ((congrFun (Keep.at8 m ρ c main_arg9 (by decide)) (ix1 k)).trans (congrFun (Keep.arg_at1 m ρ c main_arg9 (by decide)) (ix1 k))))

end Cert.KernelIdeal.HostValue

end
-- ==== Proof.GcnSteps.lean ====
/-
  Two congruences for assembling the network layer by layer, over arbitrary finite types.

  If, entry by entry, a degree column is `dis`, an array is the sum over the edges of the scaled rows of `h`, another
  is `h` itself and a row is the bias `b`, then their combination is the layer `layerK … dis h b`; and a matrix
  product of equal factors is the same product.
-/
import proofs.«123087_j26456998543657_2_alg».proof.Proof.LibGcnLaw

noncomputable section

namespace Gcn

variable {N E A B : Type} [Fintype N] [Fintype E] [Fintype A] [Fintype B]
variable (lands : E → N → Prop) [∀ e n, Decidable (lands e n)] (gs : E → N)

theorem comb_layer {dis d : N → EReal} {h h' a : N → B → EReal} {b b' : B → EReal}
    (hd : ∀ p, d p = dis p) (ha : ∀ p k, a p k = aggK lands gs (scaled dis h) p k)
    (hh : ∀ p k, h' p k = h p k) (hb : ∀ k, b' k = b k) :
    comb d a h' b' = layerK lands gs dis h b := by
  have e1 : d = dis := funext hd
  have e2 : a = aggK lands gs (scaled dis h) := funext fun p => funext fun k => ha p k
  have e3 : h' = h := funext fun p => funext fun k => hh p k
  have e4 : b' = b := funext hb
  rw [e1, e2, e3, e4]
  rfl

theorem mm_congr {h h' : N → A → EReal} {W W' : A → B → EReal} (hh : h = h') (hW : W = W') (n : N) (b : B) :
    mm h W n b = mm h' W' n b := by rw [hh, hW]

end Gcn

end
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.LibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.RegionLin.lean ====
/-
  The first kernel region (the first layer's matrix product and its scaled copy), read as two functions of the
  arrays it finds at entry.

  With x the node features, W the weight and d the column of node factors, the region computes, ten blocks of 5000
  rows at a time,

    out n q = ∑ k, x n k * W k q        and        outs n q = out n q * d n.

  Each grid point reads rows 5000 t … 5000 t + 4999 of x and d (and the whole weight) and writes the same rows of the
  two outputs; the ten blocks tile the 50000 rows, so after the last point each output array is the function above
  at every index.
-/
import proofs.«123087_j26456998543657_2_alg».proof.Proof.Gen.KernelIdeal.Frame
import proofs.«123087_j26456998543657_2_alg».proof.Proof.NetSpec
import proofs.«123087_j26456998543657_2_alg».proof.Proof.LibPlainDot
import proofs.«123087_j26456998543657_2_alg».proof.Proof.LibKeepdims
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-! ## The body's arithmetic at an entry -/

theorem zero_off0 : (![0, 0] : Fin 2 → Nat) = fun _ => 0 := funext fun a => by fin_cases a <;> rfl

set_option maxHeartbeats 400000 in
/-- The matrix product's entry (p, q): the sum over k of the input's (p, k) times the weight's (k, q). Rounding the
    factors to the narrower format changes nothing on the extended reals. -/
theorem pay0_h_apply (v0 : Vec Ideal S5000x128 .f32) (v2 : Vec Ideal S128x64 .f32) (p : Fin 5000) (q : Fin 64) :
    k0_pay1 v0 v2 (ix2 p q) = ∑ k : Fin 128, v0 (ix2 p k) * v2 (ix2 k q) := by
  unfold k0_pay1
  refine (Ideal.matmul_constant_zero_apply _ none _ _ (ix2 p q)).trans ?_
  refine (Cert.PlainDot.contraction_eq _ _ p q).trans ?_
  refine Finset.sum_congr rfl fun k _ => ?_
  rw [truncf_apply, truncf_apply]

set_option maxHeartbeats 400000 in
/-- The scaled copy's entry (p, q): the product's entry times row p's factor. -/
theorem pay0_hs_apply (v0 : Vec Ideal S5000x128 .f32) (v2 : Vec Ideal S128x64 .f32) (v6 : Vec Ideal S5000x1 .f32) (p : Fin 5000) (q : Fin 64) :
    k0_pay2 v0 v2 v6 (ix2 p q) = k0_pay1 v0 v2 (ix2 p q) * v6 (ix2 p (0 : Fin 1)) := by
  unfold k0_pay2
  simp only [shapeCast_self]
  rw [mulf_apply, Keepdims.broadcastTo_a1_ab_apply]

/-! ## The windows' blocks as rows of their arrays -/

/-- The index maps over the ten grid points: the four row windows sit at block (t, 0), the weight at (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

set_option maxHeartbeats 400000 in
/-- Row p of point t's block of the input is row 5000 t + p of the array. -/
theorem iblk0_0_apply (c : Dev nD) (t : Fin cfg0.N) (p : Fin 5000) (k : Fin 128) (n : Fin 50000) (hn : n.val = t.val * 5000 + p.val) :
    (iblk0 V c 0 t : Vec Ideal S5000x128 .f32) (ix2 p k) = (V c main_arg0 : S50000x128.Idx → EReal) (ix2 n k) := by
  obtain ⟨e0, e1, -⟩ := idx_facts0 t
  unfold iblk0
  rw [View.read_apply]
  show (V c main_arg0 : S50000x128.Idx → EReal) _ = (V c main_arg0 : S50000x128.Idx → EReal) _
  refine congrArg (V c main_arg0 : S50000x128.Idx → EReal) ?_
  funext a
  apply Fin.ext
  match a with
  | ⟨0, _⟩ => show win0_0.index t (0 : Fin 2) * 5000 + 1 * p.val = n.val; rw [e0, hn]; omega
  | ⟨1, _⟩ => show win0_0.index t (1 : Fin 2) * 128 + 1 * k.val = k.val; rw [e1]; omega

set_option maxHeartbeats 400000 in
/-- The weight window's block is the whole weight at every point. -/
theorem iblk0_1_apply (c : Dev nD) (t : Fin cfg0.N) (k : Fin 128) (q : Fin 64) :
    (iblk0 V c 1 t : Vec Ideal S128x64 .f32) (ix2 k q) = (V c main_arg2 : S128x64.Idx → EReal) (ix2 k q) := by
  obtain ⟨-, -, e0, e1, -⟩ := idx_facts0 t
  unfold iblk0
  rw [View.read_apply]
  show (V c main_arg2 : S128x64.Idx → EReal) _ = (V c main_arg2 : S128x64.Idx → EReal) _
  refine congrArg (V c main_arg2 : S128x64.Idx → EReal) ?_
  funext a
  apply Fin.ext
  match a with
  | ⟨0, _⟩ => show win0_1.index t (0 : Fin 2) * 128 + 1 * k.val = k.val; rw [e0]; omega
  | ⟨1, _⟩ => show win0_1.index t (1 : Fin 2) * 64 + 1 * q.val = q.val; rw [e1]; omega

set_option maxHeartbeats 400000 in
/-- Row p of point t's block of the column of factors is row 5000 t + p of the column. -/
theorem iblk0_2_apply (c : Dev nD) (t : Fin cfg0.N) (p : Fin 5000) (n : Fin 50000) (hn : n.val = t.val * 5000 + p.val) :
    (iblk0 V c 2 t : Vec Ideal S5000x1 .f32) (ix2 p (0 : Fin 1)) = (V c main_v12 : S50000x1.Idx → EReal) (ix2 n (0 : Fin 1)) := by
  obtain ⟨-, -, -, -, e0, e1, -⟩ := idx_facts0 t
  unfold iblk0
  rw [View.read_apply]
  show (V c main_v12 : S50000x1.Idx → EReal) _ = (V c main_v12 : S50000x1.Idx → EReal) _
  refine congrArg (V c main_v12 : S50000x1.Idx → EReal) ?_
  funext a
  apply Fin.ext
  match a with
  | ⟨0, _⟩ => show win0_2.index t (0 : Fin 2) * 5000 + 1 * p.val = n.val; rw [e0, hn]; omega
  | ⟨1, _⟩ => show win0_2.index t (1 : Fin 2) * 1 + 1 * (0 : Fin 1).val = (0 : Fin 1).val; rw [e1]; rfl

/-! ## The two outputs as functions of the arrays at entry -/

/-- The first output: the input times the weight. -/
def G0h (c : Dev nD) : S50000x64.Idx → EReal := fun i =>
  Gcn.mm (GcnNet.mat (V c main_arg0)) (GcnNet.mat (V c main_arg2)) (i 0) (i 1)

/-- The second output: the first with each row scaled by its factor. -/
def G0hs (c : Dev nD) : S50000x64.Idx → EReal := fun i => G0h V c i * V c main_v12 (ix2 (i 0) (0 : Fin 1))

/-! ## What each point writes back, and the arrays after the last point -/

set_option maxHeartbeats 400000 in
/-- Entry (p, q) of point t's block of the first output sits at row 5000 t + p of its array. -/
theorem emb0_3_apply (t : Fin cfg0.N) (p : Fin 5000) (q : Fin 64) (n : Fin 50000) (hn : n.val = t.val * 5000 + p.val) :
    ((cfg0.win 3).blk t).view.emb (ix2 p q) = (ix2 n q : S50000x64.Idx) := by
  obtain ⟨-, -, -, -, -, -, e0, e1, -⟩ := idx_facts0 t
  funext a
  apply Fin.ext
  match a with
  | ⟨0, _⟩ => show win0_3.index t (0 : Fin 2) * 5000 + 1 * p.val = n.val; rw [e0, hn]; omega
  | ⟨1, _⟩ => show win0_3.index t (1 : Fin 2) * 64 + 1 * q.val = q.val; rw [e1]; omega

set_option maxHeartbeats 400000 in
/-- The same for the second output. -/
theorem emb0_4_apply (t : Fin cfg0.N) (p : Fin 5000) (q : Fin 64) (n : Fin 50000) (hn : n.val = t.val * 5000 + p.val) :
    ((cfg0.win 4).blk t).view.emb (ix2 p q) = (ix2 n q : S50000x64.Idx) := by
  obtain ⟨-, -, -, -, -, -, -, -, e0, e1⟩ := idx_facts0 t
  funext a
  apply Fin.ext
  match a with
  | ⟨0, _⟩ => show win0_4.index t (0 : Fin 2) * 5000 + 1 * p.val = n.val; rw [e0, hn]; omega
  | ⟨1, _⟩ => show win0_4.index t (1 : Fin 2) * 64 + 1 * q.val = q.val; rw [e1]; omega

set_option maxHeartbeats 1000000 in
/-- The product at (p, q) of the blocks at point t is the first output's function at row 5000 t + p. -/
theorem pay0_h_blocks (c : Dev nD) (t : Fin cfg0.N) (p : Fin 5000) (q : Fin 64) (n : Fin 50000) (hn : n.val = t.val * 5000 + p.val) :
    k0_pay1 (iblk0 V c 0 t) (iblk0 V c 1 t) (ix2 p q) = G0h V c (ix2 n q) := by
  refine (pay0_h_apply (iblk0 V c 0 t) (iblk0 V c 1 t) p q).trans ?_
  unfold G0h Gcn.mm
  refine Finset.sum_congr rfl fun k _ => ?_
  rw [iblk0_0_apply V c t p k n hn, iblk0_1_apply V c t k q]
  rfl

set_option maxHeartbeats 1000000 in
/-- What point t writes back to the first output is block t of its function. -/
theorem flushed0_h_eq (c : Dev nD) (t : Fin cfg0.N) :
    (dat0 V c).flushed 3 t = ((cfg0.win 3).blk t).view.read (Elt Ideal) (G0h V c) := by
  show (cfg0.win 3).cut (grid0.coords t) ((dat0 V c).after 3 t) = _
  rw [after0_3]
  unfold out0_3
  rw [View.canon_unit_zero zero_off0]
  simp only [View.ld_unit_zero (S := S5000x128) zero_off0, View.ld_unit_zero (S := S128x64) zero_off0]
  funext j
  obtain ⟨p, q, rfl⟩ : ∃ (p : Fin 5000) (q : Fin 64), j = ix2 p q := ⟨j 0, j 1, eq_ix2 j⟩
  have ht : t.val < 10 := lt_of_lt_of_eq t.isLt (show cfg0.N = 10 from N_0)
  have hp : p.val < 5000 := p.isLt
  show k0_pay1 (iblk0 V c 0 t) (iblk0 V c 1 t) (ix2 p q) = G0h V c (((cfg0.win 3).blk t).view.emb (ix2 p q))
  rw [emb0_3_apply t p q ⟨t.val * 5000 + p.val, by omega⟩ rfl]
  exact pay0_h_blocks V c t p q ⟨t.val * 5000 + p.val, by omega⟩ rfl

set_option maxHeartbeats 1000000 in
/-- What point t writes back to the second output is block t of its function. -/
theorem flushed0_hs_eq (c : Dev nD) (t : Fin cfg0.N) :
    (dat0 V c).flushed 4 t = ((cfg0.win 4).blk t).view.read (Elt Ideal) (G0hs V c) := by
  show (cfg0.win 4).cut (grid0.coords t) ((dat0 V c).after 4 t) = _
  rw [after0_4]
  unfold out0_4
  rw [View.canon_unit_zero zero_off0]
  simp only [View.ld_unit_zero (S := S5000x128) zero_off0, View.ld_unit_zero (S := S128x64) zero_off0,
    View.ld_unit_zero (S := S5000x1) zero_off0]
  funext j
  obtain ⟨p, q, rfl⟩ : ∃ (p : Fin 5000) (q : Fin 64), j = ix2 p q := ⟨j 0, j 1, eq_ix2 j⟩
  have ht : t.val < 10 := lt_of_lt_of_eq t.isLt (show cfg0.N = 10 from N_0)
  have hp : p.val < 5000 := p.isLt
  show k0_pay2 (iblk0 V c 0 t) (iblk0 V c 1 t) (iblk0 V c 2 t) (ix2 p q) = G0hs V c (((cfg0.win 4).blk t).view.emb (ix2 p q))
  rw [emb0_4_apply t p q ⟨t.val * 5000 + p.val, by omega⟩ rfl]
  refine (pay0_hs_apply (iblk0 V c 0 t) (iblk0 V c 1 t) (iblk0 V c 2 t) p q).trans ?_
  rw [pay0_h_blocks V c t p q ⟨t.val * 5000 + p.val, by omega⟩ rfl, iblk0_2_apply V c t p ⟨t.val * 5000 + p.val, by omega⟩ rfl]
  rfl

/-- An index of an output array is in point t's block iff each coordinate is in the block's range on its axis. -/
theorem mem_blk0_3 (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v13_0).slice (win0_3.rect t)).set ↔ _
  rw [View.set_slice_whole, Rect.mem_set_unit]
  exact Iff.rfl

theorem mem_blk0_4 (t : Fin cfg0.N) (i : S50000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v13_1).slice (win0_4.rect t)).set ↔ _
  rw [View.set_slice_whole, Rect.mem_set_unit]
  exact Iff.rfl

/-- Row r of an output lies in the block of point r / 5000: the ten blocks tile the array. -/
theorem covered0_3 (i : S50000x64.Idx) : ∃ t : Fin cfg0.N, (cfg0.win 3).flush t = true ∧ i ∈ ((cfg0.win 3).blk t).view.set := by
  have hi0 : (i 0).val < 50000 := idx2_lt0 i
  have hi1 : (i 1).val < 64 := idx2_lt1 i
  have ht : (i 0).val / 5000 < cfg0.N := by rw [show cfg0.N = 10 from N_0]; omega
  refine ⟨⟨(i 0).val / 5000, ht⟩, flush0_3 _, ?_⟩
  rw [mem_blk0_3]
  obtain ⟨-, -, -, -, -, -, e0, e1, -⟩ := idx_facts0 ⟨(i 0).val / 5000, ht⟩
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_3.index ⟨(i 0).val / 5000, ht⟩ (1 : Fin 2) * 64 ≤ (i 1).val ∧ (i 1).val < win0_3.index ⟨(i 0).val / 5000, ht⟩ (1 : Fin 2) * 64 + 64
    rw [e1]
    omega

theorem covered0_4 (i : S50000x64.Idx) : ∃ t : Fin cfg0.N, (cfg0.win 4).flush t = true ∧ i ∈ ((cfg0.win 4).blk t).view.set := by
  have hi0 : (i 0).val < 50000 := idx2_lt0 i
  have hi1 : (i 1).val < 64 := idx2_lt1 i
  have ht : (i 0).val / 5000 < cfg0.N := by rw [show cfg0.N = 10 from N_0]; omega
  refine ⟨⟨(i 0).val / 5000, ht⟩, flush0_4 _, ?_⟩
  rw [mem_blk0_4]
  obtain ⟨-, -, -, -, -, -, -, -, e0, e1⟩ := idx_facts0 ⟨(i 0).val / 5000, ht⟩
  intro a
  match a with
  | ⟨0, _⟩ =>
    show win0_4.index ⟨(i 0).val / 5000, ht⟩ (0 : Fin 2) * 5000 ≤ (i 0).val ∧ (i 0).val < win0_4.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_4.index ⟨(i 0).val / 5000, ht⟩ (1 : Fin 2) * 64 ≤ (i 1).val ∧ (i 1).val < win0_4.index ⟨(i 0).val / 5000, ht⟩ (1 : Fin 2) * 64 + 64
    rw [e1]
    omega

/-- The first output array after the region. -/
theorem final0_h (c : Dev nD) : (dat0 V c).arrAt 3 cfg0.N = G0h V c :=
  (dat0 V c).arrAt_eq_of_cover 3 (G0h V c) (fun t _ => flushed0_h_eq V c t) covered0_3

/-- The second output array after the region. -/
theorem final0_hs (c : Dev nD) : (dat0 V c).arrAt 4 cfg0.N = G0hs V c :=
  (dat0 V c).arrAt_eq_of_cover 4 (G0hs V c) (fun t _ => flushed0_hs_eq V c t) covered0_4

/-- The first output at node n, channel q: row n of the input times column q of the weight. -/
theorem reg0_h (c : Dev nD) (n : Fin 50000) (q : Fin 64) :
    (dat0 V c).arrAt 3 cfg0.N (ix2 n q) = Gcn.mm (GcnNet.mat (V c main_arg0)) (GcnNet.mat (V c main_arg2)) n q :=
  congrFun (final0_h V c) (ix2 n q)

/-- The second output at node n, channel q: the first scaled by node n's factor. -/
theorem reg0_hs (c : Dev nD) (n : Fin 50000) (q : Fin 64) :
    (dat0 V c).arrAt 4 cfg0.N (ix2 n q)
      = Gcn.mm (GcnNet.mat (V c main_arg0)) (GcnNet.mat (V c main_arg2)) n q * V c main_v12 (ix2 n (0 : Fin 1)) :=
  congrFun (final0_hs V c) (ix2 n q)

end Cert.KernelIdeal.RegionValue
end
-- ==== Proof.RegionComb1.lean ====
/-
  The second kernel region (the first layer's combination fused with the second layer's matrix product),
  read as two functions of the arrays it finds at entry.

  With agg the rows summed over the edges, h the node rows, d the column of node factors, b the bias row and W the
  weight, the region computes, ten blocks of 5000 rows at a time,

    P n k  = max (agg n k * d n + h n k * (d n * d n) + b k) 0,
    out n q = ∑ k, P n k * W k q        and        outs n q = out n q * d n.

  Each grid point reads rows 5000 t … 5000 t + 4999 of the row arrays (and the whole bias and weight) and writes the
  same rows of the two outputs; the ten blocks tile the 50000 rows, so after the last point each output array is the
  function above at every index.
-/
import proofs.«123087_j26456998543657_2_alg».proof.Proof.Gen.KernelIdeal.Frame
import proofs.«123087_j26456998543657_2_alg».proof.Proof.NetSpec
import proofs.«123087_j26456998543657_2_alg».proof.Proof.LibPlainDot
import proofs.«123087_j26456998543657_2_alg».proof.Proof.LibKeepdims
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-! ## The body's arithmetic at an entry -/

theorem zero_off1 : (![0, 0] : Fin 2 → Nat) = fun _ => 0 := funext fun a => by fin_cases a <;> rfl

set_option maxHeartbeats 400000 in
/-- The matrix product's entry (p, q): the sum over k of the combined row p at k, cut below at zero, times the
    weight's entry (k, q). Rounding the factors to the narrower format changes nothing on the extended reals. -/
theorem pay1_h_apply (v0 : Vec Ideal S5000x1 .f32) (v3 v7 : Vec Ideal S5000x64 .f32) (v12 : Vec Ideal S1x64 .f32) (v19 : Vec Ideal S64x64 .f32)
    (p : Fin 5000) (q : Fin 64) :
    k1_pay2 v0 v3 v7 v12 v19 (ix2 p q)
      = ∑ k : Fin 64, max (v3 (ix2 p k) * v0 (ix2 p (0 : Fin 1)) + v7 (ix2 p k) * (v0 (ix2 p (0 : Fin 1)) * v0 (ix2 p (0 : Fin 1)))
          + v12 (ix2 (0 : Fin 1) k)) GcnNet.zero * v19 (ix2 k q) := by
  unfold k1_pay2 k1_pay1
  simp only [shapeCast_self]
  refine (Ideal.matmul_constant_zero_apply _ none _ _ (ix2 p q)).trans ?_
  refine (Cert.PlainDot.contraction_eq _ _ p q).trans ?_
  refine Finset.sum_congr rfl fun k _ => ?_
  rw [truncf_apply, truncf_apply, maximumf_apply, addf_apply, addf_apply, mulf_apply, mulf_apply, broadcast_apply,
    Keepdims.broadcastTo_a1_ab_apply, Keepdims.broadcastTo_a1_ab_apply, mulf_apply, broadcastTo_1b_ab_apply]
  rfl

set_option maxHeartbeats 400000 in
/-- The scaled copy's entry (p, q): the product's entry times row p's factor. -/
theorem pay1_hs_apply (v0 : Vec Ideal S5000x1 .f32) (v3 v7 : Vec Ideal S5000x64 .f32) (v12 : Vec Ideal S1x64 .f32) (v19 : Vec Ideal S64x64 .f32)
    (p : Fin 5000) (q : Fin 64) :
    k1_pay3 v0 v3 v7 v12 v19 (ix2 p q) = k1_pay2 v0 v3 v7 v12 v19 (ix2 p q) * v0 (ix2 p (0 : Fin 1)) := by
  unfold k1_pay3 k1_pay1
  simp only [shapeCast_self]
  rw [mulf_apply, Keepdims.broadcastTo_a1_ab_apply]

/-! ## The windows' blocks as rows of their arrays -/

/-- The index maps over the ten grid points: the five row windows sit at block (t, 0), the bias and the weight at (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

set_option maxHeartbeats 400000 in
/-- Row p of point t's block of the summed rows is row 5000 t + p of the array. -/
theorem iblk1_0_apply (c : Dev nD) (t : Fin cfg1.N) (p : Fin 5000) (k : Fin 64) (n : Fin 50000) (hn : n.val = t.val * 5000 + p.val) :
    (iblk1 V c 0 t : Vec Ideal S5000x64 .f32) (ix2 p k) = (V c main_v23 : S50000x64.Idx → EReal) (ix2 n k) := by
  obtain ⟨e0, e1, -⟩ := idx_facts1 t
  unfold iblk1
  rw [View.read_apply]
  show (V c main_v23 : S50000x64.Idx → EReal) _ = (V c main_v23 : S50000x64.Idx → EReal) _
  refine congrArg (V c main_v23 : S50000x64.Idx → EReal) ?_
  funext a
  apply Fin.ext
  match a with
  | ⟨0, _⟩ => show win1_0.index t (0 : Fin 2) * 5000 + 1 * p.val = n.val; rw [e0, hn]; omega
  | ⟨1, _⟩ => show win1_0.index t (1 : Fin 2) * 64 + 1 * k.val = k.val; rw [e1]; omega

set_option maxHeartbeats 400000 in
/-- The same for the node rows. -/
theorem iblk1_1_apply (c : Dev nD) (t : Fin cfg1.N) (p : Fin 5000) (k : Fin 64) (n : Fin 50000) (hn : n.val = t.val * 5000 + p.val) :
    (iblk1 V c 1 t : Vec Ideal S5000x64 .f32) (ix2 p k) = (V c main_v13_0 : S50000x64.Idx → EReal) (ix2 n k) := by
  obtain ⟨-, -, e0, e1, -⟩ := idx_facts1 t
  unfold iblk1
  rw [View.read_apply]
  show (V c main_v13_0 : S50000x64.Idx → EReal) _ = (V c main_v13_0 : S50000x64.Idx → EReal) _
  refine congrArg (V c main_v13_0 : S50000x64.Idx → EReal) ?_
  funext a
  apply Fin.ext
  match a with
  | ⟨0, _⟩ => show win1_1.index t (0 : Fin 2) * 5000 + 1 * p.val = n.val; rw [e0, hn]; omega
  | ⟨1, _⟩ => show win1_1.index t (1 : Fin 2) * 64 + 1 * k.val = k.val; rw [e1]; omega

set_option maxHeartbeats 400000 in
/-- The same for the column of factors. -/
theorem iblk1_2_apply (c : Dev nD) (t : Fin cfg1.N) (p : Fin 5000) (n : Fin 50000) (hn : n.val = t.val * 5000 + p.val) :
    (iblk1 V c 2 t : Vec Ideal S5000x1 .f32) (ix2 p (0 : Fin 1)) = (V c main_v12 : S50000x1.Idx → EReal) (ix2 n (0 : Fin 1)) := by
  obtain ⟨-, -, -, -, e0, e1, -⟩ := idx_facts1 t
  unfold iblk1
  rw [View.read_apply]
  show (V c main_v12 : S50000x1.Idx → EReal) _ = (V c main_v12 : S50000x1.Idx → EReal) _
  refine congrArg (V c main_v12 : S50000x1.Idx → EReal) ?_
  funext a
  apply Fin.ext
  match a with
  | ⟨0, _⟩ => show win1_2.index t (0 : Fin 2) * 5000 + 1 * p.val = n.val; rw [e0, hn]; omega
  | ⟨1, _⟩ => show win1_2.index t (1 : Fin 2) * 1 + 1 * (0 : Fin 1).val = (0 : Fin 1).val; rw [e1]; rfl

set_option maxHeartbeats 400000 in
/-- The bias window's block is the whole bias row at every point. -/
theorem iblk1_3_apply (c : Dev nD) (t : Fin cfg1.N) (k : Fin 64) :
    (iblk1 V c 3 t : Vec Ideal S1x64 .f32) (ix2 (0 : Fin 1) k) = (V c main_v24 : S1x64.Idx → EReal) (ix2 (0 : Fin 1) k) := by
  obtain ⟨-, -, -, -, -, -, e0, e1, -⟩ := idx_facts1 t
  unfold iblk1
  rw [View.read_apply]
  show (V c main_v24 : S1x64.Idx → EReal) _ = (V c main_v24 : S1x64.Idx → EReal) _
  refine congrArg (V c main_v24 : S1x64.Idx → EReal) ?_
  funext a
  apply Fin.ext
  match a with
  | ⟨0, _⟩ => show win1_3.index t (0 : Fin 2) * 1 + 1 * (0 : Fin 1).val = (0 : Fin 1).val; rw [e0]; rfl
  | ⟨1, _⟩ => show win1_3.index t (1 : Fin 2) * 64 + 1 * k.val = k.val; rw [e1]; omega

set_option maxHeartbeats 400000 in
/-- The weight window's block is the whole weight at every point. -/
theorem iblk1_4_apply (c : Dev nD) (t : Fin cfg1.N) (k q : Fin 64) :
    (iblk1 V c 4 t : Vec Ideal S64x64 .f32) (ix2 k q) = (V c main_arg4 : S64x64.Idx → EReal) (ix2 k q) := by
  obtain ⟨-, -, -, -, -, -, -, -, e0, e1, -⟩ := idx_facts1 t
  unfold iblk1
  rw [View.read_apply]
  show (V c main_arg4 : S64x64.Idx → EReal) _ = (V c main_arg4 : S64x64.Idx → EReal) _
  refine congrArg (V c main_arg4 : S64x64.Idx → EReal) ?_
  funext a
  apply Fin.ext
  match a with
  | ⟨0, _⟩ => show win1_4.index t (0 : Fin 2) * 64 + 1 * k.val = k.val; rw [e0]; omega
  | ⟨1, _⟩ => show win1_4.index t (1 : Fin 2) * 64 + 1 * q.val = q.val; rw [e1]; omega

/-! ## The two outputs as functions of the arrays at entry -/

/-- The first output: the combined rows, cut below at zero, times the weight. -/
def G1h (c : Dev nD) : S50000x64.Idx → EReal := fun i =>
  Gcn.mm (Gcn.relu GcnNet.zero (Gcn.comb (fun p => V c main_v12 (ix2 p (0 : Fin 1))) (GcnNet.mat (V c main_v23)) (GcnNet.mat (V c main_v13_0))
    (fun k => V c main_v24 (ix2 (0 : Fin 1) k)))) (GcnNet.mat (V c main_arg4)) (i 0) (i 1)

/-- The second output: the first with each row scaled by its factor. -/
def G1hs (c : Dev nD) : S50000x64.Idx → EReal := fun i => G1h V c i * V c main_v12 (ix2 (i 0) (0 : Fin 1))

/-! ## What each point writes back, and the arrays after the last point -/

set_option maxHeartbeats 400000 in
/-- Entry (p, q) of point t's block of the first output sits at row 5000 t + p of its array. -/
theorem emb1_5_apply (t : Fin cfg1.N) (p : Fin 5000) (q : Fin 64) (n : Fin 50000) (hn : n.val = t.val * 5000 + p.val) :
    ((cfg1.win 5).blk t).view.emb (ix2 p q) = (ix2 n q : S50000x64.Idx) := by
  obtain ⟨-, -, -, -, -, -, -, -, -, -, e0, e1, -⟩ := idx_facts1 t
  funext a
  apply Fin.ext
  match a with
  | ⟨0, _⟩ => show win1_5.index t (0 : Fin 2) * 5000 + 1 * p.val = n.val; rw [e0, hn]; omega
  | ⟨1, _⟩ => show win1_5.index t (1 : Fin 2) * 64 + 1 * q.val = q.val; rw [e1]; omega

set_option maxHeartbeats 400000 in
/-- The same for the second output. -/
theorem emb1_6_apply (t : Fin cfg1.N) (p : Fin 5000) (q : Fin 64) (n : Fin 50000) (hn : n.val = t.val * 5000 + p.val) :
    ((cfg1.win 6).blk t).view.emb (ix2 p q) = (ix2 n q : S50000x64.Idx) := by
  obtain ⟨-, -, -, -, -, -, -, -, -, -, -, -, e0, e1⟩ := idx_facts1 t
  funext a
  apply Fin.ext
  match a with
  | ⟨0, _⟩ => show win1_6.index t (0 : Fin 2) * 5000 + 1 * p.val = n.val; rw [e0, hn]; omega
  | ⟨1, _⟩ => show win1_6.index t (1 : Fin 2) * 64 + 1 * q.val = q.val; rw [e1]; omega

set_option maxHeartbeats 1000000 in
/-- The product at (p, q) of the blocks at point t is the first output's function at row 5000 t + p. -/
theorem pay1_h_blocks (c : Dev nD) (t : Fin cfg1.N) (p : Fin 5000) (q : Fin 64) (n : Fin 50000) (hn : n.val = t.val * 5000 + p.val) :
    k1_pay2 (iblk1 V c 2 t) (iblk1 V c 0 t) (iblk1 V c 1 t) (iblk1 V c 3 t) (iblk1 V c 4 t) (ix2 p q) = G1h V c (ix2 n q) := by
  refine (pay1_h_apply (iblk1 V c 2 t) (iblk1 V c 0 t) (iblk1 V c 1 t) (iblk1 V c 3 t) (iblk1 V c 4 t) p q).trans ?_
  unfold G1h Gcn.mm
  refine Finset.sum_congr rfl fun k _ => ?_
  rw [iblk1_0_apply V c t p k n hn, iblk1_1_apply V c t p k n hn, iblk1_2_apply V c t p n hn, iblk1_3_apply V c t k, iblk1_4_apply V c t k q]
  rfl

set_option maxHeartbeats 1000000 in
/-- What point t writes back to the first output is block t of its function. -/
theorem flushed1_h_eq (c : Dev nD) (t : Fin cfg1.N) :
    (dat1 V c).flushed 5 t = ((cfg1.win 5).blk t).view.read (Elt Ideal) (G1h V c) := by
  show (cfg1.win 5).cut (grid1.coords t) ((dat1 V c).after 5 t) = _
  rw [after1_5]
  unfold out1_5
  rw [View.canon_unit_zero zero_off1]
  simp only [View.ld_unit_zero (S := S5000x1) zero_off1, View.ld_unit_zero (S := S5000x64) zero_off1,
    View.ld_unit_zero (S := S1x64) zero_off1, View.ld_unit_zero (S := S64x64) zero_off1]
  funext j
  obtain ⟨p, q, rfl⟩ : ∃ (p : Fin 5000) (q : Fin 64), j = ix2 p q := ⟨j 0, j 1, eq_ix2 j⟩
  have ht : t.val < 10 := lt_of_lt_of_eq t.isLt (show cfg1.N = 10 from N_1)
  have hp : p.val < 5000 := p.isLt
  show k1_pay2 (iblk1 V c 2 t) (iblk1 V c 0 t) (iblk1 V c 1 t) (iblk1 V c 3 t) (iblk1 V c 4 t) (ix2 p q)
    = G1h V c (((cfg1.win 5).blk t).view.emb (ix2 p q))
  rw [emb1_5_apply t p q ⟨t.val * 5000 + p.val, by omega⟩ rfl]
  exact pay1_h_blocks V c t p q ⟨t.val * 5000 + p.val, by omega⟩ rfl

set_option maxHeartbeats 1000000 in
/-- What point t writes back to the second output is block t of its function. -/
theorem flushed1_hs_eq (c : Dev nD) (t : Fin cfg1.N) :
    (dat1 V c).flushed 6 t = ((cfg1.win 6).blk t).view.read (Elt Ideal) (G1hs V c) := by
  show (cfg1.win 6).cut (grid1.coords t) ((dat1 V c).after 6 t) = _
  rw [after1_6]
  unfold out1_6
  rw [View.canon_unit_zero zero_off1]
  simp only [View.ld_unit_zero (S := S5000x1) zero_off1, View.ld_unit_zero (S := S5000x64) zero_off1,
    View.ld_unit_zero (S := S1x64) zero_off1, View.ld_unit_zero (S := S64x64) zero_off1]
  funext j
  obtain ⟨p, q, rfl⟩ : ∃ (p : Fin 5000) (q : Fin 64), j = ix2 p q := ⟨j 0, j 1, eq_ix2 j⟩
  have ht : t.val < 10 := lt_of_lt_of_eq t.isLt (show cfg1.N = 10 from N_1)
  have hp : p.val < 5000 := p.isLt
  show k1_pay3 (iblk1 V c 2 t) (iblk1 V c 0 t) (iblk1 V c 1 t) (iblk1 V c 3 t) (iblk1 V c 4 t) (ix2 p q)
    = G1hs V c (((cfg1.win 6).blk t).view.emb (ix2 p q))
  rw [emb1_6_apply t p q ⟨t.val * 5000 + p.val, by omega⟩ rfl]
  refine (pay1_hs_apply (iblk1 V c 2 t) (iblk1 V c 0 t) (iblk1 V c 1 t) (iblk1 V c 3 t) (iblk1 V c 4 t) p q).trans ?_
  rw [pay1_h_blocks V c t p q ⟨t.val * 5000 + p.val, by omega⟩ rfl, iblk1_2_apply V c t p ⟨t.val * 5000 + p.val, by omega⟩ rfl]
  rfl

/-- An index of an output array is in point t's block iff each coordinate is in the block's range on its axis. -/
theorem mem_blk1_5 (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v25_0).slice (win1_5.rect t)).set ↔ _
  rw [View.set_slice_whole, Rect.mem_set_unit]
  exact Iff.rfl

theorem mem_blk1_6 (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v25_1).slice (win1_6.rect t)).set ↔ _
  rw [View.set_slice_whole, Rect.mem_set_unit]
  exact Iff.rfl

/-- Row r of an output lies in the block of point r / 5000: the ten blocks tile the array. -/
theorem covered1_5 (i : S50000x64.Idx) : ∃ t : Fin cfg1.N, (cfg1.win 5).flush t = true ∧ i ∈ ((cfg1.win 5).blk t).view.set := by
  have hi0 : (i 0).val < 50000 := idx2_lt0 i
  have hi1 : (i 1).val < 64 := idx2_lt1 i
  have ht : (i 0).val / 5000 < cfg1.N := by rw [show cfg1.N = 10 from N_1]; omega
  refine ⟨⟨(i 0).val / 5000, ht⟩, flush1_5 _, ?_⟩
  rw [mem_blk1_5]
  obtain ⟨-, -, -, -, -, -, -, -, -, -, e0, e1, -⟩ := idx_facts1 ⟨(i 0).val / 5000, ht⟩
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_5.index ⟨(i 0).val / 5000, ht⟩ (1 : Fin 2) * 64 ≤ (i 1).val ∧ (i 1).val < win1_5.index ⟨(i 0).val / 5000, ht⟩ (1 : Fin 2) * 64 + 64
    rw [e1]
    omega

theorem covered1_6 (i : S50000x64.Idx) : ∃ t : Fin cfg1.N, (cfg1.win 6).flush t = true ∧ i ∈ ((cfg1.win 6).blk t).view.set := by
  have hi0 : (i 0).val < 50000 := idx2_lt0 i
  have hi1 : (i 1).val < 64 := idx2_lt1 i
  have ht : (i 0).val / 5000 < cfg1.N := by rw [show cfg1.N = 10 from N_1]; omega
  refine ⟨⟨(i 0).val / 5000, ht⟩, flush1_6 _, ?_⟩
  rw [mem_blk1_6]
  obtain ⟨-, -, -, -, -, -, -, -, -, -, -, -, e0, e1⟩ := idx_facts1 ⟨(i 0).val / 5000, ht⟩
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_6.index ⟨(i 0).val / 5000, ht⟩ (1 : Fin 2) * 64 ≤ (i 1).val ∧ (i 1).val < win1_6.index ⟨(i 0).val / 5000, ht⟩ (1 : Fin 2) * 64 + 64
    rw [e1]
    omega

/-- The first output array after the region. -/
theorem final1_h (c : Dev nD) : (dat1 V c).arrAt 5 cfg1.N = G1h V c :=
  (dat1 V c).arrAt_eq_of_cover 5 (G1h V c) (fun t _ => flushed1_h_eq V c t) covered1_5

/-- The second output array after the region. -/
theorem final1_hs (c : Dev nD) : (dat1 V c).arrAt 6 cfg1.N = G1hs V c :=
  (dat1 V c).arrAt_eq_of_cover 6 (G1hs V c) (fun t _ => flushed1_hs_eq V c t) covered1_6

/-- The first output at node n, channel q: row n of the combined rows cut below at zero, times column q of the weight. -/
theorem reg1_h (c : Dev nD) (n : Fin 50000) (q : Fin 64) :
    (dat1 V c).arrAt 5 cfg1.N (ix2 n q)
      = Gcn.mm (Gcn.relu GcnNet.zero (Gcn.comb (fun p => V c main_v12 (ix2 p (0 : Fin 1))) (GcnNet.mat (V c main_v23)) (GcnNet.mat (V c main_v13_0))
          (fun k => V c main_v24 (ix2 (0 : Fin 1) k)))) (GcnNet.mat (V c main_arg4)) n q :=
  congrFun (final1_h V c) (ix2 n q)

/-- The second output at node n, channel q: the first scaled by node n's factor. -/
theorem reg1_hs (c : Dev nD) (n : Fin 50000) (q : Fin 64) :
    (dat1 V c).arrAt 6 cfg1.N (ix2 n q)
      = Gcn.mm (Gcn.relu GcnNet.zero (Gcn.comb (fun p => V c main_v12 (ix2 p (0 : Fin 1))) (GcnNet.mat (V c main_v23)) (GcnNet.mat (V c main_v13_0))
          (fun k => V c main_v24 (ix2 (0 : Fin 1) k)))) (GcnNet.mat (V c main_arg4)) n q * V c main_v12 (ix2 n (0 : Fin 1)) :=
  congrFun (final1_hs V c) (ix2 n q)

end Cert.KernelIdeal.RegionValue
end
-- ==== Proof.RegionComb2.lean ====
/-
  The third kernel region (the second layer's combination fused with the third layer's matrix product),
  read as two functions of the arrays it finds at entry.

  With agg the rows summed over the edges, h the node rows, d the column of node factors, b the bias row and W the
  weight, the region computes, ten blocks of 5000 rows at a time,

    P n k  = max (agg n k * d n + h n k * (d n * d n) + b k) 0,
    out n q = ∑ k, P n k * W k q        and        outs n q = out n q * d n.

  Each grid point reads rows 5000 t … 5000 t + 4999 of the row arrays (and the whole bias and weight) and writes the
  same rows of the two outputs; the ten blocks tile the 50000 rows, so after the last point each output array is the
  function above at every index.
-/
import proofs.«123087_j26456998543657_2_alg».proof.Proof.Gen.KernelIdeal.Frame
import proofs.«123087_j26456998543657_2_alg».proof.Proof.NetSpec
import proofs.«123087_j26456998543657_2_alg».proof.Proof.LibPlainDot
import proofs.«123087_j26456998543657_2_alg».proof.Proof.LibKeepdims
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-! ## The body's arithmetic at an entry -/

theorem zero_off2 : (![0, 0] : Fin 2 → Nat) = fun _ => 0 := funext fun a => by fin_cases a <;> rfl

set_option maxHeartbeats 400000 in
/-- The matrix product's entry (p, q): the sum over k of the combined row p at k, cut below at zero, times the
    weight's entry (k, q). Rounding the factors to the narrower format changes nothing on the extended reals. -/
theorem pay2_h_apply (v0 : Vec Ideal S5000x1 .f32) (v3 v7 : Vec Ideal S5000x64 .f32) (v12 : Vec Ideal S1x64 .f32) (v19 : Vec Ideal S64x64 .f32)
    (p : Fin 5000) (q : Fin 64) :
    k2_pay2 v0 v3 v7 v12 v19 (ix2 p q)
      = ∑ k : Fin 64, max (v3 (ix2 p k) * v0 (ix2 p (0 : Fin 1)) + v7 (ix2 p k) * (v0 (ix2 p (0 : Fin 1)) * v0 (ix2 p (0 : Fin 1)))
          + v12 (ix2 (0 : Fin 1) k)) GcnNet.zero * v19 (ix2 k q) := by
  unfold k2_pay2 k2_pay1
  simp only [shapeCast_self]
  refine (Ideal.matmul_constant_zero_apply _ none _ _ (ix2 p q)).trans ?_
  refine (Cert.PlainDot.contraction_eq _ _ p q).trans ?_
  refine Finset.sum_congr rfl fun k _ => ?_
  rw [truncf_apply, truncf_apply, maximumf_apply, addf_apply, addf_apply, mulf_apply, mulf_apply, broadcast_apply,
    Keepdims.broadcastTo_a1_ab_apply, Keepdims.broadcastTo_a1_ab_apply, mulf_apply, broadcastTo_1b_ab_apply]
  rfl

set_option maxHeartbeats 400000 in
/-- The scaled copy's entry (p, q): the product's entry times row p's factor. -/
theorem pay2_hs_apply (v0 : Vec Ideal S5000x1 .f32) (v3 v7 : Vec Ideal S5000x64 .f32) (v12 : Vec Ideal S1x64 .f32) (v19 : Vec Ideal S64x64 .f32)
    (p : Fin 5000) (q : Fin 64) :
    k2_pay3 v0 v3 v7 v12 v19 (ix2 p q) = k2_pay2 v0 v3 v7 v12 v19 (ix2 p q) * v0 (ix2 p (0 : Fin 1)) := by
  unfold k2_pay3 k2_pay1
  simp only [shapeCast_self]
  rw [mulf_apply, Keepdims.broadcastTo_a1_ab_apply]

/-! ## The windows' blocks as rows of their arrays -/

/-- The index maps over the ten grid points: the five row windows sit at block (t, 0), the bias and the weight at (0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

set_option maxHeartbeats 400000 in
/-- Row p of point t's block of the summed rows is row 5000 t + p of the array. -/
theorem iblk2_0_apply (c : Dev nD) (t : Fin cfg2.N) (p : Fin 5000) (k : Fin 64) (n : Fin 50000) (hn : n.val = t.val * 5000 + p.val) :
    (iblk2 V c 0 t : Vec Ideal S5000x64 .f32) (ix2 p k) = (V c main_v35 : S50000x64.Idx → EReal) (ix2 n k) := by
  obtain ⟨e0, e1, -⟩ := idx_facts2 t
  unfold iblk2
  rw [View.read_apply]
  show (V c main_v35 : S50000x64.Idx → EReal) _ = (V c main_v35 : S50000x64.Idx → EReal) _
  refine congrArg (V c main_v35 : S50000x64.Idx → EReal) ?_
  funext a
  apply Fin.ext
  match a with
  | ⟨0, _⟩ => show win2_0.index t (0 : Fin 2) * 5000 + 1 * p.val = n.val; rw [e0, hn]; omega
  | ⟨1, _⟩ => show win2_0.index t (1 : Fin 2) * 64 + 1 * k.val = k.val; rw [e1]; omega

set_option maxHeartbeats 400000 in
/-- The same for the node rows. -/
theorem iblk2_1_apply (c : Dev nD) (t : Fin cfg2.N) (p : Fin 5000) (k : Fin 64) (n : Fin 50000) (hn : n.val = t.val * 5000 + p.val) :
    (iblk2 V c 1 t : Vec Ideal S5000x64 .f32) (ix2 p k) = (V c main_v25_0 : S50000x64.Idx → EReal) (ix2 n k) := by
  obtain ⟨-, -, e0, e1, -⟩ := idx_facts2 t
  unfold iblk2
  rw [View.read_apply]
  show (V c main_v25_0 : S50000x64.Idx → EReal) _ = (V c main_v25_0 : S50000x64.Idx → EReal) _
  refine congrArg (V c main_v25_0 : S50000x64.Idx → EReal) ?_
  funext a
  apply Fin.ext
  match a with
  | ⟨0, _⟩ => show win2_1.index t (0 : Fin 2) * 5000 + 1 * p.val = n.val; rw [e0, hn]; omega
  | ⟨1, _⟩ => show win2_1.index t (1 : Fin 2) * 64 + 1 * k.val = k.val; rw [e1]; omega

set_option maxHeartbeats 400000 in
/-- The same for the column of factors. -/
theorem iblk2_2_apply (c : Dev nD) (t : Fin cfg2.N) (p : Fin 5000) (n : Fin 50000) (hn : n.val = t.val * 5000 + p.val) :
    (iblk2 V c 2 t : Vec Ideal S5000x1 .f32) (ix2 p (0 : Fin 1)) = (V c main_v12 : S50000x1.Idx → EReal) (ix2 n (0 : Fin 1)) := by
  obtain ⟨-, -, -, -, e0, e1, -⟩ := idx_facts2 t
  unfold iblk2
  rw [View.read_apply]
  show (V c main_v12 : S50000x1.Idx → EReal) _ = (V c main_v12 : S50000x1.Idx → EReal) _
  refine congrArg (V c main_v12 : S50000x1.Idx → EReal) ?_
  funext a
  apply Fin.ext
  match a with
  | ⟨0, _⟩ => show win2_2.index t (0 : Fin 2) * 5000 + 1 * p.val = n.val; rw [e0, hn]; omega
  | ⟨1, _⟩ => show win2_2.index t (1 : Fin 2) * 1 + 1 * (0 : Fin 1).val = (0 : Fin 1).val; rw [e1]; rfl

set_option maxHeartbeats 400000 in
/-- The bias window's block is the whole bias row at every point. -/
theorem iblk2_3_apply (c : Dev nD) (t : Fin cfg2.N) (k : Fin 64) :
    (iblk2 V c 3 t : Vec Ideal S1x64 .f32) (ix2 (0 : Fin 1) k) = (V c main_v36 : S1x64.Idx → EReal) (ix2 (0 : Fin 1) k) := by
  obtain ⟨-, -, -, -, -, -, e0, e1, -⟩ := idx_facts2 t
  unfold iblk2
  rw [View.read_apply]
  show (V c main_v36 : S1x64.Idx → EReal) _ = (V c main_v36 : S1x64.Idx → EReal) _
  refine congrArg (V c main_v36 : S1x64.Idx → EReal) ?_
  funext a
  apply Fin.ext
  match a with
  | ⟨0, _⟩ => show win2_3.index t (0 : Fin 2) * 1 + 1 * (0 : Fin 1).val = (0 : Fin 1).val; rw [e0]; rfl
  | ⟨1, _⟩ => show win2_3.index t (1 : Fin 2) * 64 + 1 * k.val = k.val; rw [e1]; omega

set_option maxHeartbeats 400000 in
/-- The weight window's block is the whole weight at every point. -/
theorem iblk2_4_apply (c : Dev nD) (t : Fin cfg2.N) (k q : Fin 64) :
    (iblk2 V c 4 t : Vec Ideal S64x64 .f32) (ix2 k q) = (V c main_arg6 : S64x64.Idx → EReal) (ix2 k q) := by
  obtain ⟨-, -, -, -, -, -, -, -, e0, e1, -⟩ := idx_facts2 t
  unfold iblk2
  rw [View.read_apply]
  show (V c main_arg6 : S64x64.Idx → EReal) _ = (V c main_arg6 : S64x64.Idx → EReal) _
  refine congrArg (V c main_arg6 : S64x64.Idx → EReal) ?_
  funext a
  apply Fin.ext
  match a with
  | ⟨0, _⟩ => show win2_4.index t (0 : Fin 2) * 64 + 1 * k.val = k.val; rw [e0]; omega
  | ⟨1, _⟩ => show win2_4.index t (1 : Fin 2) * 64 + 1 * q.val = q.val; rw [e1]; omega

/-! ## The two outputs as functions of the arrays at entry -/

/-- The first output: the combined rows, cut below at zero, times the weight. -/
def G2h (c : Dev nD) : S50000x64.Idx → EReal := fun i =>
  Gcn.mm (Gcn.relu GcnNet.zero (Gcn.comb (fun p => V c main_v12 (ix2 p (0 : Fin 1))) (GcnNet.mat (V c main_v35)) (GcnNet.mat (V c main_v25_0))
    (fun k => V c main_v36 (ix2 (0 : Fin 1) k)))) (GcnNet.mat (V c main_arg6)) (i 0) (i 1)

/-- The second output: the first with each row scaled by its factor. -/
def G2hs (c : Dev nD) : S50000x64.Idx → EReal := fun i => G2h V c i * V c main_v12 (ix2 (i 0) (0 : Fin 1))

/-! ## What each point writes back, and the arrays after the last point -/

set_option maxHeartbeats 400000 in
/-- Entry (p, q) of point t's block of the first output sits at row 5000 t + p of its array. -/
theorem emb2_5_apply (t : Fin cfg2.N) (p : Fin 5000) (q : Fin 64) (n : Fin 50000) (hn : n.val = t.val * 5000 + p.val) :
    ((cfg2.win 5).blk t).view.emb (ix2 p q) = (ix2 n q : S50000x64.Idx) := by
  obtain ⟨-, -, -, -, -, -, -, -, -, -, e0, e1, -⟩ := idx_facts2 t
  funext a
  apply Fin.ext
  match a with
  | ⟨0, _⟩ => show win2_5.index t (0 : Fin 2) * 5000 + 1 * p.val = n.val; rw [e0, hn]; omega
  | ⟨1, _⟩ => show win2_5.index t (1 : Fin 2) * 64 + 1 * q.val = q.val; rw [e1]; omega

set_option maxHeartbeats 400000 in
/-- The same for the second output. -/
theorem emb2_6_apply (t : Fin cfg2.N) (p : Fin 5000) (q : Fin 64) (n : Fin 50000) (hn : n.val = t.val * 5000 + p.val) :
    ((cfg2.win 6).blk t).view.emb (ix2 p q) = (ix2 n q : S50000x64.Idx) := by
  obtain ⟨-, -, -, -, -, -, -, -, -, -, -, -, e0, e1⟩ := idx_facts2 t
  funext a
  apply Fin.ext
  match a with
  | ⟨0, _⟩ => show win2_6.index t (0 : Fin 2) * 5000 + 1 * p.val = n.val; rw [e0, hn]; omega
  | ⟨1, _⟩ => show win2_6.index t (1 : Fin 2) * 64 + 1 * q.val = q.val; rw [e1]; omega

set_option maxHeartbeats 1000000 in
/-- The product at (p, q) of the blocks at point t is the first output's function at row 5000 t + p. -/
theorem pay2_h_blocks (c : Dev nD) (t : Fin cfg2.N) (p : Fin 5000) (q : Fin 64) (n : Fin 50000) (hn : n.val = t.val * 5000 + p.val) :
    k2_pay2 (iblk2 V c 2 t) (iblk2 V c 0 t) (iblk2 V c 1 t) (iblk2 V c 3 t) (iblk2 V c 4 t) (ix2 p q) = G2h V c (ix2 n q) := by
  refine (pay2_h_apply (iblk2 V c 2 t) (iblk2 V c 0 t) (iblk2 V c 1 t) (iblk2 V c 3 t) (iblk2 V c 4 t) p q).trans ?_
  unfold G2h Gcn.mm
  refine Finset.sum_congr rfl fun k _ => ?_
  rw [iblk2_0_apply V c t p k n hn, iblk2_1_apply V c t p k n hn, iblk2_2_apply V c t p n hn, iblk2_3_apply V c t k, iblk2_4_apply V c t k q]
  rfl

set_option maxHeartbeats 1000000 in
/-- What point t writes back to the first output is block t of its function. -/
theorem flushed2_h_eq (c : Dev nD) (t : Fin cfg2.N) :
    (dat2 V c).flushed 5 t = ((cfg2.win 5).blk t).view.read (Elt Ideal) (G2h V c) := by
  show (cfg2.win 5).cut (grid2.coords t) ((dat2 V c).after 5 t) = _
  rw [after2_5]
  unfold out2_5
  rw [View.canon_unit_zero zero_off2]
  simp only [View.ld_unit_zero (S := S5000x1) zero_off2, View.ld_unit_zero (S := S5000x64) zero_off2,
    View.ld_unit_zero (S := S1x64) zero_off2, View.ld_unit_zero (S := S64x64) zero_off2]
  funext j
  obtain ⟨p, q, rfl⟩ : ∃ (p : Fin 5000) (q : Fin 64), j = ix2 p q := ⟨j 0, j 1, eq_ix2 j⟩
  have ht : t.val < 10 := lt_of_lt_of_eq t.isLt (show cfg2.N = 10 from N_2)
  have hp : p.val < 5000 := p.isLt
  show k2_pay2 (iblk2 V c 2 t) (iblk2 V c 0 t) (iblk2 V c 1 t) (iblk2 V c 3 t) (iblk2 V c 4 t) (ix2 p q)
    = G2h V c (((cfg2.win 5).blk t).view.emb (ix2 p q))
  rw [emb2_5_apply t p q ⟨t.val * 5000 + p.val, by omega⟩ rfl]
  exact pay2_h_blocks V c t p q ⟨t.val * 5000 + p.val, by omega⟩ rfl

set_option maxHeartbeats 1000000 in
/-- What point t writes back to the second output is block t of its function. -/
theorem flushed2_hs_eq (c : Dev nD) (t : Fin cfg2.N) :
    (dat2 V c).flushed 6 t = ((cfg2.win 6).blk t).view.read (Elt Ideal) (G2hs V c) := by
  show (cfg2.win 6).cut (grid2.coords t) ((dat2 V c).after 6 t) = _
  rw [after2_6]
  unfold out2_6
  rw [View.canon_unit_zero zero_off2]
  simp only [View.ld_unit_zero (S := S5000x1) zero_off2, View.ld_unit_zero (S := S5000x64) zero_off2,
    View.ld_unit_zero (S := S1x64) zero_off2, View.ld_unit_zero (S := S64x64) zero_off2]
  funext j
  obtain ⟨p, q, rfl⟩ : ∃ (p : Fin 5000) (q : Fin 64), j = ix2 p q := ⟨j 0, j 1, eq_ix2 j⟩
  have ht : t.val < 10 := lt_of_lt_of_eq t.isLt (show cfg2.N = 10 from N_2)
  have hp : p.val < 5000 := p.isLt
  show k2_pay3 (iblk2 V c 2 t) (iblk2 V c 0 t) (iblk2 V c 1 t) (iblk2 V c 3 t) (iblk2 V c 4 t) (ix2 p q)
    = G2hs V c (((cfg2.win 6).blk t).view.emb (ix2 p q))
  rw [emb2_6_apply t p q ⟨t.val * 5000 + p.val, by omega⟩ rfl]
  refine (pay2_hs_apply (iblk2 V c 2 t) (iblk2 V c 0 t) (iblk2 V c 1 t) (iblk2 V c 3 t) (iblk2 V c 4 t) p q).trans ?_
  rw [pay2_h_blocks V c t p q ⟨t.val * 5000 + p.val, by omega⟩ rfl, iblk2_2_apply V c t p ⟨t.val * 5000 + p.val, by omega⟩ rfl]
  rfl

/-- An index of an output array is in point t's block iff each coordinate is in the block's range on its axis. -/
theorem mem_blk2_5 (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v37_0).slice (win2_5.rect t)).set ↔ _
  rw [View.set_slice_whole, Rect.mem_set_unit]
  exact Iff.rfl

theorem mem_blk2_6 (t : Fin cfg2.N) (i : S50000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v37_1).slice (win2_6.rect t)).set ↔ _
  rw [View.set_slice_whole, Rect.mem_set_unit]
  exact Iff.rfl

/-- Row r of an output lies in the block of point r / 5000: the ten blocks tile the array. -/
theorem covered2_5 (i : S50000x64.Idx) : ∃ t : Fin cfg2.N, (cfg2.win 5).flush t = true ∧ i ∈ ((cfg2.win 5).blk t).view.set := by
  have hi0 : (i 0).val < 50000 := idx2_lt0 i
  have hi1 : (i 1).val < 64 := idx2_lt1 i
  have ht : (i 0).val / 5000 < cfg2.N := by rw [show cfg2.N = 10 from N_2]; omega
  refine ⟨⟨(i 0).val / 5000, ht⟩, flush2_5 _, ?_⟩
  rw [mem_blk2_5]
  obtain ⟨-, -, -, -, -, -, -, -, -, -, e0, e1, -⟩ := idx_facts2 ⟨(i 0).val / 5000, ht⟩
  intro a
  match a with
  | ⟨0, _⟩ =>
    show win2_5.index ⟨(i 0).val / 5000, ht⟩ (0 : Fin 2) * 5000 ≤ (i 0).val ∧ (i 0).val < win2_5.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win2_5.index ⟨(i 0).val / 5000, ht⟩ (1 : Fin 2) * 64 ≤ (i 1).val ∧ (i 1).val < win2_5.index ⟨(i 0).val / 5000, ht⟩ (1 : Fin 2) * 64 + 64
    rw [e1]
    omega

theorem covered2_6 (i : S50000x64.Idx) : ∃ t : Fin cfg2.N, (cfg2.win 6).flush t = true ∧ i ∈ ((cfg2.win 6).blk t).view.set := by
  have hi0 : (i 0).val < 50000 := idx2_lt0 i
  have hi1 : (i 1).val < 64 := idx2_lt1 i
  have ht : (i 0).val / 5000 < cfg2.N := by rw [show cfg2.N = 10 from N_2]; omega
  refine ⟨⟨(i 0).val / 5000, ht⟩, flush2_6 _, ?_⟩
  rw [mem_blk2_6]
  obtain ⟨-, -, -, -, -, -, -, -, -, -, -, -, e0, e1⟩ := idx_facts2 ⟨(i 0).val / 5000, ht⟩
  intro a
  match a with
  | ⟨0, _⟩ =>
    show win2_6.index ⟨(i 0).val / 5000, ht⟩ (0 : Fin 2) * 5000 ≤ (i 0).val ∧ (i 0).val < win2_6.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win2_6.index ⟨(i 0).val / 5000, ht⟩ (1 : Fin 2) * 64 ≤ (i 1).val ∧ (i 1).val < win2_6.index ⟨(i 0).val / 5000, ht⟩ (1 : Fin 2) * 64 + 64
    rw [e1]
    omega

/-- The first output array after the region. -/
theorem final2_h (c : Dev nD) : (dat2 V c).arrAt 5 cfg2.N = G2h V c :=
  (dat2 V c).arrAt_eq_of_cover 5 (G2h V c) (fun t _ => flushed2_h_eq V c t) covered2_5

/-- The second output array after the region. -/
theorem final2_hs (c : Dev nD) : (dat2 V c).arrAt 6 cfg2.N = G2hs V c :=
  (dat2 V c).arrAt_eq_of_cover 6 (G2hs V c) (fun t _ => flushed2_hs_eq V c t) covered2_6

/-- The first output at node n, channel q: row n of the combined rows cut below at zero, times column q of the weight. -/
theorem reg2_h (c : Dev nD) (n : Fin 50000) (q : Fin 64) :
    (dat2 V c).arrAt 5 cfg2.N (ix2 n q)
      = Gcn.mm (Gcn.relu GcnNet.zero (Gcn.comb (fun p => V c main_v12 (ix2 p (0 : Fin 1))) (GcnNet.mat (V c main_v35)) (GcnNet.mat (V c main_v25_0))
          (fun k => V c main_v36 (ix2 (0 : Fin 1) k)))) (GcnNet.mat (V c main_arg6)) n q :=
  congrFun (final2_h V c) (ix2 n q)

/-- The second output at node n, channel q: the first scaled by node n's factor. -/
theorem reg2_hs (c : Dev nD) (n : Fin 50000) (q : Fin 64) :
    (dat2 V c).arrAt 6 cfg2.N (ix2 n q)
      = Gcn.mm (Gcn.relu GcnNet.zero (Gcn.comb (fun p => V c main_v12 (ix2 p (0 : Fin 1))) (GcnNet.mat (V c main_v35)) (GcnNet.mat (V c main_v25_0))
          (fun k => V c main_v36 (ix2 (0 : Fin 1) k)))) (GcnNet.mat (V c main_arg6)) n q * V c main_v12 (ix2 n (0 : Fin 1)) :=
  congrFun (final2_hs V c) (ix2 n q)

end Cert.KernelIdeal.RegionValue
end
-- ==== Proof.RegionComb3.lean ====
/-
  The fourth kernel region (the third layer's combination fused with the last layer's matrix product), read as two
  functions of the arrays it finds at entry.

  With agg the rows summed over the edges, h the node rows, d the column of node factors, b the bias row and W the
  64 × 128 weight, the region computes, ten blocks of 5000 rows at a time,

    P n k  = agg n k * d n + h n k * (d n * d n) + b k,
    out n q = ∑ k, P n k * W k q        and        outs n q = out n q * d n.

  Each grid point reads rows 5000 t … 5000 t + 4999 of the row arrays (and the whole bias and weight) and writes the
  same rows of the two outputs; the ten blocks tile the 50000 rows, so after the last point each output array is the
  function above at every index.
-/
import proofs.«123087_j26456998543657_2_alg».proof.Proof.Gen.KernelIdeal.Frame
import proofs.«123087_j26456998543657_2_alg».proof.Proof.NetSpec
import proofs.«123087_j26456998543657_2_alg».proof.Proof.LibPlainDot
import proofs.«123087_j26456998543657_2_alg».proof.Proof.LibKeepdims
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-! ## The body's arithmetic at an entry -/

theorem zero_off3 : (![0, 0] : Fin 2 → Nat) = fun _ => 0 := funext fun a => by fin_cases a <;> rfl

set_option maxHeartbeats 400000 in
/-- The matrix product's entry (p, q): the sum over k of the combined row p at k times the weight's entry (k, q).
    Rounding the factors to the narrower format changes nothing on the extended reals. -/
theorem pay3_h_apply (v0 : Vec Ideal S5000x1 .f32) (v3 v7 : Vec Ideal S5000x64 .f32) (v12 : Vec Ideal S1x64 .f32) (v19 : Vec Ideal S64x128 .f32)
    (p : Fin 5000) (q : Fin 128) :
    k3_pay2 v0 v3 v7 v12 v19 (ix2 p q)
      = ∑ k : Fin 64, (v3 (ix2 p k) * v0 (ix2 p (0 : Fin 1)) + v7 (ix2 p k) * (v0 (ix2 p (0 : Fin 1)) * v0 (ix2 p (0 : Fin 1)))
          + v12 (ix2 (0 : Fin 1) k)) * v19 (ix2 k q) := by
  unfold k3_pay2 k3_pay1
  simp only [shapeCast_self]
  refine (Ideal.matmul_constant_zero_apply _ none _ _ (ix2 p q)).trans ?_
  refine (Cert.PlainDot.contraction_eq _ _ p q).trans ?_
  refine Finset.sum_congr rfl fun k _ => ?_
  rw [truncf_apply, truncf_apply, addf_apply, addf_apply, mulf_apply, mulf_apply,
    Keepdims.broadcastTo_a1_ab_apply, Keepdims.broadcastTo_a1_ab_apply, mulf_apply, broadcastTo_1b_ab_apply]

set_option maxHeartbeats 400000 in
/-- The scaled copy's entry (p, q): the product's entry times row p's factor. -/
theorem pay3_hs_apply (v0 : Vec Ideal S5000x1 .f32) (v3 v7 : Vec Ideal S5000x64 .f32) (v12 : Vec Ideal S1x64 .f32) (v19 : Vec Ideal S64x128 .f32)
    (p : Fin 5000) (q : Fin 128) :
    k3_pay3 v0 v3 v7 v12 v19 (ix2 p q) = k3_pay2 v0 v3 v7 v12 v19 (ix2 p q) * v0 (ix2 p (0 : Fin 1)) := by
  unfold k3_pay3 k3_pay1
  simp only [shapeCast_self]
  rw [mulf_apply, Keepdims.broadcastTo_a1_ab_apply]

/-! ## The windows' blocks as rows of their arrays -/

/-- The index maps over the ten grid points: the five row windows sit at block (t, 0), the bias and the weight at (0, 0). -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

set_option maxHeartbeats 400000 in
/-- Row p of point t's block of the summed rows is row 5000 t + p of the array. -/
theorem iblk3_0_apply (c : Dev nD) (t : Fin cfg3.N) (p : Fin 5000) (k : Fin 64) (n : Fin 50000) (hn : n.val = t.val * 5000 + p.val) :
    (iblk3 V c 0 t : Vec Ideal S5000x64 .f32) (ix2 p k) = (V c main_v47 : S50000x64.Idx → EReal) (ix2 n k) := by
  obtain ⟨e0, e1, -⟩ := idx_facts3 t
  unfold iblk3
  rw [View.read_apply]
  show (V c main_v47 : S50000x64.Idx → EReal) _ = (V c main_v47 : S50000x64.Idx → EReal) _
  refine congrArg (V c main_v47 : S50000x64.Idx → EReal) ?_
  funext a
  apply Fin.ext
  match a with
  | ⟨0, _⟩ => show win3_0.index t (0 : Fin 2) * 5000 + 1 * p.val = n.val; rw [e0, hn]; omega
  | ⟨1, _⟩ => show win3_0.index t (1 : Fin 2) * 64 + 1 * k.val = k.val; rw [e1]; omega

set_option maxHeartbeats 400000 in
/-- The same for the node rows. -/
theorem iblk3_1_apply (c : Dev nD) (t : Fin cfg3.N) (p : Fin 5000) (k : Fin 64) (n : Fin 50000) (hn : n.val = t.val * 5000 + p.val) :
    (iblk3 V c 1 t : Vec Ideal S5000x64 .f32) (ix2 p k) = (V c main_v37_0 : S50000x64.Idx → EReal) (ix2 n k) := by
  obtain ⟨-, -, e0, e1, -⟩ := idx_facts3 t
  unfold iblk3
  rw [View.read_apply]
  show (V c main_v37_0 : S50000x64.Idx → EReal) _ = (V c main_v37_0 : S50000x64.Idx → EReal) _
  refine congrArg (V c main_v37_0 : S50000x64.Idx → EReal) ?_
  funext a
  apply Fin.ext
  match a with
  | ⟨0, _⟩ => show win3_1.index t (0 : Fin 2) * 5000 + 1 * p.val = n.val; rw [e0, hn]; omega
  | ⟨1, _⟩ => show win3_1.index t (1 : Fin 2) * 64 + 1 * k.val = k.val; rw [e1]; omega

set_option maxHeartbeats 400000 in
/-- The same for the column of factors. -/
theorem iblk3_2_apply (c : Dev nD) (t : Fin cfg3.N) (p : Fin 5000) (n : Fin 50000) (hn : n.val = t.val * 5000 + p.val) :
    (iblk3 V c 2 t : Vec Ideal S5000x1 .f32) (ix2 p (0 : Fin 1)) = (V c main_v12 : S50000x1.Idx → EReal) (ix2 n (0 : Fin 1)) := by
  obtain ⟨-, -, -, -, e0, e1, -⟩ := idx_facts3 t
  unfold iblk3
  rw [View.read_apply]
  show (V c main_v12 : S50000x1.Idx → EReal) _ = (V c main_v12 : S50000x1.Idx → EReal) _
  refine congrArg (V c main_v12 : S50000x1.Idx → EReal) ?_
  funext a
  apply Fin.ext
  match a with
  | ⟨0, _⟩ => show win3_2.index t (0 : Fin 2) * 5000 + 1 * p.val = n.val; rw [e0, hn]; omega
  | ⟨1, _⟩ => show win3_2.index t (1 : Fin 2) * 1 + 1 * (0 : Fin 1).val = (0 : Fin 1).val; rw [e1]; rfl

set_option maxHeartbeats 400000 in
/-- The bias window's block is the whole bias row at every point. -/
theorem iblk3_3_apply (c : Dev nD) (t : Fin cfg3.N) (k : Fin 64) :
    (iblk3 V c 3 t : Vec Ideal S1x64 .f32) (ix2 (0 : Fin 1) k) = (V c main_v48 : S1x64.Idx → EReal) (ix2 (0 : Fin 1) k) := by
  obtain ⟨-, -, -, -, -, -, e0, e1, -⟩ := idx_facts3 t
  unfold iblk3
  rw [View.read_apply]
  show (V c main_v48 : S1x64.Idx → EReal) _ = (V c main_v48 : S1x64.Idx → EReal) _
  refine congrArg (V c main_v48 : S1x64.Idx → EReal) ?_
  funext a
  apply Fin.ext
  match a with
  | ⟨0, _⟩ => show win3_3.index t (0 : Fin 2) * 1 + 1 * (0 : Fin 1).val = (0 : Fin 1).val; rw [e0]; rfl
  | ⟨1, _⟩ => show win3_3.index t (1 : Fin 2) * 64 + 1 * k.val = k.val; rw [e1]; omega

set_option maxHeartbeats 400000 in
/-- The weight window's block is the whole weight at every point. -/
theorem iblk3_4_apply (c : Dev nD) (t : Fin cfg3.N) (k : Fin 64) (q : Fin 128) :
    (iblk3 V c 4 t : Vec Ideal S64x128 .f32) (ix2 k q) = (V c main_arg8 : S64x128.Idx → EReal) (ix2 k q) := by
  obtain ⟨-, -, -, -, -, -, -, -, e0, e1, -⟩ := idx_facts3 t
  unfold iblk3
  rw [View.read_apply]
  show (V c main_arg8 : S64x128.Idx → EReal) _ = (V c main_arg8 : S64x128.Idx → EReal) _
  refine congrArg (V c main_arg8 : S64x128.Idx → EReal) ?_
  funext a
  apply Fin.ext
  match a with
  | ⟨0, _⟩ => show win3_4.index t (0 : Fin 2) * 64 + 1 * k.val = k.val; rw [e0]; omega
  | ⟨1, _⟩ => show win3_4.index t (1 : Fin 2) * 128 + 1 * q.val = q.val; rw [e1]; omega

/-! ## The two outputs as functions of the arrays at entry -/

/-- The first output: the combined rows times the weight. -/
def G3h (c : Dev nD) : S50000x128.Idx → EReal := fun i =>
  Gcn.mm (Gcn.comb (fun p => V c main_v12 (ix2 p (0 : Fin 1))) (GcnNet.mat (V c main_v47)) (GcnNet.mat (V c main_v37_0))
    (fun k => V c main_v48 (ix2 (0 : Fin 1) k))) (GcnNet.mat (V c main_arg8)) (i 0) (i 1)

/-- The second output: the first with each row scaled by its factor. -/
def G3hs (c : Dev nD) : S50000x128.Idx → EReal := fun i => G3h V c i * V c main_v12 (ix2 (i 0) (0 : Fin 1))

/-! ## What each point writes back, and the arrays after the last point -/

set_option maxHeartbeats 400000 in
/-- Entry (p, q) of point t's block of the first output sits at row 5000 t + p of its array. -/
theorem emb3_5_apply (t : Fin cfg3.N) (p : Fin 5000) (q : Fin 128) (n : Fin 50000) (hn : n.val = t.val * 5000 + p.val) :
    ((cfg3.win 5).blk t).view.emb (ix2 p q) = (ix2 n q : S50000x128.Idx) := by
  obtain ⟨-, -, -, -, -, -, -, -, -, -, e0, e1, -⟩ := idx_facts3 t
  funext a
  apply Fin.ext
  match a with
  | ⟨0, _⟩ => show win3_5.index t (0 : Fin 2) * 5000 + 1 * p.val = n.val; rw [e0, hn]; omega
  | ⟨1, _⟩ => show win3_5.index t (1 : Fin 2) * 128 + 1 * q.val = q.val; rw [e1]; omega

set_option maxHeartbeats 400000 in
/-- The same for the second output. -/
theorem emb3_6_apply (t : Fin cfg3.N) (p : Fin 5000) (q : Fin 128) (n : Fin 50000) (hn : n.val = t.val * 5000 + p.val) :
    ((cfg3.win 6).blk t).view.emb (ix2 p q) = (ix2 n q : S50000x128.Idx) := by
  obtain ⟨-, -, -, -, -, -, -, -, -, -, -, -, e0, e1⟩ := idx_facts3 t
  funext a
  apply Fin.ext
  match a with
  | ⟨0, _⟩ => show win3_6.index t (0 : Fin 2) * 5000 + 1 * p.val = n.val; rw [e0, hn]; omega
  | ⟨1, _⟩ => show win3_6.index t (1 : Fin 2) * 128 + 1 * q.val = q.val; rw [e1]; omega

set_option maxHeartbeats 1000000 in
/-- The product at (p, q) of the blocks at point t is the first output's function at row 5000 t + p. -/
theorem pay3_h_blocks (c : Dev nD) (t : Fin cfg3.N) (p : Fin 5000) (q : Fin 128) (n : Fin 50000) (hn : n.val = t.val * 5000 + p.val) :
    k3_pay2 (iblk3 V c 2 t) (iblk3 V c 0 t) (iblk3 V c 1 t) (iblk3 V c 3 t) (iblk3 V c 4 t) (ix2 p q) = G3h V c (ix2 n q) := by
  refine (pay3_h_apply (iblk3 V c 2 t) (iblk3 V c 0 t) (iblk3 V c 1 t) (iblk3 V c 3 t) (iblk3 V c 4 t) p q).trans ?_
  unfold G3h Gcn.mm
  refine Finset.sum_congr rfl fun k _ => ?_
  rw [iblk3_0_apply V c t p k n hn, iblk3_1_apply V c t p k n hn, iblk3_2_apply V c t p n hn, iblk3_3_apply V c t k, iblk3_4_apply V c t k q]
  rfl

set_option maxHeartbeats 1000000 in
/-- What point t writes back to the first output is block t of its function. -/
theorem flushed3_h_eq (c : Dev nD) (t : Fin cfg3.N) :
    (dat3 V c).flushed 5 t = ((cfg3.win 5).blk t).view.read (Elt Ideal) (G3h V c) := by
  show (cfg3.win 5).cut (grid3.coords t) ((dat3 V c).after 5 t) = _
  rw [after3_5]
  unfold out3_5
  rw [View.canon_unit_zero zero_off3]
  simp only [View.ld_unit_zero (S := S5000x1) zero_off3, View.ld_unit_zero (S := S5000x64) zero_off3,
    View.ld_unit_zero (S := S1x64) zero_off3, View.ld_unit_zero (S := S64x128) zero_off3]
  funext j
  obtain ⟨p, q, rfl⟩ : ∃ (p : Fin 5000) (q : Fin 128), j = ix2 p q := ⟨j 0, j 1, eq_ix2 j⟩
  have ht : t.val < 10 := lt_of_lt_of_eq t.isLt (show cfg3.N = 10 from N_3)
  have hp : p.val < 5000 := p.isLt
  show k3_pay2 (iblk3 V c 2 t) (iblk3 V c 0 t) (iblk3 V c 1 t) (iblk3 V c 3 t) (iblk3 V c 4 t) (ix2 p q)
    = G3h V c (((cfg3.win 5).blk t).view.emb (ix2 p q))
  rw [emb3_5_apply t p q ⟨t.val * 5000 + p.val, by omega⟩ rfl]
  exact pay3_h_blocks V c t p q ⟨t.val * 5000 + p.val, by omega⟩ rfl

set_option maxHeartbeats 1000000 in
/-- What point t writes back to the second output is block t of its function. -/
theorem flushed3_hs_eq (c : Dev nD) (t : Fin cfg3.N) :
    (dat3 V c).flushed 6 t = ((cfg3.win 6).blk t).view.read (Elt Ideal) (G3hs V c) := by
  show (cfg3.win 6).cut (grid3.coords t) ((dat3 V c).after 6 t) = _
  rw [after3_6]
  unfold out3_6
  rw [View.canon_unit_zero zero_off3]
  simp only [View.ld_unit_zero (S := S5000x1) zero_off3, View.ld_unit_zero (S := S5000x64) zero_off3,
    View.ld_unit_zero (S := S1x64) zero_off3, View.ld_unit_zero (S := S64x128) zero_off3]
  funext j
  obtain ⟨p, q, rfl⟩ : ∃ (p : Fin 5000) (q : Fin 128), j = ix2 p q := ⟨j 0, j 1, eq_ix2 j⟩
  have ht : t.val < 10 := lt_of_lt_of_eq t.isLt (show cfg3.N = 10 from N_3)
  have hp : p.val < 5000 := p.isLt
  show k3_pay3 (iblk3 V c 2 t) (iblk3 V c 0 t) (iblk3 V c 1 t) (iblk3 V c 3 t) (iblk3 V c 4 t) (ix2 p q)
    = G3hs V c (((cfg3.win 6).blk t).view.emb (ix2 p q))
  rw [emb3_6_apply t p q ⟨t.val * 5000 + p.val, by omega⟩ rfl]
  refine (pay3_hs_apply (iblk3 V c 2 t) (iblk3 V c 0 t) (iblk3 V c 1 t) (iblk3 V c 3 t) (iblk3 V c 4 t) p q).trans ?_
  rw [pay3_h_blocks V c t p q ⟨t.val * 5000 + p.val, by omega⟩ rfl, iblk3_2_apply V c t p ⟨t.val * 5000 + p.val, by omega⟩ rfl]
  rfl

/-- An index of an output array is in point t's block iff each coordinate is in the block's range on its axis. -/
theorem mem_blk3_5 (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v49_0).slice (win3_5.rect t)).set ↔ _
  rw [View.set_slice_whole, Rect.mem_set_unit]
  exact Iff.rfl

theorem mem_blk3_6 (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v49_1).slice (win3_6.rect t)).set ↔ _
  rw [View.set_slice_whole, Rect.mem_set_unit]
  exact Iff.rfl

/-- Row r of an output lies in the block of point r / 5000: the ten blocks tile the array. -/
theorem covered3_5 (i : S50000x128.Idx) : ∃ t : Fin cfg3.N, (cfg3.win 5).flush t = true ∧ i ∈ ((cfg3.win 5).blk t).view.set := by
  have hi0 : (i 0).val < 50000 := idx2_lt0 i
  have hi1 : (i 1).val < 128 := idx2_lt1 i
  have ht : (i 0).val / 5000 < cfg3.N := by rw [show cfg3.N = 10 from N_3]; omega
  refine ⟨⟨(i 0).val / 5000, ht⟩, flush3_5 _, ?_⟩
  rw [mem_blk3_5]
  obtain ⟨-, -, -, -, -, -, -, -, -, -, e0, e1, -⟩ := idx_facts3 ⟨(i 0).val / 5000, ht⟩
  intro a
  match a with
  | ⟨0, _⟩ =>
    show win3_5.index ⟨(i 0).val / 5000, ht⟩ (0 : Fin 2) * 5000 ≤ (i 0).val ∧ (i 0).val < win3_5.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win3_5.index ⟨(i 0).val / 5000, ht⟩ (1 : Fin 2) * 128 ≤ (i 1).val ∧ (i 1).val < win3_5.index ⟨(i 0).val / 5000, ht⟩ (1 : Fin 2) * 128 + 128
    rw [e1]
    omega

theorem covered3_6 (i : S50000x128.Idx) : ∃ t : Fin cfg3.N, (cfg3.win 6).flush t = true ∧ i ∈ ((cfg3.win 6).blk t).view.set := by
  have hi0 : (i 0).val < 50000 := idx2_lt0 i
  have hi1 : (i 1).val < 128 := idx2_lt1 i
  have ht : (i 0).val / 5000 < cfg3.N := by rw [show cfg3.N = 10 from N_3]; omega
  refine ⟨⟨(i 0).val / 5000, ht⟩, flush3_6 _, ?_⟩
  rw [mem_blk3_6]
  obtain ⟨-, -, -, -, -, -, -, -, -, -, -, -, e0, e1⟩ := idx_facts3 ⟨(i 0).val / 5000, ht⟩
  intro a
  match a with
  | ⟨0, _⟩ =>
    show win3_6.index ⟨(i 0).val / 5000, ht⟩ (0 : Fin 2) * 5000 ≤ (i 0).val ∧ (i 0).val < win3_6.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win3_6.index ⟨(i 0).val / 5000, ht⟩ (1 : Fin 2) * 128 ≤ (i 1).val ∧ (i 1).val < win3_6.index ⟨(i 0).val / 5000, ht⟩ (1 : Fin 2) * 128 + 128
    rw [e1]
    omega

/-- The first output array after the region. -/
theorem final3_h (c : Dev nD) : (dat3 V c).arrAt 5 cfg3.N = G3h V c :=
  (dat3 V c).arrAt_eq_of_cover 5 (G3h V c) (fun t _ => flushed3_h_eq V c t) covered3_5

/-- The second output array after the region. -/
theorem final3_hs (c : Dev nD) : (dat3 V c).arrAt 6 cfg3.N = G3hs V c :=
  (dat3 V c).arrAt_eq_of_cover 6 (G3hs V c) (fun t _ => flushed3_hs_eq V c t) covered3_6

/-- The first output at node n, channel q: row n of the combined rows times column q of the weight. -/
theorem reg3_h (c : Dev nD) (n : Fin 50000) (q : Fin 128) :
    (dat3 V c).arrAt 5 cfg3.N (ix2 n q)
      = Gcn.mm (Gcn.comb (fun p => V c main_v12 (ix2 p (0 : Fin 1))) (GcnNet.mat (V c main_v47)) (GcnNet.mat (V c main_v37_0))
          (fun k => V c main_v48 (ix2 (0 : Fin 1) k))) (GcnNet.mat (V c main_arg8)) n q :=
  congrFun (final3_h V c) (ix2 n q)

/-- The second output at node n, channel q: the first scaled by node n's factor. -/
theorem reg3_hs (c : Dev nD) (n : Fin 50000) (q : Fin 128) :
    (dat3 V c).arrAt 6 cfg3.N (ix2 n q)
      = Gcn.mm (Gcn.comb (fun p => V c main_v12 (ix2 p (0 : Fin 1))) (GcnNet.mat (V c main_v47)) (GcnNet.mat (V c main_v37_0))
          (fun k => V c main_v48 (ix2 (0 : Fin 1) k))) (GcnNet.mat (V c main_arg8)) n q * V c main_v12 (ix2 n (0 : Fin 1)) :=
  congrFun (final3_hs V c) (ix2 n q)

end Cert.KernelIdeal.RegionValue
end
-- ==== Proof.RegionOut.lean ====
/-
  The last kernel region (the last layer's combination), read as one function of the arrays it finds at entry.

  With agg the rows summed over the edges, h the node rows, d the column of node factors and b the bias row, the
  region computes, ten blocks of 5000 rows at a time,

    out n q = agg n q * d n + h n q * (d n * d n) + b q.

  Each grid point reads rows 5000 t … 5000 t + 4999 of the row arrays (and the whole bias) and writes the same rows of
  the output; the ten blocks tile the 50000 rows, so after the last point the output array is the function above at
  every index.
-/
import proofs.«123087_j26456998543657_2_alg».proof.Proof.Gen.KernelIdeal.Frame
import proofs.«123087_j26456998543657_2_alg».proof.Proof.NetSpec
import proofs.«123087_j26456998543657_2_alg».proof.Proof.LibPlainDot
import proofs.«123087_j26456998543657_2_alg».proof.Proof.LibKeepdims
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-! ## The body's arithmetic at an entry -/

theorem zero_off4 : (![0, 0] : Fin 2 → Nat) = fun _ => 0 := funext fun a => by fin_cases a <;> rfl

set_option maxHeartbeats 400000 in
/-- The combination's entry (p, q): the summed row scaled by the row's factor, plus the node row scaled by the factor's
    square, plus the bias. -/
theorem pay4_apply (v0 : Vec Ideal S5000x1 .f32) (v3 v7 : Vec Ideal S5000x128 .f32) (v12 : Vec Ideal S1x128 .f32)
    (p : Fin 5000) (q : Fin 128) :
    k4_pay1 v0 v3 v7 v12 (ix2 p q)
      = v3 (ix2 p q) * v0 (ix2 p (0 : Fin 1)) + v7 (ix2 p q) * (v0 (ix2 p (0 : Fin 1)) * v0 (ix2 p (0 : Fin 1))) + v12 (ix2 (0 : Fin 1) q) := by
  unfold k4_pay1
  simp only [shapeCast_self]
  rw [addf_apply, addf_apply, mulf_apply, mulf_apply, Keepdims.broadcastTo_a1_ab_apply, Keepdims.broadcastTo_a1_ab_apply,
    mulf_apply, broadcastTo_1b_ab_apply]

/-! ## The windows' blocks as rows of their arrays -/

/-- The index maps over the ten grid points: the four row windows sit at block (t, 0), the bias at (0, 0). -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

set_option maxHeartbeats 400000 in
/-- Row p of point t's block of the summed rows is row 5000 t + p of the array. -/
theorem iblk4_0_apply (c : Dev nD) (t : Fin cfg4.N) (p : Fin 5000) (k : Fin 128) (n : Fin 50000) (hn : n.val = t.val * 5000 + p.val) :
    (iblk4 V c 0 t : Vec Ideal S5000x128 .f32) (ix2 p k) = (V c main_v59 : S50000x128.Idx → EReal) (ix2 n k) := by
  obtain ⟨e0, e1, -⟩ := idx_facts4 t
  unfold iblk4
  rw [View.read_apply]
  show (V c main_v59 : S50000x128.Idx → EReal) _ = (V c main_v59 : S50000x128.Idx → EReal) _
  refine congrArg (V c main_v59 : S50000x128.Idx → EReal) ?_
  funext a
  apply Fin.ext
  match a with
  | ⟨0, _⟩ => show win4_0.index t (0 : Fin 2) * 5000 + 1 * p.val = n.val; rw [e0, hn]; omega
  | ⟨1, _⟩ => show win4_0.index t (1 : Fin 2) * 128 + 1 * k.val = k.val; rw [e1]; omega

set_option maxHeartbeats 400000 in
/-- The same for the node rows. -/
theorem iblk4_1_apply (c : Dev nD) (t : Fin cfg4.N) (p : Fin 5000) (k : Fin 128) (n : Fin 50000) (hn : n.val = t.val * 5000 + p.val) :
    (iblk4 V c 1 t : Vec Ideal S5000x128 .f32) (ix2 p k) = (V c main_v49_0 : S50000x128.Idx → EReal) (ix2 n k) := by
  obtain ⟨-, -, e0, e1, -⟩ := idx_facts4 t
  unfold iblk4
  rw [View.read_apply]
  show (V c main_v49_0 : S50000x128.Idx → EReal) _ = (V c main_v49_0 : S50000x128.Idx → EReal) _
  refine congrArg (V c main_v49_0 : S50000x128.Idx → EReal) ?_
  funext a
  apply Fin.ext
  match a with
  | ⟨0, _⟩ => show win4_1.index t (0 : Fin 2) * 5000 + 1 * p.val = n.val; rw [e0, hn]; omega
  | ⟨1, _⟩ => show win4_1.index t (1 : Fin 2) * 128 + 1 * k.val = k.val; rw [e1]; omega

set_option maxHeartbeats 400000 in
/-- The same for the column of factors. -/
theorem iblk4_2_apply (c : Dev nD) (t : Fin cfg4.N) (p : Fin 5000) (n : Fin 50000) (hn : n.val = t.val * 5000 + p.val) :
    (iblk4 V c 2 t : Vec Ideal S5000x1 .f32) (ix2 p (0 : Fin 1)) = (V c main_v12 : S50000x1.Idx → EReal) (ix2 n (0 : Fin 1)) := by
  obtain ⟨-, -, -, -, e0, e1, -⟩ := idx_facts4 t
  unfold iblk4
  rw [View.read_apply]
  show (V c main_v12 : S50000x1.Idx → EReal) _ = (V c main_v12 : S50000x1.Idx → EReal) _
  refine congrArg (V c main_v12 : S50000x1.Idx → EReal) ?_
  funext a
  apply Fin.ext
  match a with
  | ⟨0, _⟩ => show win4_2.index t (0 : Fin 2) * 5000 + 1 * p.val = n.val; rw [e0, hn]; omega
  | ⟨1, _⟩ => show win4_2.index t (1 : Fin 2) * 1 + 1 * (0 : Fin 1).val = (0 : Fin 1).val; rw [e1]; rfl

set_option maxHeartbeats 400000 in
/-- The bias window's block is the whole bias row at every point. -/
theorem iblk4_3_apply (c : Dev nD) (t : Fin cfg4.N) (k : Fin 128) :
    (iblk4 V c 3 t : Vec Ideal S1x128 .f32) (ix2 (0 : Fin 1) k) = (V c main_v60 : S1x128.Idx → EReal) (ix2 (0 : Fin 1) k) := by
  obtain ⟨-, -, -, -, -, -, e0, e1, -⟩ := idx_facts4 t
  unfold iblk4
  rw [View.read_apply]
  show (V c main_v60 : S1x128.Idx → EReal) _ = (V c main_v60 : S1x128.Idx → EReal) _
  refine congrArg (V c main_v60 : S1x128.Idx → EReal) ?_
  funext a
  apply Fin.ext
  match a with
  | ⟨0, _⟩ => show win4_3.index t (0 : Fin 2) * 1 + 1 * (0 : Fin 1).val = (0 : Fin 1).val; rw [e0]; rfl
  | ⟨1, _⟩ => show win4_3.index t (1 : Fin 2) * 128 + 1 * k.val = k.val; rw [e1]; omega

/-! ## The output as a function of the arrays at entry -/

/-- The output: the combination of the summed rows, the node rows, the factors and the bias. -/
def G4 (c : Dev nD) : S50000x128.Idx → EReal := fun i =>
  Gcn.comb (fun p => V c main_v12 (ix2 p (0 : Fin 1))) (GcnNet.mat (V c main_v59)) (GcnNet.mat (V c main_v49_0))
    (fun k => V c main_v60 (ix2 (0 : Fin 1) k)) (i 0) (i 1)

/-! ## What each point writes back, and the array after the last point -/

set_option maxHeartbeats 400000 in
/-- Entry (p, q) of point t's block of the output sits at row 5000 t + p of its array. -/
theorem emb4_4_apply (t : Fin cfg4.N) (p : Fin 5000) (q : Fin 128) (n : Fin 50000) (hn : n.val = t.val * 5000 + p.val) :
    ((cfg4.win 4).blk t).view.emb (ix2 p q) = (ix2 n q : S50000x128.Idx) := by
  obtain ⟨-, -, -, -, -, -, -, -, e0, e1⟩ := idx_facts4 t
  funext a
  apply Fin.ext
  match a with
  | ⟨0, _⟩ => show win4_4.index t (0 : Fin 2) * 5000 + 1 * p.val = n.val; rw [e0, hn]; omega
  | ⟨1, _⟩ => show win4_4.index t (1 : Fin 2) * 128 + 1 * q.val = q.val; rw [e1]; omega

set_option maxHeartbeats 1000000 in
/-- The combination at (p, q) of the blocks at point t is the output's function at row 5000 t + p. -/
theorem pay4_blocks (c : Dev nD) (t : Fin cfg4.N) (p : Fin 5000) (q : Fin 128) (n : Fin 50000) (hn : n.val = t.val * 5000 + p.val) :
    k4_pay1 (iblk4 V c 2 t) (iblk4 V c 0 t) (iblk4 V c 1 t) (iblk4 V c 3 t) (ix2 p q) = G4 V c (ix2 n q) := by
  refine (pay4_apply (iblk4 V c 2 t) (iblk4 V c 0 t) (iblk4 V c 1 t) (iblk4 V c 3 t) p q).trans ?_
  rw [iblk4_0_apply V c t p q n hn, iblk4_1_apply V c t p q n hn, iblk4_2_apply V c t p n hn, iblk4_3_apply V c t q]
  rfl

set_option maxHeartbeats 1000000 in
/-- What point t writes back to the output is block t of its function. -/
theorem flushed4_eq (c : Dev nD) (t : Fin cfg4.N) :
    (dat4 V c).flushed 4 t = ((cfg4.win 4).blk t).view.read (Elt Ideal) (G4 V c) := by
  show (cfg4.win 4).cut (grid4.coords t) ((dat4 V c).after 4 t) = _
  rw [after4_4]
  unfold out4_4
  rw [View.canon_unit_zero zero_off4]
  simp only [View.ld_unit_zero (S := S5000x1) zero_off4, View.ld_unit_zero (S := S5000x128) zero_off4,
    View.ld_unit_zero (S := S1x128) zero_off4]
  funext j
  obtain ⟨p, q, rfl⟩ : ∃ (p : Fin 5000) (q : Fin 128), j = ix2 p q := ⟨j 0, j 1, eq_ix2 j⟩
  have ht : t.val < 10 := lt_of_lt_of_eq t.isLt (show cfg4.N = 10 from N_4)
  have hp : p.val < 5000 := p.isLt
  show k4_pay1 (iblk4 V c 2 t) (iblk4 V c 0 t) (iblk4 V c 1 t) (iblk4 V c 3 t) (ix2 p q)
    = G4 V c (((cfg4.win 4).blk t).view.emb (ix2 p q))
  rw [emb4_4_apply t p q ⟨t.val * 5000 + p.val, by omega⟩ rfl]
  exact pay4_blocks V c t p q ⟨t.val * 5000 + p.val, by omega⟩ rfl

/-- An index of the output array is in point t's block iff each coordinate is in the block's range on its axis. -/
theorem mem_blk4_4 (t : Fin cfg4.N) (i : S50000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v61).slice (win4_4.rect t)).set ↔ _
  rw [View.set_slice_whole, Rect.mem_set_unit]
  exact Iff.rfl

/-- Row r of the output lies in the block of point r / 5000: the ten blocks tile the array. -/
theorem covered4_4 (i : S50000x128.Idx) : ∃ t : Fin cfg4.N, (cfg4.win 4).flush t = true ∧ i ∈ ((cfg4.win 4).blk t).view.set := by
  have hi0 : (i 0).val < 50000 := idx2_lt0 i
  have hi1 : (i 1).val < 128 := idx2_lt1 i
  have ht : (i 0).val / 5000 < cfg4.N := by rw [show cfg4.N = 10 from N_4]; omega
  refine ⟨⟨(i 0).val / 5000, ht⟩, flush4_4 _, ?_⟩
  rw [mem_blk4_4]
  obtain ⟨-, -, -, -, -, -, -, -, e0, e1⟩ := idx_facts4 ⟨(i 0).val / 5000, ht⟩
  intro a
  match a with
  | ⟨0, _⟩ =>
    show win4_4.index ⟨(i 0).val / 5000, ht⟩ (0 : Fin 2) * 5000 ≤ (i 0).val ∧ (i 0).val < win4_4.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win4_4.index ⟨(i 0).val / 5000, ht⟩ (1 : Fin 2) * 128 ≤ (i 1).val ∧ (i 1).val < win4_4.index ⟨(i 0).val / 5000, ht⟩ (1 : Fin 2) * 128 + 128
    rw [e1]
    omega

/-- The output array after the region. -/
theorem final4 (c : Dev nD) : (dat4 V c).arrAt 4 cfg4.N = G4 V c :=
  (dat4 V c).arrAt_eq_of_cover 4 (G4 V c) (fun t _ => flushed4_eq V c t) covered4_4

/-- The output at node n, channel q. -/
theorem reg4_out (c : Dev nD) (n : Fin 50000) (q : Fin 128) :
    (dat4 V c).arrAt 4 cfg4.N (ix2 n q)
      = Gcn.comb (fun p => V c main_v12 (ix2 p (0 : Fin 1))) (GcnNet.mat (V c main_v59)) (GcnNet.mat (V c main_v49_0))
          (fun k => V c main_v60 (ix2 (0 : Fin 1) k)) n q :=
  congrFun (final4 V c) (ix2 n q)

end Cert.KernelIdeal.RegionValue
end
-- ==== Proof.KerValue.lean ====
/-
  The idealized kernel's result array, entry by entry, as the four-layer network.

  Region 0 leaves the first matrix product and its rows scaled by the degree factors. Each later region finds the
  aggregated array the stretch before it computed, the previous product, the column of degree factors, the bias row
  and the next weight, and leaves the next product (of the layer's output, after the maximum with zero where the
  network has one) and its scaled rows; the last region leaves the last layer's output. Chained, the result buffer at
  (n, q) is the network `kerNet` of the argument arrays at (n, q).
-/
import proofs.«123087_j26456998543657_2_alg».proof.Proof.Gen.KernelIdeal.Frame
import proofs.«123087_j26456998543657_2_alg».proof.Proof.KerKeep
import proofs.«123087_j26456998543657_2_alg».proof.Proof.KerHost
import proofs.«123087_j26456998543657_2_alg».proof.Proof.GcnSteps
import proofs.«123087_j26456998543657_2_alg».proof.Proof.RegionLin
import proofs.«123087_j26456998543657_2_alg».proof.Proof.RegionComb1
import proofs.«123087_j26456998543657_2_alg».proof.Proof.RegionComb2
import proofs.«123087_j26456998543657_2_alg».proof.Proof.RegionComb3
import proofs.«123087_j26456998543657_2_alg».proof.Proof.RegionOut

set_option maxRecDepth 16384

noncomputable section

namespace Cert.KernelIdeal.NetValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo Idealize.ShloMosaic.ValueIdx
open Cert.KernelIdeal.HostValue (ei)

variable (m : (ℓ : Loc nD τ sig) → Buf (Elt Ideal) ℓ) (ρ : Dev nD → PrngReg)

/-! ## The network's stages on core `c` -/

def Xin (c : Dev nD) : Fin 50000 → Fin 128 → EReal := GcnNet.mat (m ((c : Thread nD τ).loc main_arg0))
def Wt1 (c : Dev nD) : Fin 128 → Fin 64 → EReal := GcnNet.mat (m ((c : Thread nD τ).loc main_arg2))
def Bs1 (c : Dev nD) : Fin 64 → EReal := GcnNet.vec (m ((c : Thread nD τ).loc main_arg3))
def Wt2 (c : Dev nD) : Fin 64 → Fin 64 → EReal := GcnNet.mat (m ((c : Thread nD τ).loc main_arg4))
def Bs2 (c : Dev nD) : Fin 64 → EReal := GcnNet.vec (m ((c : Thread nD τ).loc main_arg5))
def Wt3 (c : Dev nD) : Fin 64 → Fin 64 → EReal := GcnNet.mat (m ((c : Thread nD τ).loc main_arg6))
def Bs3 (c : Dev nD) : Fin 64 → EReal := GcnNet.vec (m ((c : Thread nD τ).loc main_arg7))
def Wt4 (c : Dev nD) : Fin 64 → Fin 128 → EReal := GcnNet.mat (m ((c : Thread nD τ).loc main_arg8))
def Bs4 (c : Dev nD) : Fin 128 → EReal := GcnNet.vec (m ((c : Thread nD τ).loc main_arg9))

def H1 (c : Dev nD) : Fin 50000 → Fin 64 → EReal := Gcn.mm (Xin m c) (Wt1 m c)
def P1 (c : Dev nD) : Fin 50000 → Fin 64 → EReal := Gcn.relu GcnNet.zero (Gcn.layerK (GcnNet.lands (ei m c)) (GcnNet.gs (ei m c)) (GcnNet.dis (ei m c)) (H1 m c) (Bs1 m c))
def H2 (c : Dev nD) : Fin 50000 → Fin 64 → EReal := Gcn.mm (P1 m c) (Wt2 m c)
def P2 (c : Dev nD) : Fin 50000 → Fin 64 → EReal := Gcn.relu GcnNet.zero (Gcn.layerK (GcnNet.lands (ei m c)) (GcnNet.gs (ei m c)) (GcnNet.dis (ei m c)) (H2 m c) (Bs2 m c))
def H3 (c : Dev nD) : Fin 50000 → Fin 64 → EReal := Gcn.mm (P2 m c) (Wt3 m c)
def P3 (c : Dev nD) : Fin 50000 → Fin 64 → EReal := Gcn.layerK (GcnNet.lands (ei m c)) (GcnNet.gs (ei m c)) (GcnNet.dis (ei m c)) (H3 m c) (Bs3 m c)
def H4 (c : Dev nD) : Fin 50000 → Fin 128 → EReal := Gcn.mm (P3 m c) (Wt4 m c)
def OUT (c : Dev nD) : Fin 50000 → Fin 128 → EReal := Gcn.layerK (GcnNet.lands (ei m c)) (GcnNet.gs (ei m c)) (GcnNet.dis (ei m c)) (H4 m c) (Bs4 m c)

/-- The stages, put together, are the network. -/
theorem out_eq (c : Dev nD) : OUT m c = GcnNet.kerNet (ei m c) (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := rfl

/-- The column of degree factors at a boundary where it still holds its first contents. -/
theorem dcol (c : Dev nD) (W : Dev nD → Valuation τ sig (Elt Ideal))
    (hW : W c (Proc.devRef .tc main_v12) = W1 m ρ c (Proc.devRef .tc main_v12)) (p : Fin 50000) :
    (W c (Proc.devRef .tc main_v12) : S50000x1.Idx → EReal) (ix2 p (0 : Fin 1)) = GcnNet.dis (ei m c) p :=
  (congrFun hW (ix2 p (0 : Fin 1))).trans (HostValue.dis1 m ρ c p 0)

/-- A weight or input array at a boundary where it still holds its launch contents. -/
theorem argAt (c : Dev nD) (W : Dev nD → Valuation τ sig (Elt Ideal)) (b : Ref sig .tc)
    (hW : W c (Proc.devRef .tc b) = W1 m ρ c (Proc.devRef .tc b))
    (hb : b ∈ [main_arg0, main_arg1, main_arg2, main_arg3, main_arg4, main_arg5, main_arg6, main_arg7, main_arg8, main_arg9]) :
    W c (Proc.devRef .tc b) = m ((c : Thread nD τ).loc b) :=
  hW.trans (Keep.arg_at1 m ρ c b hb)

/-! ## Region 0 -/

theorem h1_at2 (c : Dev nD) (n : Fin 50000) (q : Fin 64) :
    (W2 m ρ c (Proc.devRef .tc main_v13_0) : S50000x64.Idx → EReal) (ix2 n q) = H1 m c n q :=
  (congrFun (W2_arr m ρ c 3) (ix2 n q)).trans ((RegionValue.reg0_h (V1 m ρ) c n q).trans
    (Gcn.mm_congr (congrArg GcnNet.mat (Keep.arg_at1 m ρ c main_arg0 (by decide)))
      (congrArg GcnNet.mat (Keep.arg_at1 m ρ c main_arg2 (by decide))) n q))

theorem h1s_at2 (c : Dev nD) (n : Fin 50000) (q : Fin 64) :
    (W2 m ρ c (Proc.devRef .tc main_v13_1) : S50000x64.Idx → EReal) (ix2 n q) = H1 m c n q * GcnNet.dis (ei m c) n :=
  (congrFun (W2_arr m ρ c 4) (ix2 n q)).trans ((RegionValue.reg0_hs (V1 m ρ) c n q).trans
    (congrArg₂ (· * ·)
      (Gcn.mm_congr (congrArg GcnNet.mat (Keep.arg_at1 m ρ c main_arg0 (by decide)))
        (congrArg GcnNet.mat (Keep.arg_at1 m ρ c main_arg2 (by decide))) n q)
      (HostValue.dis1 m ρ c n 0)))

/-! ## Region 1 -/

theorem h2_at4 (c : Dev nD) (n : Fin 50000) (q : Fin 64) :
    (W4 m ρ c (Proc.devRef .tc main_v25_0) : S50000x64.Idx → EReal) (ix2 n q) = H2 m c n q :=
  (congrFun (W4_arr m ρ c 5) (ix2 n q)).trans ((RegionValue.reg1_h (V3 m ρ) c n q).trans
    (Gcn.mm_congr (congrArg (Gcn.relu GcnNet.zero) (Gcn.comb_layer (GcnNet.lands (ei m c)) (GcnNet.gs (ei m c))
        (fun p => dcol m ρ c (W3 m ρ) (Keep.at3 m ρ c main_v12 (by decide)) p)
        (fun p k => (HostValue.agg1 m ρ c p k).trans
          (congrArg (fun HS => Gcn.aggK (GcnNet.lands (ei m c)) (GcnNet.gs (ei m c)) HS p k) (funext fun a => funext fun b => h1s_at2 m ρ c a b)))
        (fun p k => (congrFun (show W3 m ρ c (Proc.devRef .tc main_v13_0) = W2 m ρ c (Proc.devRef .tc main_v13_0) by host_keep) (ix2 p k)).trans
          (h1_at2 m ρ c p k))
        (fun k => HostValue.bias1 m ρ c (0 : Fin 1) k)))
      (congrArg GcnNet.mat (argAt m ρ c (W3 m ρ) main_arg4 (Keep.at3 m ρ c main_arg4 (by decide)) (by decide))) n q))

theorem h2s_at4 (c : Dev nD) (n : Fin 50000) (q : Fin 64) :
    (W4 m ρ c (Proc.devRef .tc main_v25_1) : S50000x64.Idx → EReal) (ix2 n q) = H2 m c n q * GcnNet.dis (ei m c) n :=
  (congrFun (W4_arr m ρ c 6) (ix2 n q)).trans ((RegionValue.reg1_hs (V3 m ρ) c n q).trans
    (congrArg₂ (· * ·)
      (Gcn.mm_congr (congrArg (Gcn.relu GcnNet.zero) (Gcn.comb_layer (GcnNet.lands (ei m c)) (GcnNet.gs (ei m c))
        (fun p => dcol m ρ c (W3 m ρ) (Keep.at3 m ρ c main_v12 (by decide)) p)
        (fun p k => (HostValue.agg1 m ρ c p k).trans
          (congrArg (fun HS => Gcn.aggK (GcnNet.lands (ei m c)) (GcnNet.gs (ei m c)) HS p k) (funext fun a => funext fun b => h1s_at2 m ρ c a b)))
        (fun p k => (congrFun (show W3 m ρ c (Proc.devRef .tc main_v13_0) = W2 m ρ c (Proc.devRef .tc main_v13_0) by host_keep) (ix2 p k)).trans
          (h1_at2 m ρ c p k))
        (fun k => HostValue.bias1 m ρ c (0 : Fin 1) k)))
        (congrArg GcnNet.mat (argAt m ρ c (W3 m ρ) main_arg4 (Keep.at3 m ρ c main_arg4 (by decide)) (by decide))) n q)
      (dcol m ρ c (W3 m ρ) (Keep.at3 m ρ c main_v12 (by decide)) n)))

/-! ## Region 2 -/

theorem h3_at6 (c : Dev nD) (n : Fin 50000) (q : Fin 64) :
    (W6 m ρ c (Proc.devRef .tc main_v37_0) : S50000x64.Idx → EReal) (ix2 n q) = H3 m c n q :=
  (congrFun (W6_arr m ρ c 5) (ix2 n q)).trans ((RegionValue.reg2_h (V5 m ρ) c n q).trans
    (Gcn.mm_congr (congrArg (Gcn.relu GcnNet.zero) (Gcn.comb_layer (GcnNet.lands (ei m c)) (GcnNet.gs (ei m c))
        (fun p => dcol m ρ c (W5 m ρ) (Keep.at5 m ρ c main_v12 (by decide)) p)
        (fun p k => (HostValue.agg2 m ρ c p k).trans
          (congrArg (fun HS => Gcn.aggK (GcnNet.lands (ei m c)) (GcnNet.gs (ei m c)) HS p k) (funext fun a => funext fun b => h2s_at4 m ρ c a b)))
        (fun p k => (congrFun (show W5 m ρ c (Proc.devRef .tc main_v25_0) = W4 m ρ c (Proc.devRef .tc main_v25_0) by host_keep) (ix2 p k)).trans
          (h2_at4 m ρ c p k))
        (fun k => HostValue.bias2 m ρ c (0 : Fin 1) k)))
      (congrArg GcnNet.mat (argAt m ρ c (W5 m ρ) main_arg6 (Keep.at5 m ρ c main_arg6 (by decide)) (by decide))) n q))

theorem h3s_at6 (c : Dev nD) (n : Fin 50000) (q : Fin 64) :
    (W6 m ρ c (Proc.devRef .tc main_v37_1) : S50000x64.Idx → EReal) (ix2 n q) = H3 m c n q * GcnNet.dis (ei m c) n :=
  (congrFun (W6_arr m ρ c 6) (ix2 n q)).trans ((RegionValue.reg2_hs (V5 m ρ) c n q).trans
    (congrArg₂ (· * ·)
      (Gcn.mm_congr (congrArg (Gcn.relu GcnNet.zero) (Gcn.comb_layer (GcnNet.lands (ei m c)) (GcnNet.gs (ei m c))
        (fun p => dcol m ρ c (W5 m ρ) (Keep.at5 m ρ c main_v12 (by decide)) p)
        (fun p k => (HostValue.agg2 m ρ c p k).trans
          (congrArg (fun HS => Gcn.aggK (GcnNet.lands (ei m c)) (GcnNet.gs (ei m c)) HS p k) (funext fun a => funext fun b => h2s_at4 m ρ c a b)))
        (fun p k => (congrFun (show W5 m ρ c (Proc.devRef .tc main_v25_0) = W4 m ρ c (Proc.devRef .tc main_v25_0) by host_keep) (ix2 p k)).trans
          (h2_at4 m ρ c p k))
        (fun k => HostValue.bias2 m ρ c (0 : Fin 1) k)))
        (congrArg GcnNet.mat (argAt m ρ c (W5 m ρ) main_arg6 (Keep.at5 m ρ c main_arg6 (by decide)) (by decide))) n q)
      (dcol m ρ c (W5 m ρ) (Keep.at5 m ρ c main_v12 (by decide)) n)))

/-! ## Region 3 -/

theorem h4_at8 (c : Dev nD) (n : Fin 50000) (q : Fin 128) :
    (W8 m ρ c (Proc.devRef .tc main_v49_0) : S50000x128.Idx → EReal) (ix2 n q) = H4 m c n q :=
  (congrFun (W8_arr m ρ c 5) (ix2 n q)).trans ((RegionValue.reg3_h (V7 m ρ) c n q).trans
    (Gcn.mm_congr (Gcn.comb_layer (GcnNet.lands (ei m c)) (GcnNet.gs (ei m c))
        (fun p => dcol m ρ c (W7 m ρ) (Keep.at7 m ρ c main_v12 (by decide)) p)
        (fun p k => (HostValue.agg3 m ρ c p k).trans
          (congrArg (fun HS => Gcn.aggK (GcnNet.lands (ei m c)) (GcnNet.gs (ei m c)) HS p k) (funext fun a => funext fun b => h3s_at6 m ρ c a b)))
        (fun p k => (congrFun (show W7 m ρ c (Proc.devRef .tc main_v37_0) = W6 m ρ c (Proc.devRef .tc main_v37_0) by host_keep) (ix2 p k)).trans
          (h3_at6 m ρ c p k))
        (fun k => HostValue.bias3 m ρ c (0 : Fin 1) k))
      (congrArg GcnNet.mat (argAt m ρ c (W7 m ρ) main_arg8 (Keep.at7 m ρ c main_arg8 (by decide)) (by decide))) n q))

theorem h4s_at8 (c : Dev nD) (n : Fin 50000) (q : Fin 128) :
    (W8 m ρ c (Proc.devRef .tc main_v49_1) : S50000x128.Idx → EReal) (ix2 n q) = H4 m c n q * GcnNet.dis (ei m c) n :=
  (congrFun (W8_arr m ρ c 6) (ix2 n q)).trans ((RegionValue.reg3_hs (V7 m ρ) c n q).trans
    (congrArg₂ (· * ·)
      (Gcn.mm_congr (Gcn.comb_layer (GcnNet.lands (ei m c)) (GcnNet.gs (ei m c))
        (fun p => dcol m ρ c (W7 m ρ) (Keep.at7 m ρ c main_v12 (by decide)) p)
        (fun p k => (HostValue.agg3 m ρ c p k).trans
          (congrArg (fun HS => Gcn.aggK (GcnNet.lands (ei m c)) (GcnNet.gs (ei m c)) HS p k) (funext fun a => funext fun b => h3s_at6 m ρ c a b)))
        (fun p k => (congrFun (show W7 m ρ c (Proc.devRef .tc main_v37_0) = W6 m ρ c (Proc.devRef .tc main_v37_0) by host_keep) (ix2 p k)).trans
          (h3_at6 m ρ c p k))
        (fun k => HostValue.bias3 m ρ c (0 : Fin 1) k))
        (congrArg GcnNet.mat (argAt m ρ c (W7 m ρ) main_arg8 (Keep.at7 m ρ c main_arg8 (by decide)) (by decide))) n q)
      (dcol m ρ c (W7 m ρ) (Keep.at7 m ρ c main_v12 (by decide)) n)))

/-! ## Region 4 and the result -/

theorem out_at10 (c : Dev nD) (n : Fin 50000) (q : Fin 128) :
    (W10 m ρ c (Proc.devRef .tc main_v61) : S50000x128.Idx → EReal) (ix2 n q) = OUT m c n q :=
  (congrFun (W10_arr m ρ c 4) (ix2 n q)).trans ((RegionValue.reg4_out (V9 m ρ) c n q).trans
    (congrFun (congrFun (Gcn.comb_layer (GcnNet.lands (ei m c)) (GcnNet.gs (ei m c))
        (fun p => dcol m ρ c (W9 m ρ) (Keep.at9 m ρ c main_v12 (by decide)) p)
        (fun p k => (HostValue.agg4 m ρ c p k).trans
          (congrArg (fun HS => Gcn.aggK (GcnNet.lands (ei m c)) (GcnNet.gs (ei m c)) HS p k) (funext fun a => funext fun b => h4s_at8 m ρ c a b)))
        (fun p k => (congrFun (show W9 m ρ c (Proc.devRef .tc main_v49_0) = W8 m ρ c (Proc.devRef .tc main_v49_0) by host_keep) (ix2 p k)).trans
          (h4_at8 m ρ c p k))
        (fun k => HostValue.bias4 m ρ c (0 : Fin 1) k)) n) q))

/-- The result buffer after the run, at (n, q), is the network of the argument arrays at (n, q). -/
theorem ker_value (c : Dev nD) (n : Fin 50000) (q : Fin 128) :
    (W10 m ρ c (Proc.devRef .tc main_v61) : S50000x128.Idx → EReal) (ix2 n q)
      = GcnNet.kerNet (ei m c) (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) n q :=
  (out_at10 m ρ c n q).trans (congrFun (congrFun (out_eq m c) n) q)

end Cert.KernelIdeal.NetValue

end
-- ==== Proof.RefValue.lean ====
/-
  The reference program's result array is the graph network with both factors applied edge by edge.

  The reference computes, once: the sources and targets of the edges (rows 0 and 1 of the edge array); the degree of a
  node as one plus the accumulating scatter of ones at the targets, and its power -1/2; the factor of an edge, the
  product of that power at the edge's wrapped and clamped source and at its wrapped and clamped target; the factor of
  a node's own row, the square of the power. Each of its four layers then multiplies the rows by a weight matrix,
  gathers the rows of the product at the edges' sources, scales each by its edge's factor, scatter-adds them at the
  edges' targets into a zero array, and adds the node's own scaled row and the bias; a maximum with zero follows the
  first two layers.

  Read at an index, each stage is: a column of the edge array (the wrapped index where the program wraps it); for the
  degree, zero plus the sum of ones over the edges whose target, read as a signed integer, is the node (an
  accumulating scatter at an entry is the operand there plus the sum of the updates whose index names it); a gather
  the table at the clamped index; a layer the sum over the edges landing on the node of the gathered, scaled rows
  plus the node's own scaled row plus the bias, which is the layer of the network entry by entry. Composing the four
  layers, the matrix products (sums over the contracted axis) and the two maxima gives the network.
-/
import proofs.«123087_j26456998543657_2_alg».proof.Proof.Gen.ReferenceIdeal.Read
import proofs.«123087_j26456998543657_2_alg».proof.Proof.NetSpec
import proofs.«123087_j26456998543657_2_alg».proof.Proof.LibRowGather
import proofs.«123087_j26456998543657_2_alg».proof.Proof.LibScatterRows
import proofs.«123087_j26456998543657_2_alg».proof.Proof.LibRowScatter

noncomputable section

namespace Cert.ReferenceIdeal.RefValue

open Cert.ReferenceIdeal Cert.ReferenceIdeal.Gen Cert.ReferenceIdeal.Read Idealize.ShloMosaic Idealize.ShloMosaic.ValueIdx
open scoped BigOperators

/-! ## The two rows of the edge array, read at an edge -/

theorem src_raw (x1 : (⟨S2x800000, .i32⟩ : BufTy).Contents (Elt Ideal)) (e : Fin 800000) :
    val_main_v1 (F := Ideal) x1 (ix1 e) = x1 (ix2 (0 : Fin 2) e) := by
  rw [val_main_v1_apply, val_main_v0_apply]
  congr 1
  funext a
  refine Fin.ext ?_
  match a with
  | ⟨0, _⟩ => rfl
  | ⟨1, _⟩ => exact Nat.mod_eq_of_lt e.isLt

theorem dst_raw (x1 : (⟨S2x800000, .i32⟩ : BufTy).Contents (Elt Ideal)) (e : Fin 800000) :
    val_main_v3 (F := Ideal) x1 (ix1 e) = x1 (ix2 (1 : Fin 2) e) := by
  rw [val_main_v3_apply, val_main_v2_apply]
  congr 1
  funext a
  refine Fin.ext ?_
  match a with
  | ⟨0, _⟩ => rfl
  | ⟨1, _⟩ => exact Nat.mod_eq_of_lt e.isLt

/-- Entry (e, 0) of a vector over the edges laid out as a column is entry e of the vector. -/
theorem col_ix (e : Fin 800000) : idx_main_v17 (ix2 e (0 : Fin 1)) = ix1 e :=
  funext fun a => Fin.ext (by match a with | ⟨0, _⟩ => rfl)

/-- The same for a vector over the nodes. -/
theorem col_ix_n (n : Fin 50000) : idx_main_v29 (ix2 n (0 : Fin 1)) = ix1 n :=
  funext fun a => Fin.ext (by match a with | ⟨0, _⟩ => rfl)

/-! ## The wrapped source (and target) index of an edge, and the raw target, as columns -/

theorem wrapped_v16 (x1 : (⟨S2x800000, .i32⟩ : BufTy).Contents (Elt Ideal)) (e : Fin 800000) :
    val_main_v16 (F := Ideal) x1 (ix1 e) = GcnNet.wrap (x1 (ix2 (0 : Fin 2) e)) := by
  rw [val_main_v16_apply, val_main_v13_apply, val_main_v15_apply, val_main_v12_apply, val_main_v14_apply,
    val_main_c_apply, val_main_c_3_apply, src_raw]
  rfl

theorem col_v17 (x1 : (⟨S2x800000, .i32⟩ : BufTy).Contents (Elt Ideal)) (e : Fin 800000) :
    val_main_v17 (F := Ideal) x1 (ix2 e (0 : Fin 1)) = GcnNet.wrap (x1 (ix2 (0 : Fin 2) e)) := by
  rw [val_main_v17_apply, show idx_main_v17 (ix2 e (0 : Fin 1)) = ix1 e from col_ix e, wrapped_v16]

theorem wrapped_v23 (x1 : (⟨S2x800000, .i32⟩ : BufTy).Contents (Elt Ideal)) (e : Fin 800000) :
    val_main_v23 (F := Ideal) x1 (ix1 e) = GcnNet.wrap (x1 (ix2 (1 : Fin 2) e)) := by
  rw [val_main_v23_apply, val_main_v20_apply, val_main_v22_apply, val_main_v19_apply, val_main_v21_apply,
    val_main_c_4_apply, val_main_c_5_apply, dst_raw]
  rfl

theorem col_v24 (x1 : (⟨S2x800000, .i32⟩ : BufTy).Contents (Elt Ideal)) (e : Fin 800000) :
    val_main_v24 (F := Ideal) x1 (ix2 e (0 : Fin 1)) = GcnNet.wrap (x1 (ix2 (1 : Fin 2) e)) := by
  rw [val_main_v24_apply, show idx_main_v24 (ix2 e (0 : Fin 1)) = ix1 e from col_ix e, wrapped_v23]

theorem wrapped_v35 (x1 : (⟨S2x800000, .i32⟩ : BufTy).Contents (Elt Ideal)) (e : Fin 800000) :
    val_main_v35 (F := Ideal) x1 (ix1 e) = GcnNet.wrap (x1 (ix2 (0 : Fin 2) e)) := by
  rw [val_main_v35_apply, val_main_v32_apply, val_main_v34_apply, val_main_v31_apply, val_main_v33_apply,
    val_main_c_6_apply, val_main_c_7_apply, src_raw]
  rfl

theorem col_v36 (x1 : (⟨S2x800000, .i32⟩ : BufTy).Contents (Elt Ideal)) (e : Fin 800000) :
    val_main_v36 (F := Ideal) x1 (ix2 e (0 : Fin 1)) = GcnNet.wrap (x1 (ix2 (0 : Fin 2) e)) := by
  rw [val_main_v36_apply, show idx_main_v36 (ix2 e (0 : Fin 1)) = ix1 e from col_ix e, wrapped_v35]

theorem wrapped_v55 (x1 : (⟨S2x800000, .i32⟩ : BufTy).Contents (Elt Ideal)) (e : Fin 800000) :
    val_main_v55 (F := Ideal) x1 (ix1 e) = GcnNet.wrap (x1 (ix2 (0 : Fin 2) e)) := by
  rw [val_main_v55_apply, val_main_v52_apply, val_main_v54_apply, val_main_v51_apply, val_main_v53_apply,
    val_main_c_9_apply, val_main_c_10_apply, src_raw]
  rfl

theorem col_v56 (x1 : (⟨S2x800000, .i32⟩ : BufTy).Contents (Elt Ideal)) (e : Fin 800000) :
    val_main_v56 (F := Ideal) x1 (ix2 e (0 : Fin 1)) = GcnNet.wrap (x1 (ix2 (0 : Fin 2) e)) := by
  rw [val_main_v56_apply, show idx_main_v56 (ix2 e (0 : Fin 1)) = ix1 e from col_ix e, wrapped_v55]

theorem wrapped_v75 (x1 : (⟨S2x800000, .i32⟩ : BufTy).Contents (Elt Ideal)) (e : Fin 800000) :
    val_main_v75 (F := Ideal) x1 (ix1 e) = GcnNet.wrap (x1 (ix2 (0 : Fin 2) e)) := by
  rw [val_main_v75_apply, val_main_v72_apply, val_main_v74_apply, val_main_v71_apply, val_main_v73_apply,
    val_main_c_12_apply, val_main_c_13_apply, src_raw]
  rfl

theorem col_v76 (x1 : (⟨S2x800000, .i32⟩ : BufTy).Contents (Elt Ideal)) (e : Fin 800000) :
    val_main_v76 (F := Ideal) x1 (ix2 e (0 : Fin 1)) = GcnNet.wrap (x1 (ix2 (0 : Fin 2) e)) := by
  rw [val_main_v76_apply, show idx_main_v76 (ix2 e (0 : Fin 1)) = ix1 e from col_ix e, wrapped_v75]

theorem wrapped_v94 (x1 : (⟨S2x800000, .i32⟩ : BufTy).Contents (Elt Ideal)) (e : Fin 800000) :
    val_main_v94 (F := Ideal) x1 (ix1 e) = GcnNet.wrap (x1 (ix2 (0 : Fin 2) e)) := by
  rw [val_main_v94_apply, val_main_v91_apply, val_main_v93_apply, val_main_v90_apply, val_main_v92_apply,
    val_main_c_15_apply, val_main_c_16_apply, src_raw]
  rfl

theorem col_v95 (x1 : (⟨S2x800000, .i32⟩ : BufTy).Contents (Elt Ideal)) (e : Fin 800000) :
    val_main_v95 (F := Ideal) x1 (ix2 e (0 : Fin 1)) = GcnNet.wrap (x1 (ix2 (0 : Fin 2) e)) := by
  rw [val_main_v95_apply, show idx_main_v95 (ix2 e (0 : Fin 1)) = ix1 e from col_ix e, wrapped_v94]

theorem col_v6 (x1 : (⟨S2x800000, .i32⟩ : BufTy).Contents (Elt Ideal)) (e : Fin 800000) :
    val_main_v6 (F := Ideal) x1 (ix2 e (0 : Fin 1)) = x1 (ix2 (1 : Fin 2) e) := by
  rw [val_main_v6_apply, show idx_main_v6 (ix2 e (0 : Fin 1)) = ix1 e from col_ix e, dst_raw]

theorem col_v41 (x1 : (⟨S2x800000, .i32⟩ : BufTy).Contents (Elt Ideal)) (e : Fin 800000) :
    val_main_v41 (F := Ideal) x1 (ix2 e (0 : Fin 1)) = x1 (ix2 (1 : Fin 2) e) := by
  rw [val_main_v41_apply, show idx_main_v41 (ix2 e (0 : Fin 1)) = ix1 e from col_ix e, dst_raw]

theorem col_v61 (x1 : (⟨S2x800000, .i32⟩ : BufTy).Contents (Elt Ideal)) (e : Fin 800000) :
    val_main_v61 (F := Ideal) x1 (ix2 e (0 : Fin 1)) = x1 (ix2 (1 : Fin 2) e) := by
  rw [val_main_v61_apply, show idx_main_v61 (ix2 e (0 : Fin 1)) = ix1 e from col_ix e, dst_raw]

theorem col_v81 (x1 : (⟨S2x800000, .i32⟩ : BufTy).Contents (Elt Ideal)) (e : Fin 800000) :
    val_main_v81 (F := Ideal) x1 (ix2 e (0 : Fin 1)) = x1 (ix2 (1 : Fin 2) e) := by
  rw [val_main_v81_apply, show idx_main_v81 (ix2 e (0 : Fin 1)) = ix1 e from col_ix e, dst_raw]

theorem col_v100 (x1 : (⟨S2x800000, .i32⟩ : BufTy).Contents (Elt Ideal)) (e : Fin 800000) :
    val_main_v100 (F := Ideal) x1 (ix2 e (0 : Fin 1)) = x1 (ix2 (1 : Fin 2) e) := by
  rw [val_main_v100_apply, show idx_main_v100 (ix2 e (0 : Fin 1)) = ix1 e from col_ix e, dst_raw]

/-! ## The printed dimension numbers are the row and vector forms of the general lemmas -/

theorem vecScatter_eq : scatter_S50000_S800000x1_S800000_n_0_0_1
    = RowScatter.vecScatter 50000 800000 Facts₀.scatter_S50000_S800000x1_S800000_n_0_0_1_wf := rfl
theorem vecGather_eq : gather_S50000_S800000x1_S800000_n_0_n_n_0_1_1
    = RowScatter.vecGather 50000 800000 Facts₀.gather_S50000_S800000x1_S800000_n_0_n_n_0_1_1_wf := rfl
theorem rowGather64_eq : gather_S50000x64_S800000x1_S800000x64_1_0_n_n_0_1_164
    = RowGather.rowDims 50000 64 800000 Facts₀.gather_S50000x64_S800000x1_S800000x64_1_0_n_n_0_1_164_wf := rfl
theorem rowScatter64_eq : scatter_S50000x64_S800000x1_S800000x64_1_0_0_1
    = ScatterRows.rowDims 50000 64 800000 Facts₀.scatter_S50000x64_S800000x1_S800000x64_1_0_0_1_wf := rfl
theorem rowGather128_eq : gather_S50000x128_S800000x1_S800000x128_1_0_n_n_0_1_1128
    = RowGather.rowDims 50000 128 800000 Facts₀.gather_S50000x128_S800000x1_S800000x128_1_0_n_n_0_1_1128_wf := rfl
theorem rowScatter128_eq : scatter_S50000x128_S800000x1_S800000x128_1_0_0_1
    = ScatterRows.rowDims 50000 128 800000 Facts₀.scatter_S50000x128_S800000x1_S800000x128_1_0_0_1_wf := rfl

/-! ## An accumulating scatter into a vector, read at an entry -/

section
variable {N R w : Nat} (wf : ScatterDims.WF ⟨1, ![N]⟩ ⟨2, ![R, 1]⟩ ⟨1, ![R]⟩ [] [0] [0] 1)

/-- Update e lands on entry n exactly when its scatter index, read signed, is n. -/
theorem vecScatter_lands_iff (idx : IVec ⟨2, ![R, 1]⟩ w) (e : Fin R) (n : Fin N) :
    (RowScatter.vecScatter N R wf).resultIdx? (ix1 e) idx = some (ix1 n)
      ↔ (idx (ix2 e (0 : Fin 1))).toInt = (n.val : ℤ) := by
  constructor
  · intro h
    have h0 := (ScatterRows.resultIdx?_eq_some_iff _ _ _ _).mp h (0 : Fin 1)
    rw [RowScatter.vecScatter_start_zero, RowScatter.vecScatter_window_zero] at h0
    have h1 : (idx (ix2 e (0 : Fin 1))).toInt + ((0 : ℕ) : ℤ) = (n.val : ℤ) := h0
    omega
  · intro h
    exact RowScatter.vecScatter_lands_of wf idx (ix1 e) n h

/-- The accumulating scatter at entry n: the operand there plus the sum of the updates whose index is n. -/
theorem vecScatterAdd_apply (x : (⟨1, ![N]⟩ : Shape).Idx → EReal) (idx : IVec ⟨2, ![R, 1]⟩ w)
    (upd : (⟨1, ![R]⟩ : Shape).Idx → EReal) (n : Fin N) :
    Ideal.hostScatterAdd (RowScatter.vecScatter N R wf) x idx upd (ix1 n)
      = x (ix1 n) + ∑ e ∈ Finset.univ.filter (fun e : Fin R => (idx (ix2 e (0 : Fin 1))).toInt = (n.val : ℤ)), upd (ix1 e) := by
  unfold Ideal.hostScatterAdd
  congr 1
  symm
  refine Finset.sum_bij (fun e _ => ix1 e) ?_ ?_ ?_ ?_
  · intro e he
    rw [Finset.mem_filter] at he ⊢
    exact ⟨Finset.mem_univ _, (vecScatter_lands_iff wf idx e n).mpr he.2⟩
  · intro e₁ _ e₂ _ h
    exact congrFun h (0 : Fin 1)
  · intro j hj
    rw [Finset.mem_filter] at hj
    have hj2 := hj.2
    rw [eq_ix1 j] at hj2
    exact ⟨j 0, Finset.mem_filter.mpr ⟨Finset.mem_univ _, (vecScatter_lands_iff wf idx (j 0) n).mp hj2⟩, (eq_ix1 j).symm⟩
  · intro e _
    rfl

end

/-! ## The host's operations on the extended reals, and the clamp of a gathered row's number -/

theorem hostScatterAdd_ideal {s si u : Shape} {w : Nat} {φ : FTy} (d : ScatterDims s si u) (x : FVec Ideal s φ)
    (idx : IVec si w) (upd : FVec Ideal u φ) :
    Host.scatterAdd (F := Ideal) d x idx upd = Ideal.hostScatterAdd d x idx upd := rfl

/-- A vector gather from a table over the nodes reads the entry of the clamped index. -/
theorem gather_vec_node {α : Type} (wf : GatherDims.WF ⟨1, ![50000]⟩ ⟨2, ![800000, 1]⟩ ⟨1, ![800000]⟩ [] [0] [] [0] [] 1 ![1])
    (x : (⟨1, ![50000]⟩ : Shape).Idx → α) (idx : IVec ⟨2, ![800000, 1]⟩ 32) (e : Fin 800000) :
    Host.gather (RowScatter.vecGather 50000 800000 wf) x idx (ix1 e) = x (ix1 (GcnNet.node (idx (ix2 e (0 : Fin 1))))) :=
  RowScatter.gather_vec_apply (by omega) wf x idx e

/-- A row gather from a table over the nodes reads the row of the clamped index. -/
theorem gather_row_node {α : Type} {C : Nat}
    (wf : GatherDims.WF ⟨2, ![50000, C]⟩ ⟨2, ![800000, 1]⟩ ⟨2, ![800000, C]⟩ [1] [0] [] [0] [] 1 ![1, C])
    (x : (⟨2, ![50000, C]⟩ : Shape).Idx → α) (idx : IVec ⟨2, ![800000, 1]⟩ 32) (e : Fin 800000) (c : Fin C) :
    Host.gather (RowGather.rowDims 50000 C 800000 wf) x idx (ix2 e c)
      = x (ix2 (GcnNet.node (idx (ix2 e (0 : Fin 1)))) c) :=
  RowGather.gather_row_apply (by omega) wf x idx e c

theorem one_def : FloatOps.ofBits (F := Ideal) .f32 0x3F800000#32 = GcnNet.one := rfl
theorem zero_def : FloatOps.ofBits (F := Ideal) .f32 0x00000000#32 = GcnNet.zero := rfl
theorem mhalf_def : FloatOps.ofBits (F := Ideal) .f32 0xBF000000#32 = GcnNet.mhalf := rfl

/-! ## The degree and its power -/

theorem count_v7 (x1 : (⟨S2x800000, .i32⟩ : BufTy).Contents (Elt Ideal)) (n : Fin 50000) :
    val_main_v7 (F := Ideal) x1 (ix1 n)
      = GcnNet.zero + ∑ _e ∈ Finset.univ.filter (fun e => GcnNet.lands x1 e n), GcnNet.one := by
  unfold val_main_v7
  rw [hostScatterAdd_ideal, vecScatter_eq, vecScatterAdd_apply, val_main_v5_apply, val_main_cst_0_apply, zero_def]
  refine congrArg (fun t => GcnNet.zero + t) ?_
  refine Finset.sum_congr (Finset.filter_congr fun e _ => ?_) fun e _ => ?_
  · rw [col_v6, GcnNet.lands]
  · rw [val_main_v4_apply, val_main_cst_apply, one_def]

theorem deg_v9 (x1 : (⟨S2x800000, .i32⟩ : BufTy).Contents (Elt Ideal)) (n : Fin 50000) :
    val_main_v9 (F := Ideal) x1 (ix1 n) = GcnNet.deg x1 n := by
  rw [val_main_v9_apply, Ideal.addf_def, val_main_v8_apply, val_main_cst_1_apply, one_def, count_v7, GcnNet.deg]

theorem dis_v11 (x1 : (⟨S2x800000, .i32⟩ : BufTy).Contents (Elt Ideal)) (n : Fin 50000) :
    val_main_v11 (F := Ideal) x1 (ix1 n) = GcnNet.dis x1 n := by
  rw [val_main_v11_apply, Ideal.hostPowf_def, deg_v9, val_main_v10_apply, val_main_cst_2_apply, mhalf_def, GcnNet.dis]

/-! ## The factor of an edge and the factor of a node's own row -/

theorem edge_v27 (x1 : (⟨S2x800000, .i32⟩ : BufTy).Contents (Elt Ideal)) (e : Fin 800000) :
    val_main_v27 (F := Ideal) x1 (ix2 e (0 : Fin 1))
      = GcnNet.dis x1 (GcnNet.gs x1 e) * GcnNet.dis x1 (GcnNet.gd x1 e) := by
  rw [val_main_v27_apply, show idx_main_v27 (ix2 e (0 : Fin 1)) = ix1 e from col_ix e, val_main_v26_apply, Ideal.mulf_def]
  unfold val_main_v18 val_main_v25
  rw [vecGather_eq, gather_vec_node, gather_vec_node, col_v17, col_v24, dis_v11, dis_v11, GcnNet.gs, GcnNet.gd]

theorem self_v29 (x1 : (⟨S2x800000, .i32⟩ : BufTy).Contents (Elt Ideal)) (n : Fin 50000) :
    val_main_v29 (F := Ideal) x1 (ix2 n (0 : Fin 1)) = GcnNet.dis x1 n * GcnNet.dis x1 n := by
  rw [val_main_v29_apply, col_ix_n, val_main_v28_apply, Ideal.mulf_def, dis_v11]

/-! ## The sum over the edges landing on a node -/

theorem agg_eq {C : Nat} (x1 : GcnNet.EI) (dst : IVec ⟨2, ![800000, 1]⟩ 32) (upd : (⟨2, ![800000, C]⟩ : Shape).Idx → EReal)
    (H : Fin 50000 → Fin C → EReal) (n : Fin 50000) (c : Fin C)
    (hdst : ∀ e : Fin 800000, dst (ix2 e (0 : Fin 1)) = x1 (ix2 (1 : Fin 2) e))
    (hupd : ∀ e : Fin 800000, upd (ix2 e c)
      = H (GcnNet.gs x1 e) c * (GcnNet.dis x1 (GcnNet.gs x1 e) * GcnNet.dis x1 (GcnNet.gd x1 e))) :
    (∑ p ∈ Finset.univ.filter (fun p : Fin 800000 => (dst (ix2 p (0 : Fin 1))).toInt = (n.val : ℤ)), upd (ix2 p c))
      = Gcn.aggR (GcnNet.lands x1) (GcnNet.gs x1) (GcnNet.gd x1) (GcnNet.dis x1) H n c := by
  rw [Gcn.aggR]
  refine Finset.sum_congr (Finset.filter_congr fun e _ => ?_) fun e _ => hupd e
  rw [hdst, GcnNet.lands]

/-! ## One layer: gather the rows along the edges, scale, scatter-add, add the node's own scaled row and the bias -/

theorem upd1 (x0 : (⟨S50000x128, .f32⟩ : BufTy).Contents (Elt Ideal)) (x1 : (⟨S2x800000, .i32⟩ : BufTy).Contents (Elt Ideal)) (x2 : (⟨S128x64, .f32⟩ : BufTy).Contents (Elt Ideal)) (e : Fin 800000) (c : Fin 64) :
    val_main_v39 (F := Ideal) x0 x1 x2 (ix2 e c)
      = val_main_v30 (F := Ideal) x0 x2 (ix2 (GcnNet.gs x1 e) c)
          * (GcnNet.dis x1 (GcnNet.gs x1 e) * GcnNet.dis x1 (GcnNet.gd x1 e)) := by
  rw [val_main_v39_apply, Ideal.mulf_def, val_main_v38_apply,
    show idx_main_v38 (ix2 e c) = ix2 e (0 : Fin 1) from funext fun a => Fin.ext (by match a with | ⟨0, _⟩ => rfl | ⟨1, _⟩ => rfl), edge_v27]
  unfold val_main_v37
  rw [rowGather64_eq, gather_row_node, col_v36, GcnNet.gs]

theorem layer1 (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (n : Fin 50000) (c : Fin 64) :
    val_main_v48 (F := Ideal) x0 x1 x2 x3 (ix2 n c)
      = Gcn.layerR (GcnNet.lands x1) (GcnNet.gs x1) (GcnNet.gd x1) (GcnNet.dis x1)
          (fun (p : Fin 50000) (k : Fin 64) => val_main_v30 (F := Ideal) x0 x2 (ix2 p k)) (GcnNet.vec x3) n c := by
  rw [val_main_v48_apply, Ideal.addf_def, val_main_v45_apply, Ideal.addf_def, val_main_v44_apply, Ideal.mulf_def,
    val_main_v47_apply, val_main_v46_apply, val_main_v43_apply,
    show idx_main_v43 (ix2 n c) = ix2 n (0 : Fin 1) from funext fun a => Fin.ext (by match a with | ⟨0, _⟩ => rfl | ⟨1, _⟩ => rfl),
    show idx_main_v46 (idx_main_v47 (ix2 n c)) = ix1 c from funext fun a => Fin.ext (by match a with | ⟨0, _⟩ => rfl), self_v29]
  unfold val_main_v42
  rw [hostScatterAdd_ideal, rowScatter64_eq, ScatterRows.scatterAdd_rows_apply,
    agg_eq x1 _ _ (fun (p : Fin 50000) (k : Fin 64) => val_main_v30 (F := Ideal) x0 x2 (ix2 p k)) n c (col_v41 x1) (fun e => upd1 x0 x1 x2 e c),
    val_main_v40_apply, val_main_cst_8_apply, Ideal.ofBits_def, Ideal.ofBits_zero_f32, zero_add,
    Gcn.layerR, Gcn.combR, GcnNet.vec]

theorem layer1_fun (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) :
    (fun (p : Fin 50000) (k : Fin 64) => val_main_v48 (F := Ideal) x0 x1 x2 x3 (ix2 p k))
      = Gcn.layerR (GcnNet.lands x1) (GcnNet.gs x1) (GcnNet.gd x1) (GcnNet.dis x1)
          (fun (p : Fin 50000) (k : Fin 64) => val_main_v30 (F := Ideal) x0 x2 (ix2 p k)) (GcnNet.vec x3) :=
  funext fun p => funext fun k => layer1 x0 x1 x2 x3 p k

theorem upd2 (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (e : Fin 800000) (c : Fin 64) :
    val_main_v59 (F := Ideal) x0 x1 x2 x3 x4 (ix2 e c)
      = val_main_v50 (F := Ideal) x0 x1 x2 x3 x4 (ix2 (GcnNet.gs x1 e) c)
          * (GcnNet.dis x1 (GcnNet.gs x1 e) * GcnNet.dis x1 (GcnNet.gd x1 e)) := by
  rw [val_main_v59_apply, Ideal.mulf_def, val_main_v58_apply,
    show idx_main_v58 (ix2 e c) = ix2 e (0 : Fin 1) from funext fun a => Fin.ext (by match a with | ⟨0, _⟩ => rfl | ⟨1, _⟩ => rfl), edge_v27]
  unfold val_main_v57
  rw [rowGather64_eq, gather_row_node, col_v56, GcnNet.gs]

theorem layer2 (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (n : Fin 50000) (c : Fin 64) :
    val_main_v68 (F := Ideal) x0 x1 x2 x3 x4 x5 (ix2 n c)
      = Gcn.layerR (GcnNet.lands x1) (GcnNet.gs x1) (GcnNet.gd x1) (GcnNet.dis x1)
          (fun (p : Fin 50000) (k : Fin 64) => val_main_v50 (F := Ideal) x0 x1 x2 x3 x4 (ix2 p k)) (GcnNet.vec x5) n c := by
  rw [val_main_v68_apply, Ideal.addf_def, val_main_v65_apply, Ideal.addf_def, val_main_v64_apply, Ideal.mulf_def,
    val_main_v67_apply, val_main_v66_apply, val_main_v63_apply,
    show idx_main_v63 (ix2 n c) = ix2 n (0 : Fin 1) from funext fun a => Fin.ext (by match a with | ⟨0, _⟩ => rfl | ⟨1, _⟩ => rfl),
    show idx_main_v66 (idx_main_v67 (ix2 n c)) = ix1 c from funext fun a => Fin.ext (by match a with | ⟨0, _⟩ => rfl), self_v29]
  unfold val_main_v62
  rw [hostScatterAdd_ideal, rowScatter64_eq, ScatterRows.scatterAdd_rows_apply,
    agg_eq x1 _ _ (fun (p : Fin 50000) (k : Fin 64) => val_main_v50 (F := Ideal) x0 x1 x2 x3 x4 (ix2 p k)) n c (col_v61 x1) (fun e => upd2 x0 x1 x2 x3 x4 e c),
    val_main_v60_apply, val_main_cst_11_apply, Ideal.ofBits_def, Ideal.ofBits_zero_f32, zero_add,
    Gcn.layerR, Gcn.combR, GcnNet.vec]

theorem layer2_fun (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) :
    (fun (p : Fin 50000) (k : Fin 64) => val_main_v68 (F := Ideal) x0 x1 x2 x3 x4 x5 (ix2 p k))
      = Gcn.layerR (GcnNet.lands x1) (GcnNet.gs x1) (GcnNet.gd x1) (GcnNet.dis x1)
          (fun (p : Fin 50000) (k : Fin 64) => val_main_v50 (F := Ideal) x0 x1 x2 x3 x4 (ix2 p k)) (GcnNet.vec x5) :=
  funext fun p => funext fun k => layer2 x0 x1 x2 x3 x4 x5 p k

theorem upd3 (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (e : Fin 800000) (c : Fin 64) :
    val_main_v79 (F := Ideal) x0 x1 x2 x3 x4 x5 x6 (ix2 e c)
      = val_main_v70 (F := Ideal) x0 x1 x2 x3 x4 x5 x6 (ix2 (GcnNet.gs x1 e) c)
          * (GcnNet.dis x1 (GcnNet.gs x1 e) * GcnNet.dis x1 (GcnNet.gd x1 e)) := by
  rw [val_main_v79_apply, Ideal.mulf_def, val_main_v78_apply,
    show idx_main_v78 (ix2 e c) = ix2 e (0 : Fin 1) from funext fun a => Fin.ext (by match a with | ⟨0, _⟩ => rfl | ⟨1, _⟩ => rfl), edge_v27]
  unfold val_main_v77
  rw [rowGather64_eq, gather_row_node, col_v76, GcnNet.gs]

theorem layer3 (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (n : Fin 50000) (c : Fin 64) :
    val_main_v88 (F := Ideal) x0 x1 x2 x3 x4 x5 x6 x7 (ix2 n c)
      = Gcn.layerR (GcnNet.lands x1) (GcnNet.gs x1) (GcnNet.gd x1) (GcnNet.dis x1)
          (fun (p : Fin 50000) (k : Fin 64) => val_main_v70 (F := Ideal) x0 x1 x2 x3 x4 x5 x6 (ix2 p k)) (GcnNet.vec x7) n c := by
  rw [val_main_v88_apply, Ideal.addf_def, val_main_v85_apply, Ideal.addf_def, val_main_v84_apply, Ideal.mulf_def,
    val_main_v87_apply, val_main_v86_apply, val_main_v83_apply,
    show idx_main_v83 (ix2 n c) = ix2 n (0 : Fin 1) from funext fun a => Fin.ext (by match a with | ⟨0, _⟩ => rfl | ⟨1, _⟩ => rfl),
    show idx_main_v86 (idx_main_v87 (ix2 n c)) = ix1 c from funext fun a => Fin.ext (by match a with | ⟨0, _⟩ => rfl), self_v29]
  unfold val_main_v82
  rw [hostScatterAdd_ideal, rowScatter64_eq, ScatterRows.scatterAdd_rows_apply,
    agg_eq x1 _ _ (fun (p : Fin 50000) (k : Fin 64) => val_main_v70 (F := Ideal) x0 x1 x2 x3 x4 x5 x6 (ix2 p k)) n c (col_v81 x1) (fun e => upd3 x0 x1 x2 x3 x4 x5 x6 e c),
    val_main_v80_apply, val_main_cst_14_apply, Ideal.ofBits_def, Ideal.ofBits_zero_f32, zero_add,
    Gcn.layerR, Gcn.combR, GcnNet.vec]

theorem layer3_fun (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) :
    (fun (p : Fin 50000) (k : Fin 64) => val_main_v88 (F := Ideal) x0 x1 x2 x3 x4 x5 x6 x7 (ix2 p k))
      = Gcn.layerR (GcnNet.lands x1) (GcnNet.gs x1) (GcnNet.gd x1) (GcnNet.dis x1)
          (fun (p : Fin 50000) (k : Fin 64) => val_main_v70 (F := Ideal) x0 x1 x2 x3 x4 x5 x6 (ix2 p k)) (GcnNet.vec x7) :=
  funext fun p => funext fun k => layer3 x0 x1 x2 x3 x4 x5 x6 x7 p k

theorem upd4 (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x128, .f32⟩ : BufTy).Contents (Elt Ideal)) (e : Fin 800000) (c : Fin 128) :
    val_main_v98 (F := Ideal) x0 x1 x2 x3 x4 x5 x6 x7 x8 (ix2 e c)
      = val_main_v89 (F := Ideal) x0 x1 x2 x3 x4 x5 x6 x7 x8 (ix2 (GcnNet.gs x1 e) c)
          * (GcnNet.dis x1 (GcnNet.gs x1 e) * GcnNet.dis x1 (GcnNet.gd x1 e)) := by
  rw [val_main_v98_apply, Ideal.mulf_def, val_main_v97_apply,
    show idx_main_v97 (ix2 e c) = ix2 e (0 : Fin 1) from funext fun a => Fin.ext (by match a with | ⟨0, _⟩ => rfl | ⟨1, _⟩ => rfl), edge_v27]
  unfold val_main_v96
  rw [rowGather128_eq, gather_row_node, col_v95, GcnNet.gs]

theorem layer4 (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x128, .f32⟩ : BufTy).Contents (Elt Ideal)) (x9 : (⟨S128, .f32⟩ : BufTy).Contents (Elt Ideal)) (n : Fin 50000) (c : Fin 128) :
    val_main_v107 (F := Ideal) x0 x1 x2 x3 x4 x5 x6 x7 x8 x9 (ix2 n c)
      = Gcn.layerR (GcnNet.lands x1) (GcnNet.gs x1) (GcnNet.gd x1) (GcnNet.dis x1)
          (fun (p : Fin 50000) (k : Fin 128) => val_main_v89 (F := Ideal) x0 x1 x2 x3 x4 x5 x6 x7 x8 (ix2 p k)) (GcnNet.vec x9) n c := by
  rw [val_main_v107_apply, Ideal.addf_def, val_main_v104_apply, Ideal.addf_def, val_main_v103_apply, Ideal.mulf_def,
    val_main_v106_apply, val_main_v105_apply, val_main_v102_apply,
    show idx_main_v102 (ix2 n c) = ix2 n (0 : Fin 1) from funext fun a => Fin.ext (by match a with | ⟨0, _⟩ => rfl | ⟨1, _⟩ => rfl),
    show idx_main_v105 (idx_main_v106 (ix2 n c)) = ix1 c from funext fun a => Fin.ext (by match a with | ⟨0, _⟩ => rfl), self_v29]
  unfold val_main_v101
  rw [hostScatterAdd_ideal, rowScatter128_eq, ScatterRows.scatterAdd_rows_apply,
    agg_eq x1 _ _ (fun (p : Fin 50000) (k : Fin 128) => val_main_v89 (F := Ideal) x0 x1 x2 x3 x4 x5 x6 x7 x8 (ix2 p k)) n c (col_v100 x1) (fun e => upd4 x0 x1 x2 x3 x4 x5 x6 x7 x8 e c),
    val_main_v99_apply, val_main_cst_17_apply, Ideal.ofBits_def, Ideal.ofBits_zero_f32, zero_add,
    Gcn.layerR, Gcn.combR, GcnNet.vec]

theorem layer4_fun (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x128, .f32⟩ : BufTy).Contents (Elt Ideal)) (x9 : (⟨S128, .f32⟩ : BufTy).Contents (Elt Ideal)) :
    (fun (p : Fin 50000) (k : Fin 128) => val_main_v107 (F := Ideal) x0 x1 x2 x3 x4 x5 x6 x7 x8 x9 (ix2 p k))
      = Gcn.layerR (GcnNet.lands x1) (GcnNet.gs x1) (GcnNet.gd x1) (GcnNet.dis x1)
          (fun (p : Fin 50000) (k : Fin 128) => val_main_v89 (F := Ideal) x0 x1 x2 x3 x4 x5 x6 x7 x8 (ix2 p k)) (GcnNet.vec x9) :=
  funext fun p => funext fun k => layer4 x0 x1 x2 x3 x4 x5 x6 x7 x8 x9 p k

/-! ## The matrix products and the maxima with zero -/

theorem mm1 (x0 : (⟨S50000x128, .f32⟩ : BufTy).Contents (Elt Ideal)) (x2 : (⟨S128x64, .f32⟩ : BufTy).Contents (Elt Ideal)) :
    (fun (p : Fin 50000) (k : Fin 64) => val_main_v30 (F := Ideal) x0 x2 (ix2 p k))
      = Gcn.mm (GcnNet.mat x0) (GcnNet.mat x2) := by
  funext n c
  rw [val_main_v30_apply, Gcn.mm]
  refine Finset.sum_congr rfl fun k _ => ?_
  rw [show lidx_main_v30 (ix2 n c) k = ix2 n k from funext fun a => Fin.ext (by match a with | ⟨0, _⟩ => rfl | ⟨1, _⟩ => rfl),
    show ridx_main_v30 (ix2 n c) k = ix2 k c from funext fun a => Fin.ext (by match a with | ⟨0, _⟩ => rfl | ⟨1, _⟩ => rfl)]
  rfl

theorem mm2 (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) :
    (fun (p : Fin 50000) (k : Fin 64) => val_main_v50 (F := Ideal) x0 x1 x2 x3 x4 (ix2 p k))
      = Gcn.mm (fun (p : Fin 50000) (k : Fin 64) => val_main_v49 (F := Ideal) x0 x1 x2 x3 (ix2 p k)) (GcnNet.mat x4) := by
  funext n c
  rw [val_main_v50_apply, Gcn.mm]
  refine Finset.sum_congr rfl fun k _ => ?_
  rw [show lidx_main_v50 (ix2 n c) k = ix2 n k from funext fun a => Fin.ext (by match a with | ⟨0, _⟩ => rfl | ⟨1, _⟩ => rfl),
    show ridx_main_v50 (ix2 n c) k = ix2 k c from funext fun a => Fin.ext (by match a with | ⟨0, _⟩ => rfl | ⟨1, _⟩ => rfl)]
  rfl

theorem mm3 (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) :
    (fun (p : Fin 50000) (k : Fin 64) => val_main_v70 (F := Ideal) x0 x1 x2 x3 x4 x5 x6 (ix2 p k))
      = Gcn.mm (fun (p : Fin 50000) (k : Fin 64) => val_main_v69 (F := Ideal) x0 x1 x2 x3 x4 x5 (ix2 p k)) (GcnNet.mat x6) := by
  funext n c
  rw [val_main_v70_apply, Gcn.mm]
  refine Finset.sum_congr rfl fun k _ => ?_
  rw [show lidx_main_v70 (ix2 n c) k = ix2 n k from funext fun a => Fin.ext (by match a with | ⟨0, _⟩ => rfl | ⟨1, _⟩ => rfl),
    show ridx_main_v70 (ix2 n c) k = ix2 k c from funext fun a => Fin.ext (by match a with | ⟨0, _⟩ => rfl | ⟨1, _⟩ => rfl)]
  rfl

theorem mm4 (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x128, .f32⟩ : BufTy).Contents (Elt Ideal)) :
    (fun (p : Fin 50000) (k : Fin 128) => val_main_v89 (F := Ideal) x0 x1 x2 x3 x4 x5 x6 x7 x8 (ix2 p k))
      = Gcn.mm (fun (p : Fin 50000) (k : Fin 64) => val_main_v88 (F := Ideal) x0 x1 x2 x3 x4 x5 x6 x7 (ix2 p k)) (GcnNet.mat x8) := by
  funext n c
  rw [val_main_v89_apply, Gcn.mm]
  refine Finset.sum_congr rfl fun k _ => ?_
  rw [show lidx_main_v89 (ix2 n c) k = ix2 n k from funext fun a => Fin.ext (by match a with | ⟨0, _⟩ => rfl | ⟨1, _⟩ => rfl),
    show ridx_main_v89 (ix2 n c) k = ix2 k c from funext fun a => Fin.ext (by match a with | ⟨0, _⟩ => rfl | ⟨1, _⟩ => rfl)]
  rfl

theorem relu1 (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) :
    (fun (p : Fin 50000) (k : Fin 64) => val_main_v49 (F := Ideal) x0 x1 x2 x3 (ix2 p k))
      = Gcn.relu GcnNet.zero (fun (p : Fin 50000) (k : Fin 64) => val_main_v48 (F := Ideal) x0 x1 x2 x3 (ix2 p k)) := by
  funext n c
  rw [val_main_v49_apply, Ideal.maximumf_def, val_main_call0_v0_apply, val_main_call0_cst_apply, zero_def, Gcn.relu]

theorem relu2 (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) :
    (fun (p : Fin 50000) (k : Fin 64) => val_main_v69 (F := Ideal) x0 x1 x2 x3 x4 x5 (ix2 p k))
      = Gcn.relu GcnNet.zero (fun (p : Fin 50000) (k : Fin 64) => val_main_v68 (F := Ideal) x0 x1 x2 x3 x4 x5 (ix2 p k)) := by
  funext n c
  rw [val_main_v69_apply, Ideal.maximumf_def, val_main_call1_v0_apply, val_main_call1_cst_apply, zero_def, Gcn.relu]

/-! ## The reference's result is the network with both factors applied edge by edge -/

theorem ref_value (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x128, .f32⟩ : BufTy).Contents (Elt Ideal)) (x9 : (⟨S128, .f32⟩ : BufTy).Contents (Elt Ideal)) (n : Fin 50000) (c : Fin 128) :
    val_main_v107 (F := Ideal) x0 x1 x2 x3 x4 x5 x6 x7 x8 x9 (ix2 n c)
      = GcnNet.refNet x1 x0 x2 x3 x4 x5 x6 x7 x8 x9 n c := by
  rw [layer4, mm4, layer3_fun, mm3, relu2, layer2_fun, mm2, relu1, layer1_fun, mm1, GcnNet.refNet, Gcn.netR]

end Cert.ReferenceIdeal.RefValue

end
-- ==== Proof.lean ====
/-
  The claim: the kernel, its idealization and the reference run to the end with their arguments unchanged; the
  idealization rewrote nothing; and at the ideal instance the idealized kernel and the reference, from memories that
  agree on the arguments, end with equal result arrays.

  The network is four graph-convolution layers over 50000 nodes and 800000 edges. With `dis` the inverse square
  roots of the degrees, the reference scales every edge's message by `dis (source) · dis (target)` before summing the
  messages at their targets, while the kernel scales the node table by `dis` once, sums the gathered rows at the
  targets, and multiplies each node's sum by its own `dis` afterwards. Entry by entry the two results are
  `(∑ e, h (src e) · dis (src e)) · dis n` and `∑ e, h (src e) · (dis (src e) · dis n)`: equal because every entry is a
  real number, which holds under the precondition (the float arguments are finite, and a degree is one plus a count).
  An edge whose target is out of range is dropped by both, and an edge that lands on `n` has target `n`, so reading
  `dis` at its target reads `dis n`.

  The kernel's side: its run names the result buffer as the fold through five host stretches and five regions; each
  region's output array is the layer's matrix product (and its scaled copy) of what the region finds, and each host
  stretch's aggregation is the sum over the edges landing on a node. The reference's side: its generated run, read
  one operation at a time.
-/
import proofs.«123087_j26456998543657_2_alg».proof.Defs
import proofs.«123087_j26456998543657_2_alg».proof.Proof.Gen.Kernel
import proofs.«123087_j26456998543657_2_alg».proof.Proof.Gen.Kernel.Frame
import proofs.«123087_j26456998543657_2_alg».proof.Proof.Gen.KernelIdeal
import proofs.«123087_j26456998543657_2_alg».proof.Proof.Gen.KernelIdeal.Frame
import proofs.«123087_j26456998543657_2_alg».proof.Proof.Gen.ReferenceIdeal
import proofs.«123087_j26456998543657_2_alg».proof.Proof.Gen.Pre_finite_inputs
import proofs.«123087_j26456998543657_2_alg».proof.Proof.Gen.ReferenceIdeal.Read
import proofs.«123087_j26456998543657_2_alg».proof.Proof.NetSpec
import proofs.«123087_j26456998543657_2_alg».proof.Proof.Finite
import proofs.«123087_j26456998543657_2_alg».proof.Proof.KerRun
import proofs.«123087_j26456998543657_2_alg».proof.Proof.KerValue
import proofs.«123087_j26456998543657_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments, the reference's result array is the array the kernel's result buffer
    ends holding: entry by entry both are the network of the (real) argument arrays. -/
theorem value_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (hagree : m' ((c.tc : Thread Cert.ReferenceIdeal.nD Cert.ReferenceIdeal.τ).loc Cert.ReferenceIdeal.main_arg0) = (m ((c.tc : Thread Cert.KernelIdeal.nD Cert.KernelIdeal.τ).loc Cert.KernelIdeal.main_arg0))
      ∧ m' ((c.tc : Thread Cert.ReferenceIdeal.nD Cert.ReferenceIdeal.τ).loc Cert.ReferenceIdeal.main_arg1) = (m ((c.tc : Thread Cert.KernelIdeal.nD Cert.KernelIdeal.τ).loc Cert.KernelIdeal.main_arg1))
      ∧ m' ((c.tc : Thread Cert.ReferenceIdeal.nD Cert.ReferenceIdeal.τ).loc Cert.ReferenceIdeal.main_arg2) = (m ((c.tc : Thread Cert.KernelIdeal.nD Cert.KernelIdeal.τ).loc Cert.KernelIdeal.main_arg2))
      ∧ m' ((c.tc : Thread Cert.ReferenceIdeal.nD Cert.ReferenceIdeal.τ).loc Cert.ReferenceIdeal.main_arg3) = (m ((c.tc : Thread Cert.KernelIdeal.nD Cert.KernelIdeal.τ).loc Cert.KernelIdeal.main_arg3))
      ∧ m' ((c.tc : Thread Cert.ReferenceIdeal.nD Cert.ReferenceIdeal.τ).loc Cert.ReferenceIdeal.main_arg4) = (m ((c.tc : Thread Cert.KernelIdeal.nD Cert.KernelIdeal.τ).loc Cert.KernelIdeal.main_arg4))
      ∧ m' ((c.tc : Thread Cert.ReferenceIdeal.nD Cert.ReferenceIdeal.τ).loc Cert.ReferenceIdeal.main_arg5) = (m ((c.tc : Thread Cert.KernelIdeal.nD Cert.KernelIdeal.τ).loc Cert.KernelIdeal.main_arg5))
      ∧ m' ((c.tc : Thread Cert.ReferenceIdeal.nD Cert.ReferenceIdeal.τ).loc Cert.ReferenceIdeal.main_arg6) = (m ((c.tc : Thread Cert.KernelIdeal.nD Cert.KernelIdeal.τ).loc Cert.KernelIdeal.main_arg6))
      ∧ m' ((c.tc : Thread Cert.ReferenceIdeal.nD Cert.ReferenceIdeal.τ).loc Cert.ReferenceIdeal.main_arg7) = (m ((c.tc : Thread Cert.KernelIdeal.nD Cert.KernelIdeal.τ).loc Cert.KernelIdeal.main_arg7))
      ∧ m' ((c.tc : Thread Cert.ReferenceIdeal.nD Cert.ReferenceIdeal.τ).loc Cert.ReferenceIdeal.main_arg8) = (m ((c.tc : Thread Cert.KernelIdeal.nD Cert.KernelIdeal.τ).loc Cert.KernelIdeal.main_arg8))
      ∧ m' ((c.tc : Thread Cert.ReferenceIdeal.nD Cert.ReferenceIdeal.τ).loc Cert.ReferenceIdeal.main_arg9) = (m ((c.tc : Thread Cert.KernelIdeal.nD Cert.KernelIdeal.τ).loc Cert.KernelIdeal.main_arg9))) :
    Cert.ReferenceIdeal.Value.res_main_v107 m' c = Cert.KernelIdeal.Gen.W10 m ρ c (Proc.devRef .tc Cert.KernelIdeal.main_v61) := by
  obtain ⟨e0, e1, e2, e3, e4, e5, e6, e7, e8, e9⟩ := hagree
  obtain ⟨hx, hW1, hb1, hW2, hb2, hW3, hb3, hWd, hbd⟩ := Cert.Finite.real_of_pre _ _ _ _ _ _ _ _ _ _ (hpre c)
  rw [Cert.ReferenceIdeal.Read.val_main_v107_eq, e0, e1, e2, e3, e4, e5, e6, e7, e8, e9]
  funext i
  obtain ⟨n, q, rfl⟩ : ∃ (n : Fin 50000) (q : Fin 128), i = ix2 n q := ⟨i 0, i 1, eq_ix2 i⟩
  exact (Cert.ReferenceIdeal.RefValue.ref_value _ _ _ _ _ _ _ _ _ _ n q).trans
    ((congrFun (congrFun (GcnNet.nets_eq (Cert.KernelIdeal.HostValue.ei m c) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
        hx hW1 hb1 hW2 hb2 hW3 hb3 hWd).symm n) q).trans
      (Cert.KernelIdeal.NetValue.ker_value m ρ c n q).symm)

theorem algebraic : Cert.algebraic_KernelIdeal_ReferenceIdeal := by
  intro m ρ m' ρ' hpre hagree
  refine ⟨fun c => Cert.KernelIdeal.Gen.W10 m ρ c (Proc.devRef .tc Cert.KernelIdeal.main_v61),
    Cert.KernelIdeal.RunValue.run m ρ, ?_⟩
  exact (θ_run Cert.ReferenceIdeal.defs _ _).mono
    (fun r h c => ⟨(h c).1.trans (value_eq m ρ m' hpre c (hagree c)), (h c).2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
